-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S128x1 : Shape := ⟨2, ![128, 1]⟩
abbrev S1 : Shape := ⟨1, ![1]⟩
abbrev S16x1 : Shape := ⟨2, ![16, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16x16 : S_.BroadcastsInDim S16x16 (![] : Fin 0 → Fin S16x16.rank)
  reducesTo_S16x16_S_d0_1 : S16x16.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S16x1 : S_.BroadcastsInDim S16x1 (![] : Fin 0 → Fin S16x1.rank)
  reducesTo_S16x1_S_d0_1 : S16x1.ReducesTo [0, 1] S_

variable [Facts]

def fn_part3 {F : FTy → Type} [FloatOps F] (main_arg11 : FVec F S16x1 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S16x1 .f32 := Host.absf main_arg11
  let main_cst_20 : FVec F S_ .f32 := constant S_ .f32 0x7F800000#32
  let main_v55 : FVec F S16x1 .f32 := broadcastInDim S16x1 ![] bcast_S_S16x1 main_cst_20
  let main_v56 : IVec S16x1 1 := cmpf .olt main_v54 main_v55
  let main_c_21 : IVec S_ 1 := constantI S_ 1 1#1
  let main_v57 : IVec S_ 1 := (fun x v => Host.reduce IntOp.andi x v reducesTo_S16x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x1 .f32) (main_arg8 : FVec F S1 .f32) (main_arg9 : FVec F S16x1 .f32) (main_arg10 : FVec F S1 .f32) (main_arg11 : FVec F S16x1 .f32) (main_arg12 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S16x1 .f32 := Host.absf main_arg9
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S16x16 .f32) (main_arg5 : FVec F S128x1 .f32) (main_arg6 : FVec F S1 .f32) (main_arg7 : FVec F S128x1 .f32) (main_arg8 : FVec F S1 .f32) (main_arg9 : FVec F S16x1 .f32) (main_arg10 : FVec F S1 .f32) (main_arg11 : FVec F S16x1 .f32) (main_arg12 : FVec F S1 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S10000x10000 .f32) (main_arg3 : FVec F S128x16 .f32) (main_arg4 : FVec F S16x16 .f32) (main_arg5 : FVec F S128x1 .f32) (main_arg6 : FVec F S1 .f32) (main_arg7 : FVec F S128x1 .f32) (main_arg8 : FVec F S1 .f32) (main_arg9 : FVec F S16x1 .f32) (main_arg10 : FVec F S1 .f32) (main_arg11 : FVec F S16x1 .f32) (main_arg12 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S128x1 : Shape := ⟨2, ![128, 1]⟩
abbrev S1 : Shape := ⟨1, ![1]⟩
abbrev S16x1 : Shape := ⟨2, ![16, 1]⟩
abbrev S_ : Shape := ⟨0, ![]⟩
abbrev S1x16 : Shape := ⟨2, ![1, 16]⟩
abbrev S128x18 : Shape := ⟨2, ![128, 18]⟩
abbrev S1x1 : Shape := ⟨2, ![1, 1]⟩
abbrev S1x18 : Shape := ⟨2, ![1, 18]⟩
abbrev S16x18 : Shape := ⟨2, ![16, 18]⟩
abbrev S10000x16 : Shape := ⟨2, ![10000, 16]⟩
abbrev S200x10000 : Shape := ⟨2, ![200, 10000]⟩
abbrev S200x16 : Shape := ⟨2, ![200, 16]⟩
abbrev S10000x2 : Shape := ⟨2, ![10000, 2]⟩
abbrev S10000x18 : Shape := ⟨2, ![10000, 18]⟩
abbrev S200x1 : Shape := ⟨2, ![200, 1]⟩

abbrev nBuf : Space → Nat
  | .hbm => 24
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x16, .f32⟩
  | .hbm, ⟨4, _⟩ => ⟨S16x16, .f32⟩
  | .hbm, ⟨5, _⟩ => ⟨S128x1, .f32⟩
  | .hbm, ⟨6, _⟩ => ⟨S1, .f32⟩
  | .hbm, ⟨7, _⟩ => ⟨S128x1, .f32⟩
  | .hbm, ⟨8, _⟩ => ⟨S1, .f32⟩
  | .hbm, ⟨9, _⟩ => ⟨S16x1, .f32⟩
  | .hbm, ⟨10, _⟩ => ⟨S1, .f32⟩
  | .hbm, ⟨11, _⟩ => ⟨S16x1, .f32⟩
  | .hbm, ⟨12, _⟩ => ⟨S1, .f32⟩
  | .hbm, ⟨13, _⟩ => ⟨S_, .f32⟩
  | .hbm, ⟨14, _⟩ => ⟨S1x16, .f32⟩
  | .hbm, ⟨15, _⟩ => ⟨S128x18, .f32⟩
  | .hbm, ⟨16, _⟩ => ⟨S1x1, .f32⟩
  | .hbm, ⟨17, _⟩ => ⟨S1x1, .f32⟩
  | .hbm, ⟨18, _⟩ => ⟨S1x18, .f32⟩
  | .hbm, ⟨19, _⟩ => ⟨S16x18, .f32⟩
  | .hbm, ⟨20, _⟩ => ⟨S1x1, .f32⟩
  | .hbm, ⟨21, _⟩ => ⟨S1x1, .f32⟩
  | .hbm, ⟨22, _⟩ => ⟨S1x18, .f32⟩
  | .hbm, ⟨23, _⟩ => ⟨S10000x16, .f32⟩
  | .local _ .vmem, ⟨0, _⟩ => ⟨S10000x128, .f32⟩
  | .local _ .vmem, ⟨1, _⟩ => ⟨S128x18, .f32⟩
  | .local _ .vmem, ⟨2, _⟩ => ⟨S1x18, .f32⟩
  | .local _ .vmem, ⟨3, _⟩ => ⟨S16x18, .f32⟩
  | .local _ .vmem, ⟨4, _⟩ => ⟨S1x18, .f32⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S200x16, .f32⟩
  | .local _ .vmem, ⟨10, _⟩ => ⟨S200x16, .f32⟩
  | .local _ .vmem, ⟨11, _⟩ => ⟨S10000x16, .f32⟩
  | .local _ .vmem, ⟨12, _⟩ => ⟨S10000x2, .f32⟩
  | .local _ .vmem, ⟨13, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def k0_off1 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v8 : Index := Scalar.indexCast v7
  let c0 : Index := 0#32
  ![v8.toNat, 0]
def k0_off2 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v11 : Index := Scalar.indexCast v7
  let c1 : Index := 1#32
  ![v11.toNat, 1]
def k0_off3 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v25 : Index := Scalar.indexCast v7
  let c0_13 : Index := 0#32
  ![v25.toNat, 0]
def k0_cond3 (i : grid0.Coords) : BitVec 1 :=
  let arg0 : BitVec 32 := BitVec.ofNat 32 (i 0).val
  let c50_i32_14 : BitVec 32 := 50#32
  let v30 : BitVec 1 := Scalar.cmpi .slt arg0 c50_i32_14
  let v31 : BitVec 32 := Scalar.extui v30
  let c0_i32_15 : BitVec 32 := 0#32
  let v32 : BitVec 1 := Scalar.cmpi .ne v31 c0_i32_15
  v32

def k0_off4 (i : grid0.Coords) : Fin 2 → Nat :=
  let arg0 : BitVec 32 := BitVec.ofNat 32 (i 0).val
  let c50_i32_2 : BitVec 32 := 50#32
  let v6 : BitVec 32 := Scalar.remsi arg0 c50_i32_2
  let c200_i32 : BitVec 32 := 200#32
  let v7 : BitVec 32 := Scalar.muli v6 c200_i32
  let v36 : Index := Scalar.indexCast v7
  let c0_18 : Index := 0#32
  ![v36.toNat, 0]
def k0_cond4 (i : grid0.Coords) : BitVec 1 :=
  let arg0 : BitVec 32 := BitVec.ofNat 32 (i 0).val
  let c50_i32_16 : BitVec 32 := 50#32
  let v33 : BitVec 1 := Scalar.cmpi .sge arg0 c50_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c50_i32 : BitVec 32 := 50#32
  let v0 : BitVec 32 := Scalar.remsi arg0 c50_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c50_i32 : BitVec 32 := 50#32
  let v0 : BitVec 32 := Scalar.remsi arg0 c50_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1x16 : S_.BroadcastsInDim S1x16 (![] : Fin 0 → Fin S1x16.rank)
  concatenates_S128x16_S128x1_S128x1_S128x18_d1 : Shape.Concatenates [S128x16, S128x1, S128x1] S128x18 1
  shapeCasts_S1_S1x1 : S1.ShapeCasts S1x1
  concatenates_S1x16_S1x1_S1x1_S1x18_d1 : Shape.Concatenates [S1x16, S1x1, S1x1] S1x18 1
  concatenates_S16x16_S16x1_S16x1_S16x18_d1 : Shape.Concatenates [S16x16, S16x1, S16x1] S16x18 1
  inb_S10000x128_S10000x128_0_0 : ∀ a, (![0, 0] : Fin 2 → Nat) a + S10000x128.size a ≤ S10000x128.size a
  h_S10000x128 : 0 < S10000x128.numel
  inb_S128x18_S128x18_0_0 : ∀ a, (![0, 0] : Fin 2 → Nat) a + S128x18.size a ≤ S128x18.size a
  h_S128x18 : 0 < S128x18.numel
  shapeCasts_S128x18_S128x18 : S128x18.ShapeCasts S128x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S10000x18 : S1x18.Broadcasts S10000x18
  slices_S10000x18_o0_0_S10000x16 : S10000x18.Slices ![0, 0] S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  slices_S10000x18_o0_16_S10000x2 : S10000x18.Slices ![0, 16] S10000x2
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  inb_S16x18_S16x18_0_0 : ∀ a, (![0, 0] : Fin 2 → Nat) a + S16x18.size a ≤ S16x18.size a
  h_S16x18 : 0 < S16x18.numel
  shapeCasts_S16x18_S16x18 : S16x18.ShapeCasts S16x18
  h_S200x1 : 0 < S200x1.numel
  inb_S200x10000_S200x10000_0_0 : ∀ a, (![0, 0] : Fin 2 → Nat) a + S200x10000.size a ≤ S200x10000.size a
  h_S200x10000 : 0 < S200x10000.numel
  broadcasts_S200x1_S200x16 : S200x1.Broadcasts S200x16
  h_S200x16 : 0 < S200x16.numel
  shapeCasts_S200x16_S200x16 : S200x16.ShapeCasts S200x16
  inb_S200x16_S200x16_0_0 : ∀ a, (![0, 0] : Fin 2 → Nat) a + S200x16.size a ≤ S200x16.size a
  dot_S10000x128_S128x18_S10000x18_1_0_0_1_n_n_wf : DotDims.WF S10000x128 S128x18 S10000x18 [1] [0] [0] [1] [] []
  dot_S10000x16_S16x18_S10000x18_1_0_0_1_n_n_wf : DotDims.WF S10000x16 S16x18 S10000x18 [1] [0] [0] [1] [] []
  dot_S200x10000_S10000x16_S200x16_1_0_0_1_n_n_wf : DotDims.WF S200x10000 S10000x16 S200x16 [1] [0] [0] [1] [] []
  hrank0 : 0 < grid0.rank
  k0_off1_inb : ∀ i : grid0.Coords, ∀ a, (k0_off1 i) a + S200x1.size a ≤ S10000x2.size a
  k0_off2_inb : ∀ i : grid0.Coords, ∀ a, (k0_off2 i) a + S200x1.size a ≤ S10000x2.size a
  k0_off3_inb : ∀ i : grid0.Coords, ∀ a, (k0_off3 i) a + S200x16.size a ≤ S10000x16.size a
  k0_off4_inb : ∀ i : grid0.Coords, ∀ (k0_h3 : k0_cond3 i = 1#1), ∀ a, (k0_off4 i) a + S200x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x18.size a ≤ S128x18.size a
  hwx0_1 : ∀ i : grid0.Coords, EltTy.bits .f32 = 32 ∨ (Rect.block (s := S128x18) S128x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x18.size a ≤ S1x18.size a
  hwx0_2 : ∀ i : grid0.Coords, EltTy.bits .f32 = 32 ∨ (Rect.block (s := S1x18) S1x18.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x18.size a ≤ S16x18.size a
  hwx0_3 : ∀ i : grid0.Coords, EltTy.bits .f32 = 32 ∨ (Rect.block (s := S16x18) S16x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x18.size a ≤ S1x18.size a
  hwx0_4 : ∀ i : grid0.Coords, EltTy.bits .f32 = 32 ∨ (Rect.block (s := S1x18) S1x18.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .f32 = 32 ∨ (Rect.block (s := S10000x10000) S200x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .f32 = 32 ∨ (Rect.block (s := S10000x10000) S200x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x16.size a ≤ S10000x16.size a
  hwx0_7 : ∀ i : grid0.Coords, EltTy.bits .f32 = 32 ∨ (Rect.block (s := S10000x16) S200x16.size (cc0_transform_7 i) (hinb0_7 i)).WholeWords (EltTy.packing .f32)

variable [Facts₀]

def dot_S10000x128_S128x18_S10000x18_1_0_0_1_n_n : DotDims S10000x128 S128x18 S10000x18 where
  lhsContracting := [1]
  rhsContracting := [0]
  lhsNonContracting := [0]
  rhsNonContracting := [1]
  lhsBatch := []
  rhsBatch := []
  wf := dot_S10000x128_S128x18_S10000x18_1_0_0_1_n_n_wf
def dot_S10000x16_S16x18_S10000x18_1_0_0_1_n_n : DotDims S10000x16 S16x18 S10000x18 where
  lhsContracting := [1]
  rhsContracting := [0]
  lhsNonContracting := [0]
  rhsNonContracting := [1]
  lhsBatch := []
  rhsBatch := []
  wf := dot_S10000x16_S16x18_S10000x18_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x18.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S200x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S200x10000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S200x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S128x1 : Shape := ⟨2, ![128, 1]⟩
abbrev S1 : Shape := ⟨1, ![1]⟩
abbrev S16x1 : Shape := ⟨2, ![16, 1]⟩
abbrev S10000x1 : Shape := ⟨2, ![10000, 1]⟩
abbrev S1x1 : Shape := ⟨2, ![1, 1]⟩
abbrev S_ : Shape := ⟨0, ![]⟩
abbrev S10000x16 : Shape := ⟨2, ![10000, 16]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x16, .f32⟩
  | .hbm, ⟨4, _⟩ => ⟨S16x16, .f32⟩
  | .hbm, ⟨5, _⟩ => ⟨S128x1, .f32⟩
  | .hbm, ⟨6, _⟩ => ⟨S1, .f32⟩
  | .hbm, ⟨7, _⟩ => ⟨S128x1, .f32⟩
  | .hbm, ⟨8, _⟩ => ⟨S1, .f32⟩
  | .hbm, ⟨9, _⟩ => ⟨S16x1, .f32⟩
  | .hbm, ⟨10, _⟩ => ⟨S1, .f32⟩
  | .hbm, ⟨11, _⟩ => ⟨S16x1, .f32⟩
  | .hbm, ⟨12, _⟩ => ⟨S1, .f32⟩
  | .hbm, ⟨13, _⟩ => ⟨S10000x1, .f32⟩
  | .hbm, ⟨14, _⟩ => ⟨S1x1, .f32⟩
  | .hbm, ⟨15, _⟩ => ⟨S10000x1, .f32⟩
  | .hbm, ⟨16, _⟩ => ⟨S10000x1, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S_, .f32⟩
  | .hbm, ⟨23, _⟩ => ⟨S10000x1, .f32⟩
  | .hbm, ⟨24, _⟩ => ⟨S10000x1, .f32⟩
  | .hbm, ⟨25, _⟩ => ⟨S10000x1, .f32⟩
  | .hbm, ⟨26, _⟩ => ⟨S1x1, .f32⟩
  | .hbm, ⟨27, _⟩ => ⟨S10000x1, .f32⟩
  | .hbm, ⟨28, _⟩ => ⟨S10000x1, .f32⟩
  | .hbm, ⟨29, _⟩ => ⟨S10000x16, .f32⟩
  | .hbm, ⟨30, _⟩ => ⟨S10000x16, .f32⟩
  | .hbm, ⟨31, _⟩ => ⟨S10000x16, .f32⟩
  | .hbm, ⟨32, _⟩ => ⟨S10000x16, .f32⟩
  | .hbm, ⟨33, _⟩ => ⟨S_, .f32⟩
  | .hbm, ⟨34, _⟩ => ⟨S10000x1, .f32⟩
  | .hbm, ⟨35, _⟩ => ⟨S10000x1, .f32⟩
  | .hbm, ⟨36, _⟩ => ⟨S10000x16, .f32⟩
  | .hbm, ⟨37, _⟩ => ⟨S10000x16, .f32⟩
  | .hbm, ⟨38, _⟩ => ⟨S10000x16, .f32⟩
  | .hbm, ⟨39, _⟩ => ⟨S10000x16, .f32⟩
  | .hbm, ⟨40, _⟩ => ⟨S_, .f32⟩
  | .hbm, ⟨41, _⟩ => ⟨S10000x1, .f32⟩
  | .hbm, ⟨42, _⟩ => ⟨S10000x1, .f32⟩
  | .hbm, ⟨43, _⟩ => ⟨S10000x16, .f32⟩
  | .hbm, ⟨44, _⟩ => ⟨S10000x16, .f32⟩
  | .hbm, ⟨45, _⟩ => ⟨S10000x16, .f32⟩
  | .hbm, ⟨46, _⟩ => ⟨S10000x1, .f32⟩
  | .hbm, ⟨47, _⟩ => ⟨S1x1, .f32⟩
  | .hbm, ⟨48, _⟩ => ⟨S10000x1, .f32⟩
  | .hbm, ⟨49, _⟩ => ⟨S10000x1, .f32⟩
  | .hbm, ⟨50, _⟩ => ⟨S10000x1, .f32⟩
  | .hbm, ⟨51, _⟩ => ⟨S10000x1, .f32⟩
  | .hbm, ⟨52, _⟩ => ⟨S_, .f32⟩
  | .hbm, ⟨53, _⟩ => ⟨S10000x1, .f32⟩
  | .hbm, ⟨54, _⟩ => ⟨S10000x1, .f32⟩
  | .hbm, ⟨55, _⟩ => ⟨S_, .f32⟩
  | .hbm, ⟨56, _⟩ => ⟨S10000x1, .f32⟩
  | .hbm, ⟨57, _⟩ => ⟨S10000x1, .f32⟩
  | .hbm, ⟨58, _⟩ => ⟨S10000x1, .f32⟩
  | .hbm, ⟨59, _⟩ => ⟨S1x1, .f32⟩
  | .hbm, ⟨60, _⟩ => ⟨S10000x1, .f32⟩
  | .hbm, ⟨61, _⟩ => ⟨S10000x1, .f32⟩
  | .hbm, ⟨62, _⟩ => ⟨S10000x16, .f32⟩
  | .hbm, ⟨63, _⟩ => ⟨S10000x16, .f32⟩
  | .hbm, ⟨64, _⟩ => ⟨S10000x16, .f32⟩
  | .hbm, ⟨65, _⟩ => ⟨S10000x16, .f32⟩
  | .hbm, ⟨66, _⟩ => ⟨S_, .f32⟩
  | .hbm, ⟨67, _⟩ => ⟨S10000x1, .f32⟩
  | .hbm, ⟨68, _⟩ => ⟨S10000x1, .f32⟩
  | .hbm, ⟨69, _⟩ => ⟨S10000x16, .f32⟩
  | .hbm, ⟨70, _⟩ => ⟨S10000x16, .f32⟩
  | .hbm, ⟨71, _⟩ => ⟨S10000x16, .f32⟩
  | .hbm, ⟨72, _⟩ => ⟨S10000x16, .f32⟩
  | .hbm, ⟨73, _⟩ => ⟨S_, .f32⟩
  | .hbm, ⟨74, _⟩ => ⟨S10000x1, .f32⟩
  | .hbm, ⟨75, _⟩ => ⟨S10000x1, .f32⟩
  | .hbm, ⟨76, _⟩ => ⟨S10000x16, .f32⟩
  | .hbm, ⟨77, _⟩ => ⟨S10000x16, .f32⟩
  | .hbm, ⟨78, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  dot_S10000x128_S128x1_S10000x1_1_0_0_1_n_n_wf : DotDims.WF S10000x128 S128x1 S10000x1 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x1_S10000x1_1_0_0_1_n_n_wf : DotDims.WF S10000x16 S16x1 S10000x1 [1] [0] [0] [1] [] []
  dot_S10000x16_S16x16_S10000x16_1_0_0_1_n_n_wf : DotDims.WF S10000x16 S16x16 S10000x16 [1] [0] [0] [1] [] []

variable [Facts₀]

def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KKit.lean ====
/-
  The one region of the fused kernel as printed word for word, up to its body: the program as host operations
  followed by the region, the argument arrays unchanged by the host operations, each window's block at a grid point,
  the body's four conditionals decided over the 100 grid points, and the frame claim read off a run of the region.
-/
import proofs.«140471_g88347477279355_cont_sun_m_1058_38_alg».proof.Proof.Gen.Kernel.Launch
import proofs.«140471_g88347477279355_cont_sun_m_1058_38_alg».proof.Proof.Gen.Kernel.Skeleton
import proofs.«140471_g88347477279355_cont_sun_m_1058_38_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the one region, and the buffers as the region finds them -/

/-- The TensorCore buffers of core c when the region is entered: the launch memory after the ten host operations
    that pack the weights and biases into the two [k, 18] matrices and the two [1, 18] rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it
    there or kept it from the point before (the block index did not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that forgets the output -/

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Eq.mp (congrFun ((rdat c).ArrAt_in 0 rfl _) _) ((h c).1 0)).trans ((hA c 0).trans (V_main_arg0 m c)),
      (Eq.mp (congrFun ((rdat c).ArrAt_in 5 rfl _) _) ((h c).1 5)).trans ((hA c 5).trans (V_main_arg1 m c)),
      (Eq.mp (congrFun ((rdat c).ArrAt_in 6 rfl _) _) ((h c).1 6)).trans ((hA c 6).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The four conditionals of the body, decided over the grid

    The body tests, on the grid coordinate i: i = 0 (first layer's per-node quantities are computed), i = 50 (the
    second layer's), i < 50 (the row block is kept as first-layer output), i ≥ 50 (it is stored to the result). -/

abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
abbrev cond2 (i : grid0.Coords) : Prop := (Scalar.cmpi .ne (Scalar.extui (Scalar.cmpi .eq (BitVec.ofNat 32 (i 0).val) 50#32)) 0#32) = 1#1
theorem hcond2 : ∀ t : Fin cfg0.N, cond2 (grid0.coords t) ↔ t.val = 50 :=
  (by decide +kernel : ∀ t : Fin grid0.N, cond2 (grid0.coords t) ↔ t.val = 50)
abbrev cond3 (i : grid0.Coords) : Prop := k0_cond3 i = 1#1
theorem hcond3 : ∀ t : Fin cfg0.N, cond3 (grid0.coords t) ↔ t.val < 50 :=
  (by decide +kernel : ∀ t : Fin grid0.N, cond3 (grid0.coords t) ↔ t.val < 50)
abbrev cond4 (i : grid0.Coords) : Prop := k0_cond4 i = 1#1
theorem hcond4 : ∀ t : Fin cfg0.N, cond4 (grid0.coords t) ↔ 50 ≤ t.val :=
  (by decide +kernel : ∀ t : Fin grid0.N, cond4 (grid0.coords t) ↔ 50 ≤ t.val)

/-! ## Where the windows are idle -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, 50 ≤ t.val → cfg0.idle 7 (grid0.coords t) = false := by decide +kernel
theorem idleAt7 : ∀ t : Fin cfg0.N, t.val < 50 → cfg0.idle 7 (grid0.coords t) = true := by decide +kernel
theorem noFlush7 : ∀ t : Fin cfg0.N, t.val < 50 → (cfg0.win 7).flush t = false := by decide +kernel

/-! ## The staging and scratch memrefs at a point -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x18 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x18 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x18 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x18 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x16 .f32 := win0_7.stage (cfg0.slots t 7)
abbrev hs7 (t : Fin cfg0.N) : (ms7 t).IsWhole := hstage0_7 ((cfg0.slots t 7).cast nbuf0_7)
abbrev scM0 : Memref sig .tc .vmem S10000x16 .f32 := Memref.whole cc0_scratch0
abbrev scM1 : Memref sig .tc .vmem S10000x2 .f32 := Memref.whole cc0_scratch1
abbrev scM2 : Memref sig .tc .vmem S10000x16 .f32 := Memref.whole cc0_scratch2

/-- The region's own invariant with the three scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.Kernel.Fr

end
-- ==== Proof.KRunFA.lean ====
/-
  The kernel body at the first grid point (the first layer's per-node quantities are computed and stored, then the first row block): it runs without a fault whatever the output and scratch buffers hold.
-/
import proofs.«140471_g88347477279355_cont_sun_m_1058_38_alg».proof.Proof.Gen.Kernel.Launch
import proofs.«140471_g88347477279355_cont_sun_m_1058_38_alg».proof.Proof.Gen.Kernel.Skeleton
import proofs.«140471_g88347477279355_cont_sun_m_1058_38_alg».proof.Proof.Gen.Kernel.Points
import proofs.«140471_g88347477279355_cont_sun_m_1058_38_alg».proof.Proof.KKit
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_A (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : cond1 i) (hc2 : ¬cond2 i) (hc3 : cond3 i) (hc4 : ¬cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.Fr

end
-- ==== Proof.KRunFB.lean ====
/-
  The kernel body at a grid point 1 ≤ i < 50 (no per-node quantities recomputed, the row block kept in scratch): it runs without a fault whatever the output and scratch buffers hold.
-/
import proofs.«140471_g88347477279355_cont_sun_m_1058_38_alg».proof.Proof.Gen.Kernel.Launch
import proofs.«140471_g88347477279355_cont_sun_m_1058_38_alg».proof.Proof.Gen.Kernel.Skeleton
import proofs.«140471_g88347477279355_cont_sun_m_1058_38_alg».proof.Proof.Gen.Kernel.Points
import proofs.«140471_g88347477279355_cont_sun_m_1058_38_alg».proof.Proof.KKit
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_B (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : cond3 i) (hc4 : ¬cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.Fr

end
-- ==== Proof.KRunFC.lean ====
/-
  The kernel body at grid point 50 (the second layer's per-node quantities are computed from the first layer's result, then the first row block of the result is stored): it runs without a fault whatever the output and scratch buffers hold.
-/
import proofs.«140471_g88347477279355_cont_sun_m_1058_38_alg».proof.Proof.Gen.Kernel.Launch
import proofs.«140471_g88347477279355_cont_sun_m_1058_38_alg».proof.Proof.Gen.Kernel.Skeleton
import proofs.«140471_g88347477279355_cont_sun_m_1058_38_alg».proof.Proof.Gen.Kernel.Points
import proofs.«140471_g88347477279355_cont_sun_m_1058_38_alg».proof.Proof.KKit
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_C (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : cond2 i) (hc3 : ¬cond3 i) (hc4 : cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.Fr

end
-- ==== Proof.KRunFD.lean ====
/-
  The kernel body at a grid point 50 < i < 100 (a row block of the result is stored): it runs without a fault whatever the output and scratch buffers hold.
-/
import proofs.«140471_g88347477279355_cont_sun_m_1058_38_alg».proof.Proof.Gen.Kernel.Launch
import proofs.«140471_g88347477279355_cont_sun_m_1058_38_alg».proof.Proof.Gen.Kernel.Skeleton
import proofs.«140471_g88347477279355_cont_sun_m_1058_38_alg».proof.Proof.Gen.Kernel.Points
import proofs.«140471_g88347477279355_cont_sun_m_1058_38_alg».proof.Proof.KKit
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_D (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : ¬cond3 i) (hc4 : cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.Fr

end
-- ==== Proof.KFrame.lean ====
/-
  The frame of the program: the region's proof data with the output window and the scratch buffers left unnamed
  (nothing of the frame depends on what they hold), the body's obligation at every grid point from the four cases'
  runs, and the run of the whole program: it terminates, nothing faults, every argument array ends as launched.
-/
import proofs.«140471_g88347477279355_cont_sun_m_1058_38_alg».proof.Proof.Gen.Kernel.Launch
import proofs.«140471_g88347477279355_cont_sun_m_1058_38_alg».proof.Proof.Gen.Kernel.Skeleton
import proofs.«140471_g88347477279355_cont_sun_m_1058_38_alg».proof.Proof.Gen.Kernel.Points
import proofs.«140471_g88347477279355_cont_sun_m_1058_38_alg».proof.Proof.KRunFA
import proofs.«140471_g88347477279355_cont_sun_m_1058_38_alg».proof.Proof.KRunFB
import proofs.«140471_g88347477279355_cont_sun_m_1058_38_alg».proof.Proof.KRunFC
import proofs.«140471_g88347477279355_cont_sun_m_1058_38_alg».proof.Proof.KRunFD
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is forgotten: nothing reads what the kernel leaves in it. -/
def forgets0 : Fin 8 → Bool := fun w => w.val == 7

/-- The proof data: the arrays as the region finds them; after the body each input's buffer at its block, the
    output unnamed; the invariant the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms7 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  have hN : t.val < 100 := lt_of_lt_of_eq t.isLt (show cfg0.N = 100 from N_0)
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  rw [show (dats m 0 c).leavesExact 4 t = owns (c : Thread nD τ) (ms4 t) fullShare ((dats m 0 c).after 4 t) from by
    unfold Dat.leavesExact; rw [liveAt4 t], after0_4]
  rw [show (dats m 0 c).leavesExact 5 t = owns (c : Thread nD τ) (ms5 t) fullShare ((dats m 0 c).after 5 t) from by
    unfold Dat.leavesExact; rw [liveAt5 t], after0_5]
  rw [show (dats m 0 c).leavesExact 6 t = owns (c : Thread nD τ) (ms6 t) fullShare ((dats m 0 c).after 6 t) from by
    unfold Dat.leavesExact; rw [liveAt6 t], after0_6]
  by_cases h0 : t.val = 0
  ·
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runF_A c (grid0.coords t) _ _ _ _ _ _ _ _ _ _ _ _ _ _ _ _ _ _ _ _ _ _ ((hcond1 t).mpr h0) (fun h => by have := (hcond2 t).mp h; omega) ((hcond3 t).mpr (by omega)) (fun h => by have := (hcond4 t).mp h; omega) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h50 : t.val = 50
    ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runF_C c (grid0.coords t) _ _ _ _ _ _ _ _ _ _ _ _ _ _ _ _ _ _ _ _ _ _ (fun h => h0 ((hcond1 t).mp h)) ((hcond2 t).mpr h50) (fun h => by have := (hcond3 t).mp h; omega) ((hcond4 t).mpr (by omega)) (iblk m c 0 t) (iblk m c 1 t) (iblk m c 2 t) (iblk m c 3 t) (iblk m c 4 t) (iblk m c 5 t) (iblk m c 6 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        iintro ⟨H0, H1, H2, H3, H4, H5, H6, H7, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases hlt : t.val < 50
      ·
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((runF_B c (grid0.coords t) _ _ _ _ _ _ _ _ _ _ _ _ _ _ _ _ _ _ _ _ _ _ (fun h => h0 ((hcond1 t).mp h)) (fun h => h50 ((hcond2 t).mp h)) ((hcond3 t).mpr hlt) (fun h => by have := (hcond4 t).mp h; omega) (iblk m c 0 t) (iblk m c 1 t) (iblk m c 2 t) (iblk m c 3 t) (iblk m c 4 t) (iblk m c 5 t) (iblk m c 6 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          iintro ⟨H0, H1, H2, H3, H4, H5, H6, H7, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
      ·
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((runF_D c (grid0.coords t) _ _ _ _ _ _ _ _ _ _ _ _ _ _ _ _ _ _ _ _ _ _ (fun h => h0 ((hcond1 t).mp h)) (fun h => h50 ((hcond2 t).mp h)) (fun h => hlt ((hcond3 t).mp h)) ((hcond4 t).mpr (by omega)) (iblk m c 0 t) (iblk m c 1 t) (iblk m c 2 t) (iblk m c 3 t) (iblk m c 4 t) (iblk m c 5 t) (iblk m c 6 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          iintro ⟨H0, H1, H2, H3, H4, H5, H6, H7, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7

theorem body_obligation (c : Dev nD) : BodyObligation (dats (F := F) m 0 c) (defs₀ (F := F)) Variants.none () Set.univ forgets0 := fun t => by
  rw [bigSep_W0, bigSep_W0]
  exact sound_body m c t

set_option backward.isDefEq.respectTransparency.types false in
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: every weakly fair execution terminates, nothing faults, the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

end Cert.Kernel.Fr

end
-- ==== Proof.KIKit.lean ====
/-
  The one region of the fused kernel, up to its body: the program as host operations followed by the region, the
  argument arrays unchanged by the host operations, each window's block at a grid point, the body's four
  conditionals decided over the 100 grid points, and the frame claim read off a run of the region.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the one region, and the buffers as the region finds them -/

/-- The TensorCore buffers of core c when the region is entered: the launch memory after the ten host operations
    that pack the weights and biases into the two [k, 18] matrices and the two [1, 18] rows. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it
    there or kept it from the point before (the block index did not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that forgets the output -/

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Eq.mp (congrFun ((rdat c).ArrAt_in 0 rfl _) _) ((h c).1 0)).trans ((hA c 0).trans (V_main_arg0 m c)),
      (Eq.mp (congrFun ((rdat c).ArrAt_in 5 rfl _) _) ((h c).1 5)).trans ((hA c 5).trans (V_main_arg1 m c)),
      (Eq.mp (congrFun ((rdat c).ArrAt_in 6 rfl _) _) ((h c).1 6)).trans ((hA c 6).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The four conditionals of the body, decided over the grid

    The body tests, on the grid coordinate i: i = 0 (first layer's per-node quantities are computed), i = 50 (the
    second layer's), i < 50 (the row block is kept as first-layer output), i ≥ 50 (it is stored to the result). -/

abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
abbrev cond2 (i : grid0.Coords) : Prop := (Scalar.cmpi .ne (Scalar.extui (Scalar.cmpi .eq (BitVec.ofNat 32 (i 0).val) 50#32)) 0#32) = 1#1
theorem hcond2 : ∀ t : Fin cfg0.N, cond2 (grid0.coords t) ↔ t.val = 50 :=
  (by decide +kernel : ∀ t : Fin grid0.N, cond2 (grid0.coords t) ↔ t.val = 50)
abbrev cond3 (i : grid0.Coords) : Prop := k0_cond3 i = 1#1
theorem hcond3 : ∀ t : Fin cfg0.N, cond3 (grid0.coords t) ↔ t.val < 50 :=
  (by decide +kernel : ∀ t : Fin grid0.N, cond3 (grid0.coords t) ↔ t.val < 50)
abbrev cond4 (i : grid0.Coords) : Prop := k0_cond4 i = 1#1
theorem hcond4 : ∀ t : Fin cfg0.N, cond4 (grid0.coords t) ↔ 50 ≤ t.val :=
  (by decide +kernel : ∀ t : Fin grid0.N, cond4 (grid0.coords t) ↔ 50 ≤ t.val)

/-! ## Where the windows are idle -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, 50 ≤ t.val → cfg0.idle 7 (grid0.coords t) = false := by decide +kernel
theorem idleAt7 : ∀ t : Fin cfg0.N, t.val < 50 → cfg0.idle 7 (grid0.coords t) = true := by decide +kernel
theorem noFlush7 : ∀ t : Fin cfg0.N, t.val < 50 → (cfg0.win 7).flush t = false := by decide +kernel

/-! ## The staging and scratch memrefs at a point -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x18 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x18 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x18 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x18 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x16 .f32 := win0_7.stage (cfg0.slots t 7)
abbrev hs7 (t : Fin cfg0.N) : (ms7 t).IsWhole := hstage0_7 ((cfg0.slots t 7).cast nbuf0_7)
abbrev scM0 : Memref sig .tc .vmem S10000x16 .f32 := Memref.whole cc0_scratch0
abbrev scM1 : Memref sig .tc .vmem S10000x2 .f32 := Memref.whole cc0_scratch1
abbrev scM2 : Memref sig .tc .vmem S10000x16 .f32 := Memref.whole cc0_scratch2

/-- The region's own invariant with the three scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Fr

end
-- ==== Proof.KIRunFA.lean ====
/-
  The kernel body at the first grid point (the first layer's per-node quantities are computed and stored, then the first row block): it runs without a fault whatever the output and scratch buffers hold.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_A (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : cond1 i) (hc2 : ¬cond2 i) (hc3 : cond3 i) (hc4 : ¬cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.KernelIdeal.Fr

end
-- ==== Proof.KIRunFB.lean ====
/-
  The kernel body at a grid point 1 ≤ i < 50 (no per-node quantities recomputed, the row block kept in scratch): it runs without a fault whatever the output and scratch buffers hold.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_B (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : cond3 i) (hc4 : ¬cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.KernelIdeal.Fr

end
-- ==== Proof.KIRunFC.lean ====
/-
  The kernel body at grid point 50 (the second layer's per-node quantities are computed from the first layer's result, then the first row block of the result is stored): it runs without a fault whatever the output and scratch buffers hold.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_C (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : cond2 i) (hc3 : ¬cond3 i) (hc4 : cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.KernelIdeal.Fr

end
-- ==== Proof.KIRunFD.lean ====
/-
  The kernel body at a grid point 50 < i < 100 (a row block of the result is stored): it runs without a fault whatever the output and scratch buffers hold.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of this case, on whole memrefs: the seven input buffers at their contents, the output
    buffer and the three scratch buffers at anything; it runs to the end without a fault, hands the inputs back as
    they were and the other four at some contents. -/
theorem runF_D (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : ¬cond3 i) (hc4 : cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
    intro E K
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.KernelIdeal.Fr

end
-- ==== Proof.KIFrame.lean ====
/-
  The frame of the program: the region's proof data with the output window and the scratch buffers left unnamed
  (nothing of the frame depends on what they hold), the body's obligation at every grid point from the four cases'
  runs, and the run of the whole program: it terminates, nothing faults, every argument array ends as launched.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIRunFA
import proofs.«140471_g88347477279355_cont_sun_m_1058_38_alg».proof.Proof.KIRunFB
import proofs.«140471_g88347477279355_cont_sun_m_1058_38_alg».proof.Proof.KIRunFC
import proofs.«140471_g88347477279355_cont_sun_m_1058_38_alg».proof.Proof.KIRunFD
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is forgotten: nothing reads what the kernel leaves in it. -/
def forgets0 : Fin 8 → Bool := fun w => w.val == 7

/-- The proof data: the arrays as the region finds them; after the body each input's buffer at its block, the
    output unnamed; the invariant the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms7 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  have hN : t.val < 100 := lt_of_lt_of_eq t.isLt (show cfg0.N = 100 from N_0)
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  rw [show (dats m 0 c).leavesExact 2 t = owns (c : Thread nD τ) (ms2 t) fullShare ((dats m 0 c).after 2 t) from by
    unfold Dat.leavesExact; rw [liveAt2 t], after0_2]
  rw [show (dats m 0 c).leavesExact 3 t = owns (c : Thread nD τ) (ms3 t) fullShare ((dats m 0 c).after 3 t) from by
    unfold Dat.leavesExact; rw [liveAt3 t], after0_3]
  rw [show (dats m 0 c).leavesExact 4 t = owns (c : Thread nD τ) (ms4 t) fullShare ((dats m 0 c).after 4 t) from by
    unfold Dat.leavesExact; rw [liveAt4 t], after0_4]
  rw [show (dats m 0 c).leavesExact 5 t = owns (c : Thread nD τ) (ms5 t) fullShare ((dats m 0 c).after 5 t) from by
    unfold Dat.leavesExact; rw [liveAt5 t], after0_5]
  rw [show (dats m 0 c).leavesExact 6 t = owns (c : Thread nD τ) (ms6 t) fullShare ((dats m 0 c).after 6 t) from by
    unfold Dat.leavesExact; rw [liveAt6 t], after0_6]
  by_cases h0 : t.val = 0
  ·
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runF_A c (grid0.coords t) _ _ _ _ _ _ _ _ _ _ _ _ _ _ _ _ _ _ _ _ _ _ ((hcond1 t).mpr h0) (fun h => by have := (hcond2 t).mp h; omega) ((hcond3 t).mpr (by omega)) (fun h => by have := (hcond4 t).mp h; omega) (iblk m c 0 t) (iblk m c 1 t) (iblk m c 2 t) (iblk m c 3 t) (iblk m c 4 t) (iblk m c 5 t) (iblk m c 6 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h50 : t.val = 50
    ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runF_C c (grid0.coords t) _ _ _ _ _ _ _ _ _ _ _ _ _ _ _ _ _ _ _ _ _ _ (fun h => h0 ((hcond1 t).mp h)) ((hcond2 t).mpr h50) (fun h => by have := (hcond3 t).mp h; omega) ((hcond4 t).mpr (by omega)) (iblk m c 0 t) (iblk m c 1 t) (iblk m c 2 t) (iblk m c 3 t) (iblk m c 4 t) (iblk m c 5 t) (iblk m c 6 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        iintro ⟨H0, H1, H2, H3, H4, H5, H6, H7, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases hlt : t.val < 50
      ·
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((runF_B c (grid0.coords t) _ _ _ _ _ _ _ _ _ _ _ _ _ _ _ _ _ _ _ _ _ _ (fun h => h0 ((hcond1 t).mp h)) (fun h => h50 ((hcond2 t).mp h)) ((hcond3 t).mpr hlt) (fun h => by have := (hcond4 t).mp h; omega) (iblk m c 0 t) (iblk m c 1 t) (iblk m c 2 t) (iblk m c 3 t) (iblk m c 4 t) (iblk m c 5 t) (iblk m c 6 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          iintro ⟨H0, H1, H2, H3, H4, H5, H6, H7, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7
      ·
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((runF_D c (grid0.coords t) _ _ _ _ _ _ _ _ _ _ _ _ _ _ _ _ _ _ _ _ _ _ (fun h => h0 ((hcond1 t).mp h)) (fun h => h50 ((hcond2 t).mp h)) (fun h => hlt ((hcond3 t).mp h)) ((hcond4 t).mpr (by omega)) (iblk m c 0 t) (iblk m c 1 t) (iblk m c 2 t) (iblk m c 3 t) (iblk m c 4 t) (iblk m c 5 t) (iblk m c 6 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          iintro ⟨H0, H1, H2, H3, H4, H5, H6, H7, HS0, HS1, HS2⟩
          isplitl [HS0 HS1 HS2 Hg]
          · isplitl [HS0 HS1 HS2]
            · isplitl [HS0]; · iexact HS0
              isplitl [HS1]; · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexact H7

theorem body_obligation (c : Dev nD) : BodyObligation (dats (F := F) m 0 c) (defs₀ (F := F)) Variants.none () Set.univ forgets0 := fun t => by
  rw [bigSep_W0, bigSep_W0]
  exact sound_body m c t

set_option backward.isDefEq.respectTransparency.types false in
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: every weakly fair execution terminates, nothing faults, the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

end Cert.KernelIdeal.Fr

end
-- ==== Proof.LayerSpec.lean ====
/-
  The mathematics both programs compute, over the extended reals, with no program in sight.

  One gated propagation layer takes node features `X` (n × k), two dense adjacency matrices `A`, `Ak` (n × n), a weight
  matrix `W` (k × h), two score columns `sc`, `dk` (length k) and two scalar biases `b`, `db`. With
      xw = X · W,      lg = X · sc + b,      dd = X · dk + db,      s = logistic lg,
  row r, column c of the layer's result is
      s r · (A · xw) r c + (1 − s r) · (Ak · xw) r c + (γ · dd r) · xw r c,        γ the f32 word of 0.1.
  `layerR` spells it in exactly that grouping; `layerK` spells the convex combination as
      (Ak · xw) r c + s r · ((A · xw) r c − (Ak · xw) r c),
  which is the same real number whenever every quantity is real, and need not be once an infinity appears
  (distributing s over the difference is a law of the reals, not of the extended reals).
  The network is two such layers, the second fed the first one's result, both over the same two adjacency matrices.
-/
import Idealize.ShloMosaic.PureOps.Ideal
import Idealize.ShloMosaic.Lib.ValueIdx

noncomputable section

open scoped BigOperators

namespace Cert.Gated

open Idealize.ShloMosaic Idealize.ShloMosaic.ValueIdx

/-- The scale of the feature-difference term: the f32 word nearest to one tenth, as the extended real it denotes. -/
def gam : EReal := Ideal.ofBits .f32 0x3DCCCCCD#32

variable {n k h : ℕ}

/-- The matrix product X · W at row r, column c. -/
def proj (X : Fin n → Fin k → EReal) (W : Fin k → Fin h → EReal) (r : Fin n) (c : Fin h) : EReal :=
  ∑ j, X r j * W j c

/-- The matrix–vector product X · v plus a scalar bias, at row r. -/
def affine (X : Fin n → Fin k → EReal) (v : Fin k → EReal) (b : EReal) (r : Fin n) : EReal :=
  (∑ j, X r j * v j) + b

/-- A layer's result from its three per-node quantities, the convex combination written as q + s · (p − q). -/
def rowOutK (A Ak : Fin n → Fin n → EReal) (xw : Fin n → Fin h → EReal) (lg dd : Fin n → EReal)
    (r : Fin n) (c : Fin h) : EReal :=
  ((∑ j, Ak r j * xw j c) + Ideal.logistic (lg r) * ((∑ j, A r j * xw j c) - (∑ j, Ak r j * xw j c)))
    + (gam * dd r) * xw r c

/-- The same with the convex combination written as s · p + (1 − s) · q. -/
def rowOutR (A Ak : Fin n → Fin n → EReal) (xw : Fin n → Fin h → EReal) (lg dd : Fin n → EReal)
    (r : Fin n) (c : Fin h) : EReal :=
  (Ideal.logistic (lg r) * (∑ j, A r j * xw j c) + (1 - Ideal.logistic (lg r)) * (∑ j, Ak r j * xw j c))
    + (gam * dd r) * xw r c

/-- One layer, the combination as q + s · (p − q). -/
def layerK (A Ak : Fin n → Fin n → EReal) (X : Fin n → Fin k → EReal) (W : Fin k → Fin h → EReal)
    (sc dk : Fin k → EReal) (b db : EReal) : Fin n → Fin h → EReal :=
  rowOutK A Ak (proj X W) (affine X sc b) (affine X dk db)

/-- One layer, the combination as s · p + (1 − s) · q. -/
def layerR (A Ak : Fin n → Fin n → EReal) (X : Fin n → Fin k → EReal) (W : Fin k → Fin h → EReal)
    (sc dk : Fin k → EReal) (b db : EReal) : Fin n → Fin h → EReal :=
  rowOutR A Ak (proj X W) (affine X sc b) (affine X dk db)

/-! ## Arrays as matrices, columns and scalars -/

/-- A rank-2 array read as a matrix. -/
def mat {n0 n1 : ℕ} (a : (⟨2, ![n0, n1]⟩ : Shape).Idx → EReal) (r : Fin n0) (c : Fin n1) : EReal := a (ix2 r c)
/-- An [n0, 1] array read as a column. -/
def col {n0 : ℕ} (a : (⟨2, ![n0, 1]⟩ : Shape).Idx → EReal) (j : Fin n0) : EReal := a (ix2 j 0)
/-- A one-element array read as its element. -/
def scal (a : (⟨1, ![1]⟩ : Shape).Idx → EReal) : EReal := a (ix1 0)

/-- The two-layer network on the thirteen argument arrays, with either spelling of the layer:
    `layer` is `layerK` or `layerR`. -/
def net (layer : ∀ {n k h : ℕ}, (Fin n → Fin n → EReal) → (Fin n → Fin n → EReal) → (Fin n → Fin k → EReal) →
      (Fin k → Fin h → EReal) → (Fin k → EReal) → (Fin k → EReal) → EReal → EReal → Fin n → Fin h → EReal)
    (x : (⟨2, ![10000, 128]⟩ : Shape).Idx → EReal) (adj adjk : (⟨2, ![10000, 10000]⟩ : Shape).Idx → EReal)
    (w1 : (⟨2, ![128, 16]⟩ : Shape).Idx → EReal) (w2 : (⟨2, ![16, 16]⟩ : Shape).Idx → EReal)
    (s0 : (⟨2, ![128, 1]⟩ : Shape).Idx → EReal) (b0 : (⟨1, ![1]⟩ : Shape).Idx → EReal)
    (d0 : (⟨2, ![128, 1]⟩ : Shape).Idx → EReal) (db0 : (⟨1, ![1]⟩ : Shape).Idx → EReal)
    (s1 : (⟨2, ![16, 1]⟩ : Shape).Idx → EReal) (b1 : (⟨1, ![1]⟩ : Shape).Idx → EReal)
    (d1 : (⟨2, ![16, 1]⟩ : Shape).Idx → EReal) (db1 : (⟨1, ![1]⟩ : Shape).Idx → EReal) :
    (⟨2, ![10000, 16]⟩ : Shape).Idx → EReal :=
  fun i =>
    layer (mat adj) (mat adjk)
      (layer (mat adj) (mat adjk) (mat x) (mat w1) (col s0) (col d0) (scal b0) (scal db0))
      (mat w2) (col s1) (col d1) (scal b1) (scal db1) (i 0) (i 1)

/-- The kernel's network: both layers with the combination as q + s · (p − q). -/
abbrev netK := net (fun {n k h} => @layerK n k h)
/-- The reference's network: both layers with the combination as s · p + (1 − s) · q. -/
abbrev netR := net (fun {n k h} => @layerR n k h)

end Cert.Gated

end
-- ==== Proof.LayerBlocks.lean ====
/-
  The quantities the fused kernel keeps between grid points, as whole arrays of the layer's mathematics:
  the projected features xw = X · W as a [10000, 16] array, the gate logit and the dk term side by side as a
  [10000, 2] array, and a layer's result as a [10000, 16] array. A row block of 200 rows starting at row 200 · q
  of the result depends on the same rows of the logit / dk array and of xw, on the same rows of the two adjacency
  matrices, and on all of xw.
-/
import proofs.«140471_g88347477279355_cont_sun_m_1058_38_alg».proof.Proof.LayerSpec

noncomputable section

open scoped BigOperators

namespace Cert.Gated

open Idealize.ShloMosaic Idealize.ShloMosaic.ValueIdx

/-- The projected features X · W, as an array. -/
def xwArr {k : ℕ} (X : Fin 10000 → Fin k → EReal) (W : Fin k → Fin 16 → EReal) :
    (⟨2, ![10000, 16]⟩ : Shape).Idx → EReal := fun i => proj X W (i 0) (i 1)

/-- Column 0 the gate logit X · sc + b, column 1 the dk term X · dk + db, as an array. -/
def sdArr {k : ℕ} (X : Fin 10000 → Fin k → EReal) (sc dk : Fin k → EReal) (b db : EReal) :
    (⟨2, ![10000, 2]⟩ : Shape).Idx → EReal :=
  fun i => if (i 1).val = 0 then affine X sc b (i 0) else affine X dk db (i 0)

/-- A layer's result (the combination as q + s · (p − q)), as an array. -/
def outArr {k : ℕ} (A Ak : Fin 10000 → Fin 10000 → EReal) (X : Fin 10000 → Fin k → EReal) (W : Fin k → Fin 16 → EReal)
    (sc dk : Fin k → EReal) (b db : EReal) : (⟨2, ![10000, 16]⟩ : Shape).Idx → EReal :=
  fun i => layerK A Ak X W sc dk b db (i 0) (i 1)

/-- Row p of block q, as a row of the whole array: 200 · q + p. -/
def blockRow (q : Fin 50) (p : Fin 200) : Fin 10000 := ⟨200 * q.val + p.val, by omega⟩

end Cert.Gated

end
-- ==== Proof.KIValDefs.lean ====
/-
  The kernel's value at the ideal reading, as proof data of its one region.

  The grid has 100 points. Points 0 … 49 are the first layer: point 0 first fills the projected-features scratch with
  xw⁰ = X · W1 and the logit / dk scratch with (X · sc⁰ + b⁰ | X · dk⁰ + db⁰); every point t < 50 then writes rows
  200 t … 200 t + 199 of the first layer's result x¹ into a third scratch. Point 50 refills the first two scratch
  buffers from x¹ (all 10000 rows of it written by then) with W2, sc¹, dk¹, b¹, db¹; every point t ≥ 50 stores rows
  200 (t − 50) … of the second layer's result to the output window, which the pipeline writes back to the result
  array after each of those points. The invariant between points names exactly that.
-/
import proofs.«140471_g88347477279355_cont_sun_m_1058_38_alg».proof.Proof.KIKit
import proofs.«140471_g88347477279355_cont_sun_m_1058_38_alg».proof.Proof.LayerBlocks
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

/-! ## The argument arrays and the carried quantities -/

abbrev a0 (c : Dev nD) : S10000x128.Idx → EReal := m ((c : Thread nD τ).loc main_arg0)
abbrev a1 (c : Dev nD) : S10000x10000.Idx → EReal := m ((c : Thread nD τ).loc main_arg1)
abbrev a2 (c : Dev nD) : S10000x10000.Idx → EReal := m ((c : Thread nD τ).loc main_arg2)
abbrev a3 (c : Dev nD) : S128x16.Idx → EReal := m ((c : Thread nD τ).loc main_arg3)
abbrev a4 (c : Dev nD) : S16x16.Idx → EReal := m ((c : Thread nD τ).loc main_arg4)
abbrev a5 (c : Dev nD) : S128x1.Idx → EReal := m ((c : Thread nD τ).loc main_arg5)
abbrev a6 (c : Dev nD) : S1.Idx → EReal := m ((c : Thread nD τ).loc main_arg6)
abbrev a7 (c : Dev nD) : S128x1.Idx → EReal := m ((c : Thread nD τ).loc main_arg7)
abbrev a8 (c : Dev nD) : S1.Idx → EReal := m ((c : Thread nD τ).loc main_arg8)
abbrev a9 (c : Dev nD) : S16x1.Idx → EReal := m ((c : Thread nD τ).loc main_arg9)
abbrev a10 (c : Dev nD) : S1.Idx → EReal := m ((c : Thread nD τ).loc main_arg10)
abbrev a11 (c : Dev nD) : S16x1.Idx → EReal := m ((c : Thread nD τ).loc main_arg11)
abbrev a12 (c : Dev nD) : S1.Idx → EReal := m ((c : Thread nD τ).loc main_arg12)

/-- xw⁰ = X · W1. -/
def XW0 (c : Dev nD) : S10000x16.Idx → EReal := xwArr (mat (a0 m c)) (mat (a3 m c))
/-- (X · sc⁰ + b⁰ | X · dk⁰ + db⁰). -/
def SD0 (c : Dev nD) : S10000x2.Idx → EReal := sdArr (mat (a0 m c)) (col (a5 m c)) (col (a7 m c)) (scal (a6 m c)) (scal (a8 m c))
/-- The first layer's result x¹. -/
def X1 (c : Dev nD) : S10000x16.Idx → EReal :=
  outArr (mat (a1 m c)) (mat (a2 m c)) (mat (a0 m c)) (mat (a3 m c)) (col (a5 m c)) (col (a7 m c)) (scal (a6 m c)) (scal (a8 m c))
/-- xw¹ = x¹ · W2. -/
def XW1 (c : Dev nD) : S10000x16.Idx → EReal := xwArr (mat (X1 m c)) (mat (a4 m c))
/-- (x¹ · sc¹ + b¹ | x¹ · dk¹ + db¹). -/
def SD1 (c : Dev nD) : S10000x2.Idx → EReal := sdArr (mat (X1 m c)) (col (a9 m c)) (col (a11 m c)) (scal (a10 m c)) (scal (a12 m c))
/-- The second layer's result: the network's. -/
def Z (c : Dev nD) : S10000x16.Idx → EReal :=
  outArr (mat (a1 m c)) (mat (a2 m c)) (mat (X1 m c)) (mat (a4 m c)) (col (a9 m c)) (col (a11 m c)) (scal (a10 m c)) (scal (a12 m c))

/-- It is the two-layer network of the specification, in the kernel's grouping. -/
theorem Z_eq_netK (c : Dev nD) :
    Z m c = netK (a0 m c) (a1 m c) (a2 m c) (a3 m c) (a4 m c) (a5 m c) (a6 m c) (a7 m c) (a8 m c) (a9 m c) (a10 m c) (a11 m c) (a12 m c) := rfl

/-- The first-layer-result scratch after n row blocks: rows below 200 n hold x¹, the rest what they held. -/
def part (c : Dev nD) (n : ℕ) (d : S10000x16.Idx → EReal) : S10000x16.Idx → EReal :=
  fun i => if (i 0).val < 200 * n then X1 m c i else d i

/-- Block q of the result: its 200 rows from row 200 q. -/
def zblk (c : Dev nD) (q : Fin 50) : S200x16.Idx → EReal := fun y => Z m c (ix2 (blockRow q (y 0)) (y 1))

/-- The result block a point stores: block t − 50 from point 50 on (before that the window is idle and the value
    is an arbitrary block nothing consults). -/
def qOf (t : Fin cfg0.N) : Fin 50 := ⟨(t.val - 50) % 50, Nat.mod_lt _ (by decide)⟩

/-! ## The invariant between points -/

/-- Before point n: at n = 0 the region's own invariant (the scratch at anything); after a first-layer point the
    first two scratch buffers at xw⁰ and the logit / dk array, the third at x¹ on the rows written so far; after a
    second-layer point the first two at xw¹ and the second logit / dk array, the third at anything. -/
def PhiV (c : Dev nD) : (n : ℕ) → n ≤ cfg0.N → sProp 𝕄
  | 0, _ => Pipeline.ΦA spec0 c
  | n + 1, _ =>
    if n < 50 then
      iprop(iprop(owns (c : Thread nD τ) scM0 fullShare (XW0 m c) ∗ owns (c : Thread nD τ) scM1 fullShare (SD0 m c)
        ∗ (∃ d, owns (c : Thread nD τ) scM2 fullShare (part m c (n + 1) d))) ∗ (∃ r, prngReg c r))
    else
      iprop(iprop(owns (c : Thread nD τ) scM0 fullShare (XW1 m c) ∗ owns (c : Thread nD τ) scM1 fullShare (SD1 m c)
        ∗ (∃ d, owns (c : Thread nD τ) scM2 fullShare d)) ∗ (∃ r, prngReg c r))

/-- The proof data: the arrays as the region finds them; after the body each input's buffer at its block, the output's
    at the result block of the point; the invariant above; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => zblk m c (qOf t)
  Φ t := PhiV m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = zblk m c (qOf t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem PhiV_zero (c : Dev nD) (n : ℕ) (h : n ≤ cfg0.N) (hz : n = 0) : PhiV m c n h = Pipeline.ΦA spec0 c := by
  subst hz; rfl

theorem PhiV_first (c : Dev nD) (n : ℕ) (h : n + 1 ≤ cfg0.N) (hn : n < 50) :
    PhiV m c (n + 1) h = iprop(iprop(owns (c : Thread nD τ) scM0 fullShare (XW0 m c) ∗ owns (c : Thread nD τ) scM1 fullShare (SD0 m c)
        ∗ (∃ d, owns (c : Thread nD τ) scM2 fullShare (part m c (n + 1) d))) ∗ (∃ r, prngReg c r)) := by
  show (if n < 50 then _ else _) = _; rw [if_pos hn]

theorem PhiV_second (c : Dev nD) (n : ℕ) (h : n + 1 ≤ cfg0.N) (hn : ¬ n < 50) :
    PhiV m c (n + 1) h = iprop(iprop(owns (c : Thread nD τ) scM0 fullShare (XW1 m c) ∗ owns (c : Thread nD τ) scM1 fullShare (SD1 m c)
        ∗ (∃ d, owns (c : Thread nD τ) scM2 fullShare d)) ∗ (∃ r, prngReg c r)) := by
  show (if n < 50 then _ else _) = _; rw [if_neg hn]

theorem Phi_castSucc (c : Dev nD) (t : Fin cfg0.N) :
    (dats m 0 c).Φ t.castSucc = PhiV m c t.val (Nat.le_of_lt t.isLt) := by
  dsimp only [dats]; simp only [Fin.coe_castSucc]

theorem Phi_succ (c : Dev nD) (t : Fin cfg0.N) :
    (dats m 0 c).Φ t.succ = PhiV m c (t.val + 1) t.isLt := rfl

end Cert.KernelIdeal.Val

end
-- ==== Proof.KIValBlocks.lean ====
/-
  Where the blocks sit. The five small operands (X, the two packed weight matrices, the two packed bias rows) are
  staged whole: their block at every grid point is the array. The two adjacency matrices are staged 200 rows at a
  time: at point t the block is rows 200 (t mod 50) … of the matrix. The body's own slices of its scratch buffers
  start at the same row, 200 (t mod 50).
-/
import proofs.«140471_g88347477279355_cont_sun_m_1058_38_alg».proof.Proof.KIValDefs
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

/-! ## Block indices and slice offsets, decided over the 100 grid points -/

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val % 50 ∧ win0_5.index t (1 : Fin 2) = 0 :=
  (by decide +kernel : ∀ t : Fin grid0.N, win0_5.index t (0 : Fin 2) = t.val % 50 ∧ win0_5.index t (1 : Fin 2) = 0)
theorem idx6 : ∀ t : Fin cfg0.N, win0_6.index t (0 : Fin 2) = t.val % 50 ∧ win0_6.index t (1 : Fin 2) = 0 :=
  (by decide +kernel : ∀ t : Fin grid0.N, win0_6.index t (0 : Fin 2) = t.val % 50 ∧ win0_6.index t (1 : Fin 2) = 0)

theorem off1_eq : ∀ t : Fin cfg0.N, k0_off1 (grid0.coords t) = ![200 * (t.val % 50), 0] :=
  (by decide +kernel : ∀ t : Fin grid0.N, k0_off1 (grid0.coords t) = ![200 * (t.val % 50), 0])
theorem off2_eq : ∀ t : Fin cfg0.N, k0_off2 (grid0.coords t) = ![200 * (t.val % 50), 1] :=
  (by decide +kernel : ∀ t : Fin grid0.N, k0_off2 (grid0.coords t) = ![200 * (t.val % 50), 1])
theorem off3_eq : ∀ t : Fin cfg0.N, k0_off3 (grid0.coords t) = ![200 * (t.val % 50), 0] :=
  (by decide +kernel : ∀ t : Fin grid0.N, k0_off3 (grid0.coords t) = ![200 * (t.val % 50), 0])
theorem off4_eq : ∀ t : Fin cfg0.N, k0_off4 (grid0.coords t) = ![200 * (t.val % 50), 0] :=
  (by decide +kernel : ∀ t : Fin grid0.N, k0_off4 (grid0.coords t) = ![200 * (t.val % 50), 0])

/-! ## The input blocks -/

/-- X is staged whole. -/
theorem iblk0_eq (c : Dev nD) (t : Fin cfg0.N) : (iblk m c 0 t : Vec Ideal S10000x128 .f32) = a0 m c := by
  funext x
  have hi := idx0 t
  unfold iblk
  rw [View.read_apply]
  show V m c main_arg0 _ = m ((c : Thread nD τ).loc main_arg0) _
  rw [V_main_arg0]
  refine congrArg _ ?_
  funext a
  apply Fin.ext
  match a with
  | ⟨0, _⟩ => show win0_0.index t 0 * 10000 + 1 * (x 0).val = (x 0).val; rw [hi.1]; omega
  | ⟨1, _⟩ => show win0_0.index t 1 * 128 + 1 * (x 1).val = (x 1).val; rw [hi.2]; omega

/-- Window 1 is staged whole. -/
theorem iblk1_eq (c : Dev nD) (t : Fin cfg0.N) : (iblk m c 1 t : Vec Ideal S128x18 .f32) = (V m c main_v1 : S128x18.Idx → EReal) := by
  funext x
  have hi := idx1 t
  unfold iblk
  rw [View.read_apply]
  show V m c main_v1 _ = V m c main_v1 _
  refine congrArg _ ?_
  funext a
  apply Fin.ext
  match a with
  | ⟨0, _⟩ => show win0_1.index t 0 * 128 + 1 * (x 0).val = (x 0).val; rw [hi.1]; omega
  | ⟨1, _⟩ => show win0_1.index t 1 * 18 + 1 * (x 1).val = (x 1).val; rw [hi.2]; omega

/-- Window 2 is staged whole. -/
theorem iblk2_eq (c : Dev nD) (t : Fin cfg0.N) : (iblk m c 2 t : Vec Ideal S1x18 .f32) = (V m c main_v4 : S1x18.Idx → EReal) := by
  funext x
  have hi := idx2 t
  unfold iblk
  rw [View.read_apply]
  show V m c main_v4 _ = V m c main_v4 _
  refine congrArg _ ?_
  funext a
  apply Fin.ext
  match a with
  | ⟨0, _⟩ => show win0_2.index t 0 * 1 + 1 * (x 0).val = (x 0).val; rw [hi.1]; omega
  | ⟨1, _⟩ => show win0_2.index t 1 * 18 + 1 * (x 1).val = (x 1).val; rw [hi.2]; omega

/-- Window 3 is staged whole. -/
theorem iblk3_eq (c : Dev nD) (t : Fin cfg0.N) : (iblk m c 3 t : Vec Ideal S16x18 .f32) = (V m c main_v5 : S16x18.Idx → EReal) := by
  funext x
  have hi := idx3 t
  unfold iblk
  rw [View.read_apply]
  show V m c main_v5 _ = V m c main_v5 _
  refine congrArg _ ?_
  funext a
  apply Fin.ext
  match a with
  | ⟨0, _⟩ => show win0_3.index t 0 * 16 + 1 * (x 0).val = (x 0).val; rw [hi.1]; omega
  | ⟨1, _⟩ => show win0_3.index t 1 * 18 + 1 * (x 1).val = (x 1).val; rw [hi.2]; omega

/-- Window 4 is staged whole. -/
theorem iblk4_eq (c : Dev nD) (t : Fin cfg0.N) : (iblk m c 4 t : Vec Ideal S1x18 .f32) = (V m c main_v8 : S1x18.Idx → EReal) := by
  funext x
  have hi := idx4 t
  unfold iblk
  rw [View.read_apply]
  show V m c main_v8 _ = V m c main_v8 _
  refine congrArg _ ?_
  funext a
  apply Fin.ext
  match a with
  | ⟨0, _⟩ => show win0_4.index t 0 * 1 + 1 * (x 0).val = (x 0).val; rw [hi.1]; omega
  | ⟨1, _⟩ => show win0_4.index t 1 * 18 + 1 * (x 1).val = (x 1).val; rw [hi.2]; omega

/-- Row p of the block of window 5 at point t is row 200 (t mod 50) + p of the matrix. -/
theorem iblk5_at (c : Dev nD) (t : Fin cfg0.N) (p : Fin 200) (j : Fin 10000) :
    (iblk m c 5 t : Vec Ideal S200x10000 .f32) (ix2 p j) = a1 m c (ix2 (blockRow ⟨t.val % 50, Nat.mod_lt _ (by decide)⟩ p) j) := by
  have hi := idx5 t
  unfold iblk
  rw [View.read_apply]
  show V m c main_arg1 _ = m ((c : Thread nD τ).loc main_arg1) _
  rw [V_main_arg1]
  refine congrArg _ ?_
  funext a
  apply Fin.ext
  match a with
  | ⟨0, _⟩ => show win0_5.index t 0 * 200 + 1 * p.val = 200 * (t.val % 50) + p.val; rw [hi.1]; omega
  | ⟨1, _⟩ => show win0_5.index t 1 * 10000 + 1 * j.val = j.val; rw [hi.2]; omega

/-- Row p of the block of window 6 at point t is row 200 (t mod 50) + p of the matrix. -/
theorem iblk6_at (c : Dev nD) (t : Fin cfg0.N) (p : Fin 200) (j : Fin 10000) :
    (iblk m c 6 t : Vec Ideal S200x10000 .f32) (ix2 p j) = a2 m c (ix2 (blockRow ⟨t.val % 50, Nat.mod_lt _ (by decide)⟩ p) j) := by
  have hi := idx6 t
  unfold iblk
  rw [View.read_apply]
  show V m c main_arg2 _ = m ((c : Thread nD τ).loc main_arg2) _
  rw [V_main_arg2]
  refine congrArg _ ?_
  funext a
  apply Fin.ext
  match a with
  | ⟨0, _⟩ => show win0_6.index t 0 * 200 + 1 * p.val = 200 * (t.val % 50) + p.val; rw [hi.1]; omega
  | ⟨1, _⟩ => show win0_6.index t 1 * 10000 + 1 * j.val = j.val; rw [hi.2]; omega

end Cert.KernelIdeal.Val

end
-- ==== Proof.KIRunNA.lean ====
/-
  The kernel body at the first grid point with every buffer's contents named: the pieces it leaves in the three scratch buffers (the projected features and the logit / dk array stored whole, then the first row block of the first layer's result).
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runN_A (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : cond1 i) (hc2 : ¬cond2 i) (hc3 : cond3 i) (hc4 : ¬cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xi7 : Vec F S200x16 .f32) (xs2 : Vec F S10000x16 .f32) :
    Σ' (L9 : List (View.Piece (Elt F) S10000x16 .f32)), Σ' (L10 : List (View.Piece (Elt F) S10000x2 .f32)), { L11 : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d) ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread xs2) L11)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    iexact H11

end Cert.KernelIdeal.Fr

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibColumnBroadcast.lean ====
/-
  A column broadcast across a row axis, read at an index given by coordinates.

  The library reads a broadcast at an index `j` as the operand at `j`'s trailing coordinates with `0` on the
  operand's unit axes, and has the case of ONE ROW `[1, b] → [a, b]` by coordinates. This is the companion case of ONE
  COLUMN `[a, 1] → [a, b]` (a per-row quantity kept with a trailing unit axis and spread along the row): entry
  `(p, c)` of the result is the column's entry in row `p`, whatever `c` is.
-/
import Idealize.ShloMosaic.Lib.ValueLayout

namespace Cert.Layout

open Idealize.ShloMosaic Idealize.ShloMosaic.ValueIdx

variable {α : Type}

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.PayloadAt.lean ====
/-
  The kernel's pure arithmetic read at an entry, over the extended reals.

  The kernel first forms, once per layer, the fused projection t = x · C + bias row, an n × 18 matrix whose columns
  0..15 are the feature projection x · W and whose columns 16 and 17 are the two per-node affine scores, and stores
  the two column ranges apart. Each entry of t is a finite sum of products plus one entry of the bias row; a column
  range of t read at (r, c) is t at the shifted column. These are the statements here: every vector operation of a
  payload (a cast to the same shape, a product into the zero accumulator, a row spread over the rows, a slice of
  columns) is read at an index by its own lemma and the pointwise ones by definition.
-/
import proofs.«140471_g88347477279355_cont_sun_m_1058_38_alg».proof.Proof.Gen.KernelIdeal.Skeleton
import proofs.«140471_g88347477279355_cont_sun_m_1058_38_alg».proof.Proof.LibPlainMatmul
import proofs.«140471_g88347477279355_cont_sun_m_1058_38_alg».proof.Proof.LibColumnBroadcast
import proofs.«140471_g88347477279355_cont_sun_m_1058_38_alg».proof.Proof.LayerSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## The fused projection, all eighteen columns -/

/-- Layer 0: entry (r, j) of x · C plus the bias row, the product contracted over the 128 input features. -/
theorem pay1_at (v36 : Vec Ideal S10000x128 .f32) (v37 : Vec Ideal S128x18 .f32) (v40 : Vec Ideal S1x18 .f32)
    (r : Fin 10000) (j : Fin 18) :
    k0_pay1 (F := Ideal) v36 v37 v40 (ix2 r j)
      = (∑ k : Fin 128, v36 (ix2 r k) * v37 (ix2 k j)) + v40 (ix2 0 j) := by
  show addf (matmul dot_S10000x128_S128x18_S10000x18_1_0_0_1_n_n none v36
        (shapeCast S128x18 v37 shapeCasts_S128x18_S128x18) (constant (F := Ideal) S10000x18 .f32 0x00000000#32))
      (broadcastTo S10000x18 (shapeCast S1x18 v40 shapeCasts_S1x18_S1x18) broadcasts_S1x18_S10000x18) (ix2 r j) = _
  rw [addf_apply, shapeCast_self, shapeCast_self, broadcastTo_1b_ab_apply]
  refine congrArg (· + v40 (ix2 0 j)) ?_
  exact Cert.LibPlainMatmul.matmul_zero_apply dot_S10000x128_S128x18_S10000x18_1_0_0_1_n_n rfl rfl rfl rfl rfl rfl
    none v36 v37 r j

/-- Layer 1: the same with the product contracted over the 16 hidden features. -/
theorem pay4_at (v36 : Vec Ideal S10000x16 .f32) (v37 : Vec Ideal S16x18 .f32) (v40 : Vec Ideal S1x18 .f32)
    (r : Fin 10000) (j : Fin 18) :
    k0_pay4 (F := Ideal) v36 v37 v40 (ix2 r j)
      = (∑ k : Fin 16, v36 (ix2 r k) * v37 (ix2 k j)) + v40 (ix2 0 j) := by
  show addf (matmul dot_S10000x16_S16x18_S10000x18_1_0_0_1_n_n none v36
        (shapeCast S16x18 v37 shapeCasts_S16x18_S16x18) (constant (F := Ideal) S10000x18 .f32 0x00000000#32))
      (broadcastTo S10000x18 (shapeCast S1x18 v40 shapeCasts_S1x18_S1x18) broadcasts_S1x18_S10000x18) (ix2 r j) = _
  rw [addf_apply, shapeCast_self, shapeCast_self, broadcastTo_1b_ab_apply]
  refine congrArg (· + v40 (ix2 0 j)) ?_
  exact Cert.LibPlainMatmul.matmul_zero_apply dot_S10000x16_S16x18_S10000x18_1_0_0_1_n_n rfl rfl rfl rfl rfl rfl
    none v36 v37 r j

/-! ## Its two column ranges -/

/-- Layer 0, columns 0..15: the feature projection x · W (the bias row is zero there, kept as the stored entry). -/
theorem pay2_at (v36 : Vec Ideal S10000x128 .f32) (v37 : Vec Ideal S128x18 .f32) (v40 : Vec Ideal S1x18 .f32)
    (r : Fin 10000) (c : Fin 16) :
    k0_pay2 (F := Ideal) v36 v37 v40 (ix2 r c)
      = (∑ k : Fin 128, v36 (ix2 r k) * v37 (ix2 k ⟨c.val, by omega⟩)) + v40 (ix2 0 ⟨c.val, by omega⟩) := by
  show shapeCast S10000x16 (extractStridedSlice S10000x16 ![0, 0] (k0_pay1 (F := Ideal) v36 v37 v40)
      slices_S10000x18_o0_0_S10000x16) shapeCasts_S10000x16_S10000x16 (ix2 r c) = _
  rw [shapeCast_self]
  refine (slice2_axis1_apply 0 (k0_pay1 (F := Ideal) v36 v37 v40) slices_S10000x18_o0_0_S10000x16 r c
    ⟨c.val, by omega⟩ (Nat.zero_add _).symm).trans ?_
  exact pay1_at v36 v37 v40 r ⟨c.val, by omega⟩

/-- Layer 0, columns 16 and 17: the two per-node affine scores. -/
theorem pay3_at (v36 : Vec Ideal S10000x128 .f32) (v37 : Vec Ideal S128x18 .f32) (v40 : Vec Ideal S1x18 .f32)
    (r : Fin 10000) (e : Fin 2) :
    k0_pay3 (F := Ideal) v36 v37 v40 (ix2 r e)
      = (∑ k : Fin 128, v36 (ix2 r k) * v37 (ix2 k ⟨16 + e.val, by omega⟩)) + v40 (ix2 0 ⟨16 + e.val, by omega⟩) := by
  show shapeCast S10000x2 (extractStridedSlice S10000x2 ![0, 16] (k0_pay1 (F := Ideal) v36 v37 v40)
      slices_S10000x18_o0_16_S10000x2) shapeCasts_S10000x2_S10000x2 (ix2 r e) = _
  rw [shapeCast_self]
  refine (slice2_axis1_apply 16 (k0_pay1 (F := Ideal) v36 v37 v40) slices_S10000x18_o0_16_S10000x2 r e
    ⟨16 + e.val, by omega⟩ rfl).trans ?_
  exact pay1_at v36 v37 v40 r ⟨16 + e.val, by omega⟩

/-- Layer 1, columns 0..15. -/
theorem pay5_at (v36 : Vec Ideal S10000x16 .f32) (v37 : Vec Ideal S16x18 .f32) (v40 : Vec Ideal S1x18 .f32)
    (r : Fin 10000) (c : Fin 16) :
    k0_pay5 (F := Ideal) v36 v37 v40 (ix2 r c)
      = (∑ k : Fin 16, v36 (ix2 r k) * v37 (ix2 k ⟨c.val, by omega⟩)) + v40 (ix2 0 ⟨c.val, by omega⟩) := by
  show shapeCast S10000x16 (extractStridedSlice S10000x16 ![0, 0] (k0_pay4 (F := Ideal) v36 v37 v40)
      slices_S10000x18_o0_0_S10000x16) shapeCasts_S10000x16_S10000x16 (ix2 r c) = _
  rw [shapeCast_self]
  refine (slice2_axis1_apply 0 (k0_pay4 (F := Ideal) v36 v37 v40) slices_S10000x18_o0_0_S10000x16 r c
    ⟨c.val, by omega⟩ (Nat.zero_add _).symm).trans ?_
  exact pay4_at v36 v37 v40 r ⟨c.val, by omega⟩

/-- Layer 1, columns 16 and 17. -/
theorem pay6_at (v36 : Vec Ideal S10000x16 .f32) (v37 : Vec Ideal S16x18 .f32) (v40 : Vec Ideal S1x18 .f32)
    (r : Fin 10000) (e : Fin 2) :
    k0_pay6 (F := Ideal) v36 v37 v40 (ix2 r e)
      = (∑ k : Fin 16, v36 (ix2 r k) * v37 (ix2 k ⟨16 + e.val, by omega⟩)) + v40 (ix2 0 ⟨16 + e.val, by omega⟩) := by
  show shapeCast S10000x2 (extractStridedSlice S10000x2 ![0, 16] (k0_pay4 (F := Ideal) v36 v37 v40)
      slices_S10000x18_o0_16_S10000x2) shapeCasts_S10000x2_S10000x2 (ix2 r e) = _
  rw [shapeCast_self]
  refine (slice2_axis1_apply 16 (k0_pay4 (F := Ideal) v36 v37 v40) slices_S10000x18_o0_16_S10000x2 r e
    ⟨16 + e.val, by omega⟩ rfl).trans ?_
  exact pay4_at v36 v37 v40 r ⟨16 + e.val, by omega⟩

/-! ## The per-block combination -/

/-- Entry (p, c) of a 200-row block's result: with q and a the two aggregated rows (the products of the two adjacency
    blocks with the projected features) and s the logistic of the row's first score,
    q + s · (a − q), plus the scaled second score times the row's own projected feature. -/
theorem pay7_at (v9 v12 : Vec Ideal S200x1 .f32) (v13 : Vec Ideal S200x10000 .f32) (v14 : Vec Ideal S10000x16 .f32)
    (v16 : Vec Ideal S200x10000 .f32) (v17 : Vec Ideal S10000x16 .f32) (v26 : Vec Ideal S200x16 .f32)
    (p : Fin 200) (c : Fin 16) :
    k0_pay7 (F := Ideal) v9 v12 v13 v14 v16 v17 v26 (ix2 p c)
      = ((∑ j : Fin 10000, v16 (ix2 p j) * v17 (ix2 j c))
          + Ideal.logistic (v9 (ix2 p 0))
            * ((∑ j : Fin 10000, v13 (ix2 p j) * v14 (ix2 j c)) - (∑ j : Fin 10000, v16 (ix2 p j) * v17 (ix2 j c))))
        + (Cert.Gated.gam * v12 (ix2 p 0)) * v26 (ix2 p c) := by
  have hA := Cert.LibPlainMatmul.matmul_zero_apply (φ₁ := .f32) (φ₂ := .f32) dot_S200x10000_S10000x16_S200x16_1_0_0_1_n_n rfl rfl rfl rfl rfl rfl
    none v13 v14 p c
  have hB := Cert.LibPlainMatmul.matmul_zero_apply (φ₁ := .f32) (φ₂ := .f32) dot_S200x10000_S10000x16_S200x16_1_0_0_1_n_n rfl rfl rfl rfl rfl rfl
    none v16 v17 p c
  have hs : broadcastTo S200x16 (logistic (F := Ideal) (φ := .f32) v9) broadcasts_S200x1_S200x16 (ix2 p c)
      = Ideal.logistic (v9 (ix2 p 0)) :=
    Cert.Layout.broadcastTo_a1_ab_apply _ _ p c
  have hd : broadcastTo S200x16 (mulf (F := Ideal) (φ := .f32) (broadcast S200x1 (Scalar.ofBits (F := Ideal) .f32 0x3DCCCCCD#32)) v12)
      broadcasts_S200x1_S200x16 (ix2 p c) = Cert.Gated.gam * v12 (ix2 p 0) :=
    Cert.Layout.broadcastTo_a1_ab_apply _ _ p c
  show (matmul dot_S200x10000_S10000x16_S200x16_1_0_0_1_n_n none v16 v17
          (constant (F := Ideal) S200x16 .f32 0x00000000#32) (ix2 p c)
        + broadcastTo S200x16 (logistic (F := Ideal) (φ := .f32) v9) broadcasts_S200x1_S200x16 (ix2 p c)
          * (matmul dot_S200x10000_S10000x16_S200x16_1_0_0_1_n_n none v13 v14
                (constant (F := Ideal) S200x16 .f32 0x00000000#32) (ix2 p c)
              - matmul dot_S200x10000_S10000x16_S200x16_1_0_0_1_n_n none v16 v17
                (constant (F := Ideal) S200x16 .f32 0x00000000#32) (ix2 p c)))
      + broadcastTo S200x16 (mulf (F := Ideal) (φ := .f32) (broadcast S200x1 (Scalar.ofBits (F := Ideal) .f32 0x3DCCCCCD#32)) v12)
          broadcasts_S200x1_S200x16 (ix2 p c) * v26 (ix2 p c) = _
  rw [hs, hd]
  exact congrArg₂ (fun a b => (b + Ideal.logistic (v9 (ix2 p 0)) * (a - b))
    + (Cert.Gated.gam * v12 (ix2 p 0)) * v26 (ix2 p c)) hA hB

/-- The same entry of the value the block stores: a cast to the same shape changes nothing. -/
theorem pay8_at (v9 v12 : Vec Ideal S200x1 .f32) (v13 : Vec Ideal S200x10000 .f32) (v14 : Vec Ideal S10000x16 .f32)
    (v16 : Vec Ideal S200x10000 .f32) (v17 : Vec Ideal S10000x16 .f32) (v26 : Vec Ideal S200x16 .f32)
    (p : Fin 200) (c : Fin 16) :
    k0_pay8 (F := Ideal) v9 v12 v13 v14 v16 v17 v26 (ix2 p c)
      = ((∑ j : Fin 10000, v16 (ix2 p j) * v17 (ix2 j c))
          + Ideal.logistic (v9 (ix2 p 0))
            * ((∑ j : Fin 10000, v13 (ix2 p j) * v14 (ix2 j c)) - (∑ j : Fin 10000, v16 (ix2 p j) * v17 (ix2 j c))))
        + (Cert.Gated.gam * v12 (ix2 p 0)) * v26 (ix2 p c) := by
  show shapeCast S200x16 (k0_pay7 (F := Ideal) v9 v12 v13 v14 v16 v17 v26) shapeCasts_S200x16_S200x16 (ix2 p c) = _
  rw [shapeCast_self]
  exact pay7_at v9 v12 v13 v14 v16 v17 v26 p c

end Cert.KernelIdeal.PayVal

end
-- ==== Proof.BlockSteps.lean ====
/-
  The kernel's stored values as the layer's quantities.

  When the packed matrix C holds W in columns 0..15 and the two score columns in columns 16 and 17, and the bias
  row holds zeros and then the two scalar biases, the fused projection's first sixteen columns are X · W (adding the
  zero bias changes nothing) and its last two are the two affine scores X · sc + b and X · dk + db. And when a block's
  operands are rows 200 q .. 200 q + 199 of those quantities and of the two adjacency matrices, the block's result is
  the same rows of the layer's result, the convex combination in the grouping q + s · (a − q).
-/
import proofs.«140471_g88347477279355_cont_sun_m_1058_38_alg».proof.Proof.PayloadAt
import proofs.«140471_g88347477279355_cont_sun_m_1058_38_alg».proof.Proof.LayerBlocks

noncomputable section

open scoped BigOperators

namespace Cert.KernelIdeal.PayVal

open Cert.KernelIdeal Cert.KernelIdeal.Gen Idealize.ShloMosaic Idealize.ShloMosaic.ValueIdx Cert.Gated

/-! ## What it means for the packed operands to hold the layer's parameters -/

/-- C is W and the two score columns side by side. -/
def IsPacked {k : ℕ} (C : (⟨2, ![k, 18]⟩ : Shape).Idx → EReal) (w : (⟨2, ![k, 16]⟩ : Shape).Idx → EReal)
    (s d : (⟨2, ![k, 1]⟩ : Shape).Idx → EReal) : Prop :=
  ∀ (r : Fin k) (j : Fin 18), C (ix2 r j)
    = if h : j.val < 16 then w (ix2 r ⟨j.val, h⟩) else if j.val = 16 then s (ix2 r 0) else d (ix2 r 0)

/-- B is sixteen zeros and then the two scalar biases. -/
def IsPackedBias (B : (⟨2, ![1, 18]⟩ : Shape).Idx → EReal) (b db : (⟨1, ![1]⟩ : Shape).Idx → EReal) : Prop :=
  ∀ j : Fin 18, B (ix2 0 j) = if j.val < 16 then 0 else if j.val = 16 then b (ix1 0) else db (ix1 0)

/-! ## The score array's two columns -/

theorem sdArr_col0 {k : ℕ} (X : Fin 10000 → Fin k → EReal) (sc dk : Fin k → EReal) (b db : EReal) (r : Fin 10000) :
    sdArr X sc dk b db (ix2 r 0) = affine X sc b r := if_pos rfl

theorem sdArr_col1 {k : ℕ} (X : Fin 10000 → Fin k → EReal) (sc dk : Fin k → EReal) (b db : EReal) (r : Fin 10000) :
    sdArr X sc dk b db (ix2 r 1) = affine X dk db r := if_neg Nat.one_ne_zero

/-! ## The fused projection's two column ranges, for either contraction length -/

/-- Columns 0..15 from the entrywise reading: the bias there is zero. -/
theorem xw_of_packed {k : ℕ} (x : (⟨2, ![10000, k]⟩ : Shape).Idx → EReal) (C : (⟨2, ![k, 18]⟩ : Shape).Idx → EReal)
    (B : (⟨2, ![1, 18]⟩ : Shape).Idx → EReal) (w : (⟨2, ![k, 16]⟩ : Shape).Idx → EReal)
    (s d : (⟨2, ![k, 1]⟩ : Shape).Idx → EReal) (b db : (⟨1, ![1]⟩ : Shape).Idx → EReal)
    (hC : IsPacked C w s d) (hB : IsPackedBias B b db) (r : Fin 10000) (c : Fin 16) :
    (∑ j : Fin k, x (ix2 r j) * C (ix2 j ⟨c.val, by omega⟩)) + B (ix2 0 ⟨c.val, by omega⟩)
      = xwArr (mat x) (mat w) (ix2 r c) := by
  rw [hB ⟨c.val, by omega⟩, if_pos c.isLt, add_zero]
  refine Finset.sum_congr rfl fun j _ => ?_
  rw [hC j ⟨c.val, by omega⟩, dif_pos c.isLt]
  rfl

/-- Columns 16 and 17 from the entrywise reading. -/
theorem sd_of_packed {k : ℕ} (x : (⟨2, ![10000, k]⟩ : Shape).Idx → EReal) (C : (⟨2, ![k, 18]⟩ : Shape).Idx → EReal)
    (B : (⟨2, ![1, 18]⟩ : Shape).Idx → EReal) (w : (⟨2, ![k, 16]⟩ : Shape).Idx → EReal)
    (s d : (⟨2, ![k, 1]⟩ : Shape).Idx → EReal) (b db : (⟨1, ![1]⟩ : Shape).Idx → EReal)
    (hC : IsPacked C w s d) (hB : IsPackedBias B b db) (r : Fin 10000) (e : Fin 2) :
    (∑ j : Fin k, x (ix2 r j) * C (ix2 j ⟨16 + e.val, by omega⟩)) + B (ix2 0 ⟨16 + e.val, by omega⟩)
      = sdArr (mat x) (col s) (col d) (scal b) (scal db) (ix2 r e) := by
  have hlt : ¬ (16 + e.val < 16) := by omega
  by_cases he : e.val = 0
  · have h16 : 16 + e.val = 16 := by omega
    refine Eq.trans ?_ (if_pos he).symm
    rw [hB ⟨16 + e.val, by omega⟩, if_neg hlt, if_pos h16]
    refine congrArg (· + b (ix1 0)) (Finset.sum_congr rfl fun j _ => ?_)
    rw [hC j ⟨16 + e.val, by omega⟩, dif_neg hlt, if_pos h16]
    rfl
  · have h16 : ¬ (16 + e.val = 16) := by omega
    refine Eq.trans ?_ (if_neg he).symm
    rw [hB ⟨16 + e.val, by omega⟩, if_neg hlt, if_neg h16]
    refine congrArg (· + db (ix1 0)) (Finset.sum_congr rfl fun j _ => ?_)
    rw [hC j ⟨16 + e.val, by omega⟩, dif_neg hlt, if_neg h16]
    rfl

/-! ## The four stored projections -/

theorem pay2_eq (x : Vec Ideal S10000x128 .f32) (C : Vec Ideal S128x18 .f32) (B : Vec Ideal S1x18 .f32)
    (w : (⟨2, ![128, 16]⟩ : Shape).Idx → EReal) (s d : (⟨2, ![128, 1]⟩ : Shape).Idx → EReal)
    (b db : (⟨1, ![1]⟩ : Shape).Idx → EReal) (hC : IsPacked C w s d) (hB : IsPackedBias B b db) :
    k0_pay2 (F := Ideal) x C B = xwArr (mat x) (mat w) := by
  funext i
  obtain ⟨r, c, rfl⟩ : ∃ (r : Fin 10000) (c : Fin 16), i = ix2 r c := ⟨i 0, i 1, eq_ix2 i⟩
  exact (pay2_at x C B r c).trans (xw_of_packed x C B w s d b db hC hB r c)

theorem pay3_eq (x : Vec Ideal S10000x128 .f32) (C : Vec Ideal S128x18 .f32) (B : Vec Ideal S1x18 .f32)
    (w : (⟨2, ![128, 16]⟩ : Shape).Idx → EReal) (s d : (⟨2, ![128, 1]⟩ : Shape).Idx → EReal)
    (b db : (⟨1, ![1]⟩ : Shape).Idx → EReal) (hC : IsPacked C w s d) (hB : IsPackedBias B b db) :
    k0_pay3 (F := Ideal) x C B = sdArr (mat x) (col s) (col d) (scal b) (scal db) := by
  funext i
  obtain ⟨r, e, rfl⟩ : ∃ (r : Fin 10000) (e : Fin 2), i = ix2 r e := ⟨i 0, i 1, eq_ix2 i⟩
  exact (pay3_at x C B r e).trans (sd_of_packed x C B w s d b db hC hB r e)

theorem pay5_eq (x1 : Vec Ideal S10000x16 .f32) (C : Vec Ideal S16x18 .f32) (B : Vec Ideal S1x18 .f32)
    (w : (⟨2, ![16, 16]⟩ : Shape).Idx → EReal) (s d : (⟨2, ![16, 1]⟩ : Shape).Idx → EReal)
    (b db : (⟨1, ![1]⟩ : Shape).Idx → EReal) (hC : IsPacked C w s d) (hB : IsPackedBias B b db) :
    k0_pay5 (F := Ideal) x1 C B = xwArr (mat x1) (mat w) := by
  funext i
  obtain ⟨r, c, rfl⟩ : ∃ (r : Fin 10000) (c : Fin 16), i = ix2 r c := ⟨i 0, i 1, eq_ix2 i⟩
  exact (pay5_at x1 C B r c).trans (xw_of_packed x1 C B w s d b db hC hB r c)

theorem pay6_eq (x1 : Vec Ideal S10000x16 .f32) (C : Vec Ideal S16x18 .f32) (B : Vec Ideal S1x18 .f32)
    (w : (⟨2, ![16, 16]⟩ : Shape).Idx → EReal) (s d : (⟨2, ![16, 1]⟩ : Shape).Idx → EReal)
    (b db : (⟨1, ![1]⟩ : Shape).Idx → EReal) (hC : IsPacked C w s d) (hB : IsPackedBias B b db) :
    k0_pay6 (F := Ideal) x1 C B = sdArr (mat x1) (col s) (col d) (scal b) (scal db) := by
  funext i
  obtain ⟨r, e, rfl⟩ : ∃ (r : Fin 10000) (e : Fin 2), i = ix2 r e := ⟨i 0, i 1, eq_ix2 i⟩
  exact (pay6_at x1 C B r e).trans (sd_of_packed x1 C B w s d b db hC hB r e)

/-! ## A block of the layer's result -/

theorem pay7_block {k : ℕ} (q : Fin 50) (v9 v12 : Vec Ideal S200x1 .f32) (v13 v16 : Vec Ideal S200x10000 .f32)
    (v14 v17 : Vec Ideal S10000x16 .f32) (v26 : Vec Ideal S200x16 .f32)
    (adj adjk : (⟨2, ![10000, 10000]⟩ : Shape).Idx → EReal) (X : Fin 10000 → Fin k → EReal) (W : Fin k → Fin 16 → EReal)
    (sc dk : Fin k → EReal) (b db : EReal)
    (h9 : ∀ p : Fin 200, v9 (ix2 p 0) = sdArr X sc dk b db (ix2 (blockRow q p) 0))
    (h12 : ∀ p : Fin 200, v12 (ix2 p 0) = sdArr X sc dk b db (ix2 (blockRow q p) 1))
    (h13 : ∀ (p : Fin 200) (j : Fin 10000), v13 (ix2 p j) = adj (ix2 (blockRow q p) j))
    (h16 : ∀ (p : Fin 200) (j : Fin 10000), v16 (ix2 p j) = adjk (ix2 (blockRow q p) j))
    (h14 : v14 = xwArr X W) (h17 : v17 = xwArr X W)
    (h26 : ∀ (p : Fin 200) (c : Fin 16), v26 (ix2 p c) = xwArr X W (ix2 (blockRow q p) c)) :
    ∀ (p : Fin 200) (c : Fin 16), k0_pay7 (F := Ideal) v9 v12 v13 v14 v16 v17 v26 (ix2 p c)
      = outArr (mat adj) (mat adjk) X W sc dk b db (ix2 (blockRow q p) c) := by
  intro p c
  have e13 : (∑ j : Fin 10000, v13 (ix2 p j) * v14 (ix2 j c))
      = ∑ j : Fin 10000, adj (ix2 (blockRow q p) j) * xwArr X W (ix2 j c) :=
    Finset.sum_congr rfl fun j _ => by rw [h13 p j, h14]
  have e16 : (∑ j : Fin 10000, v16 (ix2 p j) * v17 (ix2 j c))
      = ∑ j : Fin 10000, adjk (ix2 (blockRow q p) j) * xwArr X W (ix2 j c) :=
    Finset.sum_congr rfl fun j _ => by rw [h16 p j, h17]
  rw [pay7_at, e13, e16, h9 p, h12 p, h26 p c, sdArr_col0, sdArr_col1]
  rfl

theorem pay8_block {k : ℕ} (q : Fin 50) (v9 v12 : Vec Ideal S200x1 .f32) (v13 v16 : Vec Ideal S200x10000 .f32)
    (v14 v17 : Vec Ideal S10000x16 .f32) (v26 : Vec Ideal S200x16 .f32)
    (adj adjk : (⟨2, ![10000, 10000]⟩ : Shape).Idx → EReal) (X : Fin 10000 → Fin k → EReal) (W : Fin k → Fin 16 → EReal)
    (sc dk : Fin k → EReal) (b db : EReal)
    (h9 : ∀ p : Fin 200, v9 (ix2 p 0) = sdArr X sc dk b db (ix2 (blockRow q p) 0))
    (h12 : ∀ p : Fin 200, v12 (ix2 p 0) = sdArr X sc dk b db (ix2 (blockRow q p) 1))
    (h13 : ∀ (p : Fin 200) (j : Fin 10000), v13 (ix2 p j) = adj (ix2 (blockRow q p) j))
    (h16 : ∀ (p : Fin 200) (j : Fin 10000), v16 (ix2 p j) = adjk (ix2 (blockRow q p) j))
    (h14 : v14 = xwArr X W) (h17 : v17 = xwArr X W)
    (h26 : ∀ (p : Fin 200) (c : Fin 16), v26 (ix2 p c) = xwArr X W (ix2 (blockRow q p) c)) :
    ∀ (p : Fin 200) (c : Fin 16), k0_pay8 (F := Ideal) v9 v12 v13 v14 v16 v17 v26 (ix2 p c)
      = outArr (mat adj) (mat adjk) X W sc dk b db (ix2 (blockRow q p) c) := fun p c =>
  ((pay8_at v9 v12 v13 v14 v16 v17 v26 p c).trans (pay7_at v9 v12 v13 v14 v16 v17 v26 p c).symm).trans
    (pay7_block q v9 v12 v13 v16 v14 v17 v26 adj adjk X W sc dk b db h9 h12 h13 h16 h14 h17 h26 p c)

end Cert.KernelIdeal.PayVal

end
-- ==== Proof.KIRunNB.lean ====
/-
  The kernel body at a grid point 1 ≤ i < 50 with every buffer's contents named: the piece it leaves in the scratch that accumulates the first layer's result.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runN_B (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : cond3 i) (hc4 : ¬cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xi7 : Vec F S200x16 .f32) (xs0 : Vec F S10000x16 .f32) (xs1 : Vec F S10000x2 .f32) (xs2 : Vec F S10000x16 .f32) :
     { L11 : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1 ∗ (arg11.view.loc (c : Thread nD τ) ↦[arg11.view.set]{fullShare} arg11.view.writes (Elt F) (harg11.unread xs2) L11)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexact H11

end Cert.KernelIdeal.Fr

end
-- ==== Proof.KIValStepB.lean ====
/-
  What a first-layer grid point after the first leaves in the scratch that accumulates the first layer's result.

  At such a point the body stores one piece: rows 200 q .. 200 q + 199 of the scratch, from the block's combination of
  the two adjacency blocks with the projected features and the two per-node scores held in the other two scratch
  buffers. A row inside the piece reads the piece's payload, which is the layer's result on that row; a row outside
  reads what the scratch held. So if the scratch held the layer's result on rows below 200 q, it now holds it on rows
  below 200 (q + 1), and is unchanged elsewhere.
-/
import proofs.«140471_g88347477279355_cont_sun_m_1058_38_alg».proof.Proof.KIValDefs
import proofs.«140471_g88347477279355_cont_sun_m_1058_38_alg».proof.Proof.KIRunNB
import proofs.«140471_g88347477279355_cont_sun_m_1058_38_alg».proof.Proof.BlockSteps
import Idealize.ShloMosaic.Lib.WritesUnit
import Idealize.ShloMosaic.Lib.WholeRead
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated Cert.KernelIdeal.PayVal

local notation "𝕄" => MT nD τ sig Unit (Elt Ideal) ℕ (UR sig nD τ) ℕ

variable (m : (ℓ : Loc nD τ sig) → Buf (Elt Ideal) ℓ) (ρ : Dev nD → PrngReg)

/-! ## A window loaded through a whole buffer, and one block of rows stored into one -/

/-- A unit-stride load of a W × Cw window at (o, oc), through a whole buffer held at the contents that read X,
    reads X at the window's offsets plus the position. -/
theorem readAt_window {κ : Kind} {sp : Space} {Val : EltTy → Type} {e : EltTy} {R C W Cw : ℕ}
    (mr : Memref sig κ sp (⟨2, ![R, C]⟩ : Shape) e) (h : mr.IsWhole)
    (X : (⟨2, ![R, C]⟩ : Shape).Idx → Val e) (off : Fin 2 → ℕ)
    (inb : ∀ a, off a + (![W, Cw] : Fin 2 → ℕ) a ≤ (⟨2, ![R, C]⟩ : Shape).size a)
    (o oc : ℕ) (hoff : off = ![o, oc]) (p : Fin W) (k : Fin Cw) (r : Fin R) (cc : Fin C)
    (hr : r.val = o + p.val) (hc : cc.val = oc + k.val) :
    View.readAt Val mr.view (Rect.unit (s := ⟨2, ![R, C]⟩) off ![W, Cw] inb).toLoadRect (h.unread X) (ix2 p k)
      = X (ix2 r cc) := by
  refine (h.readAt_unread X _ _).trans (congrArg X (funext fun a => Fin.ext ?_))
  subst hoff
  match a with
  | ⟨0, _⟩ =>
    show o + 1 * p.val = r.val
    omega
  | ⟨1, _⟩ =>
    show oc + 1 * k.val = cc.val
    omega

/-- One piece of rows 200 q .. 200 q + 199 stored into a whole 10000 × 16 buffer held at D: if the payload is D' on
    those rows and D agrees with D' on the others, the buffer now reads D'. -/
theorem read_one_block (arg : Memref sig .tc .vmem S10000x16 .f32) (harg : arg.IsWhole) (q : Fin 50)
    (off : Fin 2 → ℕ) (inb : ∀ a, off a + (![200, 16] : Fin 2 → ℕ) a ≤ S10000x16.size a)
    (ho : off = ![200 * q.val, 0]) (w : S200x16.Idx → EReal) (D D' : S10000x16.Idx → EReal)
    (hin : ∀ (p : Fin 200) (cc : Fin 16), w (ix2 p cc) = D' (ix2 (blockRow q p) cc))
    (hout : ∀ (r : Fin 10000) (cc : Fin 16), (r.val < 200 * q.val ∨ 200 * q.val + 200 ≤ r.val) →
      D (ix2 r cc) = D' (ix2 r cc)) :
    arg.view.read (Elt Ideal) (arg.view.writes (Elt Ideal) (harg.unread D)
        [(⟨Rect.unit (s := S10000x16) off ![200, 16] inb, w⟩ : View.Piece (Elt Ideal) S10000x16 .f32)]) = D' := by
  funext y
  obtain ⟨r, cc, rfl⟩ : ∃ (r : Fin 10000) (cc : Fin 16), y = ix2 r cc := ⟨y 0, y 1, eq_ix2 y⟩
  by_cases hr : 200 * q.val ≤ r.val ∧ r.val < 200 * q.val + 200
  · obtain ⟨p, rfl⟩ : ∃ p : Fin 200, r = blockRow q p :=
      ⟨⟨r.val - 200 * q.val, by omega⟩, Fin.ext (by show r.val = 200 * q.val + (r.val - 200 * q.val); omega)⟩
    exact (View.read_writes_cons_rows_of_mem (Val := Elt Ideal) arg.view (harg.unread D) inb w [] (ix2 (blockRow q p) cc) (ix2 p cc)
      ho rfl rfl).trans (hin p cc)
  · have hr' : r.val < 200 * q.val ∨ 200 * q.val + 200 ≤ r.val := by omega
    refine (View.read_writes_cons_rows_of_not_mem (Val := Elt Ideal) (W := 200) arg.view (harg.unread D) inb w [] (ix2 r cc)
      ho rfl hr').trans ?_
    rw [View.writes_nil, harg.read_unread]
    exact hout r cc hr'

/-- Outside rows 200 q .. 200 q + 199 the partial result after q blocks and after q + 1 blocks agree. -/
theorem part_succ_of_outside (c : Dev nD) (q : ℕ) (d : S10000x16.Idx → EReal) (r : Fin 10000) (cc : Fin 16)
    (h : r.val < 200 * q ∨ 200 * q + 200 ≤ r.val) : part m c q d (ix2 r cc) = part m c (q + 1) d (ix2 r cc) := by
  show (if r.val < 200 * q then _ else _) = (if r.val < 200 * (q + 1) then _ else _)
  rcases h with h | h
  · rw [if_pos h, if_pos (by omega)]
  · rw [if_neg (by omega), if_neg (by omega)]

/-- On rows 200 q .. 200 q + 199 the partial result after q + 1 blocks is the layer's result. -/
theorem part_succ_of_inside (c : Dev nD) (q : Fin 50) (d : S10000x16.Idx → EReal) (p : Fin 200) (cc : Fin 16) :
    part m c (q.val + 1) d (ix2 (blockRow q p) cc) = X1 m c (ix2 (blockRow q p) cc) :=
  if_pos (by show 200 * q.val + p.val < 200 * (q.val + 1); omega)

/-! ## The point's effect -/

theorem stepB (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : cond3 i) (hc4 : ¬cond4 i)
    (x0 : Vec Ideal S10000x128 .f32) (x1 : Vec Ideal S128x18 .f32) (x2 : Vec Ideal S1x18 .f32) (x3 : Vec Ideal S16x18 .f32) (x4 : Vec Ideal S1x18 .f32) (x5 x6 : Vec Ideal S200x10000 .f32) (xi7 : Vec Ideal S200x16 .f32)
    (q : Fin 50) (d : S10000x16.Idx → EReal)
    (ho1 : k0_off1 i = ![200 * q.val, 0]) (ho2 : k0_off2 i = ![200 * q.val, 1]) (ho3 : k0_off3 i = ![200 * q.val, 0]) (ho4 : k0_off4 i = ![200 * q.val, 0])
    (h5 : ∀ (p : Fin 200) (j : Fin 10000), x5 (ix2 p j) = a1 m c (ix2 (blockRow q p) j)) (h6 : ∀ (p : Fin 200) (j : Fin 10000), x6 (ix2 p j) = a2 m c (ix2 (blockRow q p) j)) :
    arg11.view.read (Elt Ideal) (arg11.view.writes (Elt Ideal) (harg11.unread (part m c q.val d))
        (runN_B (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 xi7 (XW0 m c) (SD0 m c) (part m c q.val d)).1)
      = part m c (q.val + 1) d := by
  unfold runN_B
  dsimp only
  refine read_one_block arg11 harg11 q _ _ ho4 _ _ _ (fun p cc => ?hin) (fun r cc h => part_succ_of_outside m c q.val d r cc h)
  refine (pay8_block q _ _ _ _ _ _ _ (a1 m c) (a2 m c) (mat (a0 m c)) (mat (a3 m c)) (col (a5 m c)) (col (a7 m c))
    (scal (a6 m c)) (scal (a8 m c)) ?h9 ?h12 ?h13 ?h16 ?h14 ?h17 ?h26 p cc).trans (part_succ_of_inside m c q d p cc).symm
  case h9 => exact fun p => readAt_window (Val := Elt Ideal) (Cw := 1) arg10 harg10 (SD0 m c) _ _ (200 * q.val) 0 ho1 p 0 (blockRow q p) 0 rfl rfl
  case h12 => exact fun p => readAt_window (Val := Elt Ideal) (Cw := 1) arg10 harg10 (SD0 m c) _ _ (200 * q.val) 1 ho2 p 0 (blockRow q p) 1 rfl rfl
  case h13 => exact fun p j => (readAt_window (Val := Elt Ideal) arg6 harg6 x5 _ _ 0 0 rfl p j p j (Nat.zero_add _).symm (Nat.zero_add _).symm).trans (h5 p j)
  case h16 => exact fun p j => (readAt_window (Val := Elt Ideal) arg7 harg7 x6 _ _ 0 0 rfl p j p j (Nat.zero_add _).symm (Nat.zero_add _).symm).trans (h6 p j)
  case h14 =>
    funext y
    obtain ⟨r, k, rfl⟩ : ∃ (r : Fin 10000) (k : Fin 16), y = ix2 r k := ⟨y 0, y 1, eq_ix2 y⟩
    exact readAt_window (Val := Elt Ideal) arg9 harg9 (XW0 m c) _ _ 0 0 rfl r k r k (Nat.zero_add _).symm (Nat.zero_add _).symm
  case h17 =>
    funext y
    obtain ⟨r, k, rfl⟩ : ∃ (r : Fin 10000) (k : Fin 16), y = ix2 r k := ⟨y 0, y 1, eq_ix2 y⟩
    exact readAt_window (Val := Elt Ideal) arg9 harg9 (XW0 m c) _ _ 0 0 rfl r k r k (Nat.zero_add _).symm (Nat.zero_add _).symm
  case h26 => exact fun p k => readAt_window (Val := Elt Ideal) arg9 harg9 (XW0 m c) _ _ (200 * q.val) 0 ho3 p k (blockRow q p) k rfl (Nat.zero_add _).symm

end Cert.KernelIdeal.Val

end
-- ==== Proof.LibWholeMemrefLoads.lean ====
/-
  Reading a buffer through a whole memref. A load of the whole buffer reads its contents; a load of a unit-stride
  box at offsets (o, k) reads the contents at (o + row, k + column); after one store of the whole buffer a load
  reads the stored value whatever was there before; one store of the whole buffer leaves the stored value.
-/
import Idealize.ShloMosaic.Lib.Pipeline.FrameBody
import Idealize.ShloMosaic.Lib.Pipeline.Value
import Idealize.ShloMosaic.Lib.WholeRead
import Idealize.ShloMosaic.Lib.Exec.Geometry

noncomputable section

namespace Cert.Gated.Loads

open Idealize.ShloMosaic

variable {sig : RefSig} {κ : Kind} {sp : Space} {Val : EltTy → Type} [∀ e, Nonempty (Val e)] {e : EltTy}

/-- A load of the whole buffer reads its contents. -/
theorem whole_load {S : Shape} (M : Memref sig κ sp S e) (hM : M.IsWhole) (X : S.Idx → Val e)
    {off : Fin S.rank → ℕ} (hz : off = fun _ => 0) (inb : ∀ a, off a + S.size a ≤ S.size a) :
    View.readAt Val M.view (Rect.unit off S.size inb).toLoadRect (hM.unread X) = X := by
  rw [View.readAt_eq_ld, hM.read_unread, View.ld_unit_zero hz]

/-- Element x of a unit-stride box at offsets (o, k) of a rank-2 shape is the element (o + x₀, k + x₁). -/
theorem box_idx {d : Fin 2 → ℕ} {off size : Fin 2 → ℕ} (inb : ∀ a, off a + size a ≤ (⟨2, d⟩ : Shape).size a) (o k : ℕ)
    (hoff : off = ![o, k]) (x : (Rect.unit (s := ⟨2, d⟩) off size inb).shape.Idx) (y : (⟨2, d⟩ : Shape).Idx)
    (h0 : (y 0).val = o + (x 0).val) (h1 : (y 1).val = k + (x 1).val) :
    (Rect.unit (s := ⟨2, d⟩) off size inb).toLoadRect.idx x = y := by
  subst hoff
  funext a
  apply Fin.ext
  match a with
  | ⟨0, _⟩ => show o + 1 * (x 0).val = (y 0).val; rw [h0]; omega
  | ⟨1, _⟩ => show k + 1 * (x 1).val = (y 1).val; rw [h1]; omega

/-- A load of a box at offsets (o, k) reads the contents at (o + row, k + column). -/
theorem box_load {d : Fin 2 → ℕ} (M : Memref sig κ sp (⟨2, d⟩ : Shape) e) (hM : M.IsWhole)
    (X : (⟨2, d⟩ : Shape).Idx → Val e) {off size : Fin 2 → ℕ} (inb : ∀ a, off a + size a ≤ (⟨2, d⟩ : Shape).size a)
    (o k : ℕ) (hoff : off = ![o, k]) (x : (Rect.unit (s := ⟨2, d⟩) off size inb).shape.Idx) (y : (⟨2, d⟩ : Shape).Idx)
    (h0 : (y 0).val = o + (x 0).val) (h1 : (y 1).val = k + (x 1).val) :
    View.readAt Val M.view (Rect.unit (s := ⟨2, d⟩) off size inb).toLoadRect (hM.unread X) x = X y :=
  (hM.readAt_unread X _ x).trans (congrArg X (box_idx inb o k hoff x y h0 h1))

/-- One store of the whole buffer leaves the stored value. -/
theorem read_whole_store {S : Shape} (v : View sig κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hz inb y⟩),
    View.canon_unit_zero hz]

/-- After one store of the whole buffer, a load of the whole buffer (as the run names it) reads the stored value. -/
theorem whole_readCov {S : Shape} (v : View sig κ sp S e) {off : Fin S.rank → ℕ} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

/-- After one store of the whole buffer over anything, a load of a box at offsets (o, k) reads the stored value at
    (o + row, k + column). -/
theorem box_load_after_store {d : Fin 2 → ℕ} (v : View sig κ sp (⟨2, d⟩ : Shape) e) {off0 : Fin 2 → ℕ}
    (hz : off0 = fun _ => 0) (inb0 : ∀ a, off0 a + (⟨2, d⟩ : Shape).size a ≤ (⟨2, d⟩ : Shape).size a)
    (w : (⟨2, d⟩ : Shape).Idx → Val e) {off size : Fin 2 → ℕ} (inb : ∀ a, off a + size a ≤ (⟨2, d⟩ : Shape).size a)
    (o k : ℕ) (hoff : off = ![o, k]) (x : (Rect.unit (s := ⟨2, d⟩) off size inb).shape.Idx) (y : (⟨2, d⟩ : Shape).Idx)
    (h0 : (y 0).val = o + (x 0).val) (h1 : (y 1).val = k + (x 1).val) :
    View.readAt Val v (Rect.unit (s := ⟨2, d⟩) off size inb).toLoadRect
      (v.writes Val v.junk [(⟨Rect.unit off0 (⟨2, d⟩ : Shape).size inb0, w⟩ : View.Piece Val (⟨2, d⟩ : Shape) e)]) x = w y := by
  rw [View.readAt_writes_junk_eq_canon, View.canon_unit_zero hz]
  exact congrArg w (box_idx inb o k hoff x y h0 h1)

end Cert.Gated.Loads

end
-- ==== Proof.KIValStepA.lean ====
/- What the grid points of one case leave in the scratch and output buffers, in closed form. -/
import proofs.«140471_g88347477279355_cont_sun_m_1058_38_alg».proof.Proof.KIValDefs
import proofs.«140471_g88347477279355_cont_sun_m_1058_38_alg».proof.Proof.KIRunNA
import proofs.«140471_g88347477279355_cont_sun_m_1058_38_alg».proof.Proof.BlockSteps
import proofs.«140471_g88347477279355_cont_sun_m_1058_38_alg».proof.Proof.KIValStepB
import proofs.«140471_g88347477279355_cont_sun_m_1058_38_alg».proof.Proof.LibWholeMemrefLoads
import Idealize.ShloMosaic.Lib.WritesUnit
import Idealize.ShloMosaic.Lib.WholeRead
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

theorem stepA9 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : cond1 i) (hc2 : ¬cond2 i) (hc3 : cond3 i) (hc4 : ¬cond4 i)
    (x0 : Vec Ideal S10000x128 .f32) (x1 : Vec Ideal S128x18 .f32) (x2 : Vec Ideal S1x18 .f32) (x3 : Vec Ideal S16x18 .f32) (x4 : Vec Ideal S1x18 .f32) (x5 : Vec Ideal S200x10000 .f32) (x6 : Vec Ideal S200x10000 .f32) (xi7 : Vec Ideal S200x16 .f32) (xs2 : Vec Ideal S10000x16 .f32) (hx0 : x0 = a0 m c) (hx1 : Cert.KernelIdeal.PayVal.IsPacked x1 (a3 m c) (a5 m c) (a7 m c)) (hx2 : Cert.KernelIdeal.PayVal.IsPackedBias x2 (a6 m c) (a8 m c))
    (f : arg9.view.ty.Contents (Elt Ideal)) :
    arg9.view.read (Elt Ideal) (arg9.view.writes (Elt Ideal) f (runN_A (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 xi7 xs2).1) = XW0 m c := by
  unfold runN_A
  dsimp only
  sl_unfold_run_names
  have hz : (![0, 0] : Fin 2 → ℕ) = fun _ => 0 := by
    funext a; match a with | ⟨0, _⟩ => rfl | ⟨1, _⟩ => rfl
  rw [Cert.Gated.Loads.whole_load arg1 harg1 x0 hz, Cert.Gated.Loads.whole_load arg2 harg2 x1 hz, Cert.Gated.Loads.whole_load arg3 harg3 x2 hz,
    Cert.Gated.Loads.read_whole_store arg9.view f hz]
  subst hx0
  exact Cert.KernelIdeal.PayVal.pay2_eq (a0 m c) x1 x2 (a3 m c) (a5 m c) (a7 m c) (a6 m c) (a8 m c) hx1 hx2

theorem stepA10 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : cond1 i) (hc2 : ¬cond2 i) (hc3 : cond3 i) (hc4 : ¬cond4 i)
    (x0 : Vec Ideal S10000x128 .f32) (x1 : Vec Ideal S128x18 .f32) (x2 : Vec Ideal S1x18 .f32) (x3 : Vec Ideal S16x18 .f32) (x4 : Vec Ideal S1x18 .f32) (x5 : Vec Ideal S200x10000 .f32) (x6 : Vec Ideal S200x10000 .f32) (xi7 : Vec Ideal S200x16 .f32) (xs2 : Vec Ideal S10000x16 .f32) (hx0 : x0 = a0 m c) (hx1 : Cert.KernelIdeal.PayVal.IsPacked x1 (a3 m c) (a5 m c) (a7 m c)) (hx2 : Cert.KernelIdeal.PayVal.IsPackedBias x2 (a6 m c) (a8 m c))
    (f : arg10.view.ty.Contents (Elt Ideal)) :
    arg10.view.read (Elt Ideal) (arg10.view.writes (Elt Ideal) f (runN_A (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 xi7 xs2).2.1) = SD0 m c := by
  unfold runN_A
  dsimp only
  sl_unfold_run_names
  have hz : (![0, 0] : Fin 2 → ℕ) = fun _ => 0 := by
    funext a; match a with | ⟨0, _⟩ => rfl | ⟨1, _⟩ => rfl
  rw [Cert.Gated.Loads.whole_load arg1 harg1 x0 hz, Cert.Gated.Loads.whole_load arg2 harg2 x1 hz, Cert.Gated.Loads.whole_load arg3 harg3 x2 hz,
    Cert.Gated.Loads.read_whole_store arg10.view f hz]
  subst hx0
  exact Cert.KernelIdeal.PayVal.pay3_eq (a0 m c) x1 x2 (a3 m c) (a5 m c) (a7 m c) (a6 m c) (a8 m c) hx1 hx2

theorem stepA11 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : cond1 i) (hc2 : ¬cond2 i) (hc3 : cond3 i) (hc4 : ¬cond4 i)
    (x0 : Vec Ideal S10000x128 .f32) (x1 : Vec Ideal S128x18 .f32) (x2 : Vec Ideal S1x18 .f32) (x3 : Vec Ideal S16x18 .f32) (x4 : Vec Ideal S1x18 .f32) (x5 : Vec Ideal S200x10000 .f32) (x6 : Vec Ideal S200x10000 .f32) (xi7 : Vec Ideal S200x16 .f32) (q : Fin 50) (hq : q.val = 0) (d : S10000x16.Idx → EReal) (hx0 : x0 = a0 m c) (hx1 : Cert.KernelIdeal.PayVal.IsPacked x1 (a3 m c) (a5 m c) (a7 m c)) (hx2 : Cert.KernelIdeal.PayVal.IsPackedBias x2 (a6 m c) (a8 m c))
    (ho1 : k0_off1 i = ![200 * q.val, 0]) (ho2 : k0_off2 i = ![200 * q.val, 1]) (ho3 : k0_off3 i = ![200 * q.val, 0]) (ho4 : k0_off4 i = ![200 * q.val, 0]) (h5 : ∀ (p : Fin 200) (j : Fin 10000), x5 (ix2 p j) = a1 m c (ix2 (blockRow q p) j)) (h6 : ∀ (p : Fin 200) (j : Fin 10000), x6 (ix2 p j) = a2 m c (ix2 (blockRow q p) j)) :
    arg11.view.read (Elt Ideal) (arg11.view.writes (Elt Ideal) (harg11.unread (part m c q.val d))
        (runN_A (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 xi7 (part m c q.val d)).2.2.1) = part m c (q.val + 1) d := by
  unfold runN_A
  dsimp only
  sl_unfold_run_names
  have hz : (![0, 0] : Fin 2 → ℕ) = fun _ => 0 := by
    funext a; match a with | ⟨0, _⟩ => rfl | ⟨1, _⟩ => rfl
  rw [Cert.Gated.Loads.whole_load arg1 harg1 x0 hz, Cert.Gated.Loads.whole_load arg2 harg2 x1 hz, Cert.Gated.Loads.whole_load arg3 harg3 x2 hz]
  subst hx0
  rw [Cert.KernelIdeal.PayVal.pay2_eq (a0 m c) x1 x2 (a3 m c) (a5 m c) (a7 m c) (a6 m c) (a8 m c) hx1 hx2,
    Cert.KernelIdeal.PayVal.pay3_eq (a0 m c) x1 x2 (a3 m c) (a5 m c) (a7 m c) (a6 m c) (a8 m c) hx1 hx2]
  refine read_one_block arg11 harg11 q _ _ ho4 _ _ _ (fun p cc => ?hin)
    (fun r cc h => part_succ_of_outside m c q.val d r cc h)
  refine (Cert.KernelIdeal.PayVal.pay8_block q _ _ _ _ _ _ _ (a1 m c) (a2 m c) (mat (a0 m c)) (mat (a3 m c))
    (col (a5 m c)) (col (a7 m c)) (scal (a6 m c)) (scal (a8 m c)) ?h9 ?h12 ?h13 ?h16 ?h14 ?h17 ?h26 p cc).trans
    (part_succ_of_inside m c q d p cc).symm
  case h9 =>
    exact fun p => Cert.Gated.Loads.box_load_after_store (Val := Elt Ideal) arg10.view hz _ _ _ (200 * q.val) 0 ho1
      (ix2 p 0) (ix2 (blockRow q p) 0) rfl rfl
  case h12 =>
    exact fun p => Cert.Gated.Loads.box_load_after_store (Val := Elt Ideal) arg10.view hz _ _ _ (200 * q.val) 1 ho2
      (ix2 p 0) (ix2 (blockRow q p) 1) rfl rfl
  case h13 =>
    exact fun p j => (readAt_window (Val := Elt Ideal) arg6 harg6 x5 _ _ 0 0 rfl p j p j (Nat.zero_add _).symm
      (Nat.zero_add _).symm).trans (h5 p j)
  case h16 =>
    exact fun p j => (readAt_window (Val := Elt Ideal) arg7 harg7 x6 _ _ 0 0 rfl p j p j (Nat.zero_add _).symm
      (Nat.zero_add _).symm).trans (h6 p j)
  case h14 => exact Cert.Gated.Loads.whole_readCov (Val := Elt Ideal) arg9.view hz _ _
  case h17 => exact Cert.Gated.Loads.whole_readCov (Val := Elt Ideal) arg9.view hz _ _
  case h26 =>
    exact fun p k => Cert.Gated.Loads.box_load_after_store (Val := Elt Ideal) arg9.view hz _ _ _ (200 * q.val) 0 ho3
      (ix2 p k) (ix2 (blockRow q p) k) rfl (Nat.zero_add _).symm

end Cert.KernelIdeal.Val

end
-- ==== Proof.KIRunNC.lean ====
/-
  The kernel body at grid point 50 with every buffer's contents named: the pieces it leaves in the first two scratch buffers (recomputed from the first layer's result) and in the output buffer (the first row block of the result).
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runN_C (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : cond2 i) (hc3 : ¬cond3 i) (hc4 : cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs2 : Vec F S10000x16 .f32) :
    Σ' (L8 : List (View.Piece (Elt F) S200x16 .f32)), Σ' (L9 : List (View.Piece (Elt F) S10000x16 .f32)), { L10 : List (View.Piece (Elt F) S10000x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg11 fullShare xs2) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    isplitl [H10]
    · iexists _; iexact H10
    iexists _; isplitr; · ipureintro; exact harg11.read_unread _
    iexact H11

end Cert.KernelIdeal.Fr

end
-- ==== Proof.KIValStepC.lean ====
/- What the grid points of one case leave in the scratch and output buffers, in closed form. -/
import proofs.«140471_g88347477279355_cont_sun_m_1058_38_alg».proof.Proof.KIValDefs
import proofs.«140471_g88347477279355_cont_sun_m_1058_38_alg».proof.Proof.KIRunNC
import proofs.«140471_g88347477279355_cont_sun_m_1058_38_alg».proof.Proof.BlockSteps
import proofs.«140471_g88347477279355_cont_sun_m_1058_38_alg».proof.Proof.LibWholeMemrefLoads
import Idealize.ShloMosaic.Lib.WritesUnit
import Idealize.ShloMosaic.Lib.WholeRead
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

theorem stepC8 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : cond2 i) (hc3 : ¬cond3 i) (hc4 : cond4 i)
    (x0 : Vec Ideal S10000x128 .f32) (x1 : Vec Ideal S128x18 .f32) (x2 : Vec Ideal S1x18 .f32) (x3 : Vec Ideal S16x18 .f32) (x4 : Vec Ideal S1x18 .f32) (x5 : Vec Ideal S200x10000 .f32) (x6 : Vec Ideal S200x10000 .f32) (q : Fin 50) (hx3 : Cert.KernelIdeal.PayVal.IsPacked x3 (a4 m c) (a9 m c) (a11 m c)) (hx4 : Cert.KernelIdeal.PayVal.IsPackedBias x4 (a10 m c) (a12 m c))
    (ho1 : k0_off1 i = ![200 * q.val, 0]) (ho2 : k0_off2 i = ![200 * q.val, 1]) (ho3 : k0_off3 i = ![200 * q.val, 0]) (h5 : ∀ (p : Fin 200) (j : Fin 10000), x5 (ix2 p j) = a1 m c (ix2 (blockRow q p) j)) (h6 : ∀ (p : Fin 200) (j : Fin 10000), x6 (ix2 p j) = a2 m c (ix2 (blockRow q p) j))
    (f : arg8.view.ty.Contents (Elt Ideal)) :
    arg8.view.read (Elt Ideal) (arg8.view.writes (Elt Ideal) f (runN_C (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 (X1 m c)).1) = zblk m c q := by
  have hz : (![0, 0] : Fin 2 → ℕ) = fun _ => 0 := by funext a; fin_cases a <;> rfl
  unfold runN_C
  dsimp only
  sl_unfold_run_names
  rw [Loads.read_whole_store _ _ hz]
  have e11 := Loads.whole_load (Val := Elt Ideal) arg11 harg11 (X1 m c) hz inb_S10000x16_S10000x16_0_0
  have e4 := Loads.whole_load (Val := Elt Ideal) arg4 harg4 x3 hz inb_S16x18_S16x18_0_0
  have e5 := Loads.whole_load (Val := Elt Ideal) arg5 harg5 x4 hz inb_S1x18_S1x18_0_0
  rw [e11, e4, e5]
  have p5 := Cert.KernelIdeal.PayVal.pay5_eq (X1 m c) x3 x4 (a4 m c) (a9 m c) (a11 m c) (a10 m c) (a12 m c) hx3 hx4
  have p6 := Cert.KernelIdeal.PayVal.pay6_eq (X1 m c) x3 x4 (a4 m c) (a9 m c) (a11 m c) (a10 m c) (a12 m c) hx3 hx4
  rw [p5, p6]
  funext y
  obtain ⟨p, cc, rfl⟩ : ∃ (p : Fin 200) (cc : Fin 16), y = ix2 p cc := ⟨y 0, y 1, eq_ix2 y⟩
  refine (Cert.KernelIdeal.PayVal.pay7_block q _ _ _ _ _ _ _ (a1 m c) (a2 m c) (mat (X1 m c)) (mat (a4 m c))
    (col (a9 m c)) (col (a11 m c)) (scal (a10 m c)) (scal (a12 m c)) ?h9 ?h12 ?h13 ?h16 ?h14 ?h17 ?h26 p cc).trans rfl
  case h9 => intro p; exact Loads.box_load_after_store (Val := Elt Ideal) arg10.view hz _ _ _ (200 * q.val) 0 ho1 (ix2 p 0) (ix2 (blockRow q p) 0) rfl rfl
  case h12 => intro p; exact Loads.box_load_after_store (Val := Elt Ideal) arg10.view hz _ _ _ (200 * q.val) 1 ho2 (ix2 p 0) (ix2 (blockRow q p) 1) rfl rfl
  case h13 => intro p j; exact (congrFun (Loads.whole_load (Val := Elt Ideal) arg6 harg6 x5 hz _) (ix2 p j)).trans (h5 p j)
  case h16 => intro p j; exact (congrFun (Loads.whole_load (Val := Elt Ideal) arg7 harg7 x6 hz _) (ix2 p j)).trans (h6 p j)
  case h14 => exact Loads.whole_readCov (Val := Elt Ideal) arg9.view hz _ _
  case h17 => exact Loads.whole_readCov (Val := Elt Ideal) arg9.view hz _ _
  case h26 => intro p cc; exact Loads.box_load_after_store (Val := Elt Ideal) arg9.view hz _ _ _ (200 * q.val) 0 ho3 (ix2 p cc) (ix2 (blockRow q p) cc) rfl (Nat.zero_add _).symm

theorem stepC9 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : cond2 i) (hc3 : ¬cond3 i) (hc4 : cond4 i)
    (x0 : Vec Ideal S10000x128 .f32) (x1 : Vec Ideal S128x18 .f32) (x2 : Vec Ideal S1x18 .f32) (x3 : Vec Ideal S16x18 .f32) (x4 : Vec Ideal S1x18 .f32) (x5 : Vec Ideal S200x10000 .f32) (x6 : Vec Ideal S200x10000 .f32) (hx3 : Cert.KernelIdeal.PayVal.IsPacked x3 (a4 m c) (a9 m c) (a11 m c)) (hx4 : Cert.KernelIdeal.PayVal.IsPackedBias x4 (a10 m c) (a12 m c))
    (f : arg9.view.ty.Contents (Elt Ideal)) :
    arg9.view.read (Elt Ideal) (arg9.view.writes (Elt Ideal) f (runN_C (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 (X1 m c)).2.1) = XW1 m c := by
  have hz : (![0, 0] : Fin 2 → ℕ) = fun _ => 0 := by funext a; fin_cases a <;> rfl
  unfold runN_C
  dsimp only
  sl_unfold_run_names
  rw [Loads.read_whole_store _ _ hz]
  rw [Loads.whole_load (Val := Elt Ideal) arg11 harg11 (X1 m c) hz inb_S10000x16_S10000x16_0_0,
    Loads.whole_load (Val := Elt Ideal) arg4 harg4 x3 hz inb_S16x18_S16x18_0_0,
    Loads.whole_load (Val := Elt Ideal) arg5 harg5 x4 hz inb_S1x18_S1x18_0_0]
  exact Cert.KernelIdeal.PayVal.pay5_eq (X1 m c) x3 x4 (a4 m c) (a9 m c) (a11 m c) (a10 m c) (a12 m c) hx3 hx4

theorem stepC10 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : cond2 i) (hc3 : ¬cond3 i) (hc4 : cond4 i)
    (x0 : Vec Ideal S10000x128 .f32) (x1 : Vec Ideal S128x18 .f32) (x2 : Vec Ideal S1x18 .f32) (x3 : Vec Ideal S16x18 .f32) (x4 : Vec Ideal S1x18 .f32) (x5 : Vec Ideal S200x10000 .f32) (x6 : Vec Ideal S200x10000 .f32) (hx3 : Cert.KernelIdeal.PayVal.IsPacked x3 (a4 m c) (a9 m c) (a11 m c)) (hx4 : Cert.KernelIdeal.PayVal.IsPackedBias x4 (a10 m c) (a12 m c))
    (f : arg10.view.ty.Contents (Elt Ideal)) :
    arg10.view.read (Elt Ideal) (arg10.view.writes (Elt Ideal) f (runN_C (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 (X1 m c)).2.2.1) = SD1 m c := by
  have hz : (![0, 0] : Fin 2 → ℕ) = fun _ => 0 := by funext a; fin_cases a <;> rfl
  unfold runN_C
  dsimp only
  sl_unfold_run_names
  rw [Loads.read_whole_store _ _ hz]
  rw [Loads.whole_load (Val := Elt Ideal) arg11 harg11 (X1 m c) hz inb_S10000x16_S10000x16_0_0,
    Loads.whole_load (Val := Elt Ideal) arg4 harg4 x3 hz inb_S16x18_S16x18_0_0,
    Loads.whole_load (Val := Elt Ideal) arg5 harg5 x4 hz inb_S1x18_S1x18_0_0]
  exact Cert.KernelIdeal.PayVal.pay6_eq (X1 m c) x3 x4 (a4 m c) (a9 m c) (a11 m c) (a10 m c) (a12 m c) hx3 hx4

end Cert.KernelIdeal.Val

end
-- ==== Proof.KIRunND.lean ====
/-
  The kernel body at a grid point 50 < i < 100 with every buffer's contents named: the piece it leaves in the output buffer.
-/
import proofs.«140471_g88347477279355_cont_sun_m_1058_38_alg».proof.Proof.Gen.KernelIdeal.Launch
import proofs.«140471_g88347477279355_cont_sun_m_1058_38_alg».proof.Proof.Gen.KernelIdeal.Skeleton
import proofs.«140471_g88347477279355_cont_sun_m_1058_38_alg».proof.Proof.Gen.KernelIdeal.Points
import proofs.«140471_g88347477279355_cont_sun_m_1058_38_alg».proof.Proof.KIKit
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runN_D (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : ¬cond3 i) (hc4 : cond4 i)
    (x0 : Vec F S10000x128 .f32) (x1 : Vec F S128x18 .f32) (x2 : Vec F S1x18 .f32) (x3 : Vec F S16x18 .f32) (x4 : Vec F S1x18 .f32) (x5 : Vec F S200x10000 .f32) (x6 : Vec F S200x10000 .f32) (xs0 : Vec F S10000x16 .f32) (xs1 : Vec F S10000x2 .f32) :
     { L8 : List (View.Piece (Elt F) S200x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ owns (c : Thread nD τ) arg9 fullShare xs0 ∗ owns (c : Thread nD τ) arg10 fullShare xs1 ∗ (∃ d, owns (c : Thread nD τ) arg11 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; isplitr; · ipureintro; exact harg10.read_unread _
      iexact H10
    iexists _, _; isplitr; swap; · iexact H11
    ipureintro; rfl

end Cert.KernelIdeal.Fr

end
-- ==== Proof.KIValStepD.lean ====
/- What the grid points of one case leave in the scratch and output buffers, in closed form. -/
import proofs.«140471_g88347477279355_cont_sun_m_1058_38_alg».proof.Proof.KIValDefs
import proofs.«140471_g88347477279355_cont_sun_m_1058_38_alg».proof.Proof.KIRunND
import proofs.«140471_g88347477279355_cont_sun_m_1058_38_alg».proof.Proof.BlockSteps
import proofs.«140471_g88347477279355_cont_sun_m_1058_38_alg».proof.Proof.LibWholeMemrefLoads
import Idealize.ShloMosaic.Lib.WritesUnit
import Idealize.ShloMosaic.Lib.WholeRead
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

theorem stepD8 (c : Dev nD) (i : grid0.Coords) (arg1 : Memref sig .tc .vmem S10000x128 .f32) (harg1 : arg1.IsWhole) (arg2 : Memref sig .tc .vmem S128x18 .f32) (harg2 : arg2.IsWhole) (arg3 : Memref sig .tc .vmem S1x18 .f32) (harg3 : arg3.IsWhole) (arg4 : Memref sig .tc .vmem S16x18 .f32) (harg4 : arg4.IsWhole) (arg5 : Memref sig .tc .vmem S1x18 .f32) (harg5 : arg5.IsWhole) (arg6 : Memref sig .tc .vmem S200x10000 .f32) (harg6 : arg6.IsWhole) (arg7 : Memref sig .tc .vmem S200x10000 .f32) (harg7 : arg7.IsWhole) (arg8 : Memref sig .tc .vmem S200x16 .f32) (harg8 : arg8.IsWhole) (arg9 : Memref sig .tc .vmem S10000x16 .f32) (harg9 : arg9.IsWhole) (arg10 : Memref sig .tc .vmem S10000x2 .f32) (harg10 : arg10.IsWhole) (arg11 : Memref sig .tc .vmem S10000x16 .f32) (harg11 : arg11.IsWhole) (hc1 : ¬cond1 i) (hc2 : ¬cond2 i) (hc3 : ¬cond3 i) (hc4 : cond4 i)
    (x0 : Vec Ideal S10000x128 .f32) (x1 : Vec Ideal S128x18 .f32) (x2 : Vec Ideal S1x18 .f32) (x3 : Vec Ideal S16x18 .f32) (x4 : Vec Ideal S1x18 .f32) (x5 : Vec Ideal S200x10000 .f32) (x6 : Vec Ideal S200x10000 .f32) (q : Fin 50)
    (ho1 : k0_off1 i = ![200 * q.val, 0]) (ho2 : k0_off2 i = ![200 * q.val, 1]) (ho3 : k0_off3 i = ![200 * q.val, 0]) (h5 : ∀ (p : Fin 200) (j : Fin 10000), x5 (ix2 p j) = a1 m c (ix2 (blockRow q p) j)) (h6 : ∀ (p : Fin 200) (j : Fin 10000), x6 (ix2 p j) = a2 m c (ix2 (blockRow q p) j))
    (f : arg8.view.ty.Contents (Elt Ideal)) :
    arg8.view.read (Elt Ideal) (arg8.view.writes (Elt Ideal) f (runN_D (F := Ideal) c i arg1 harg1 arg2 harg2 arg3 harg3 arg4 harg4 arg5 harg5 arg6 harg6 arg7 harg7 arg8 harg8 arg9 harg9 arg10 harg10 arg11 harg11 hc1 hc2 hc3 hc4 x0 x1 x2 x3 x4 x5 x6 (XW1 m c) (SD1 m c)).1) = zblk m c q := by
  have hz : (![0, 0] : Fin 2 → ℕ) = fun _ => 0 := by funext a; fin_cases a <;> rfl
  unfold runN_D
  dsimp only
  sl_unfold_run_names
  rw [Loads.read_whole_store _ _ hz]
  funext y
  obtain ⟨p, cc, rfl⟩ : ∃ (p : Fin 200) (cc : Fin 16), y = ix2 p cc := ⟨y 0, y 1, eq_ix2 y⟩
  refine (Cert.KernelIdeal.PayVal.pay7_block q _ _ _ _ _ _ _ (a1 m c) (a2 m c) (mat (X1 m c)) (mat (a4 m c))
    (col (a9 m c)) (col (a11 m c)) (scal (a10 m c)) (scal (a12 m c)) ?h9 ?h12 ?h13 ?h16 ?h14 ?h17 ?h26 p cc).trans rfl
  case h9 => intro p; exact Loads.box_load (Val := Elt Ideal) arg10 harg10 (SD1 m c) _ (200 * q.val) 0 ho1 (ix2 p 0) (ix2 (blockRow q p) 0) rfl rfl
  case h12 => intro p; exact Loads.box_load (Val := Elt Ideal) arg10 harg10 (SD1 m c) _ (200 * q.val) 1 ho2 (ix2 p 0) (ix2 (blockRow q p) 1) rfl rfl
  case h13 => intro p j; exact (congrFun (Loads.whole_load (Val := Elt Ideal) arg6 harg6 x5 hz _) (ix2 p j)).trans (h5 p j)
  case h16 => intro p j; exact (congrFun (Loads.whole_load (Val := Elt Ideal) arg7 harg7 x6 hz _) (ix2 p j)).trans (h6 p j)
  case h14 => exact (Loads.whole_load (Val := Elt Ideal) arg9 harg9 (XW1 m c) hz _).trans rfl
  case h17 => exact (Loads.whole_load (Val := Elt Ideal) arg9 harg9 (XW1 m c) hz _).trans rfl
  case h26 => intro p cc; exact Loads.box_load (Val := Elt Ideal) arg9 harg9 (XW1 m c) _ (200 * q.val) 0 ho3 (ix2 p cc) (ix2 (blockRow q p) cc) rfl (Nat.zero_add _).symm

end Cert.KernelIdeal.Val

end
-- ==== Proof.ConcatAt.lean ====
/-
  The packed weight matrix and bias row read at an entry.

  Before the fused projection the host lays, side by side along the column axis, a k × 16 weight matrix and two
  k × 1 score columns into one k × 18 matrix C, and a 1 × 16 row of zeros and the two scalar biases (each a
  one-element array recast as 1 × 1) into one 1 × 18 bias row. A concatenation read at (k, j) is the piece whose
  column span holds j, at the column counted from that piece's start: columns 0..15 are the first piece, column 16
  the second, column 17 the third.
-/
import proofs.«140471_g88347477279355_cont_sun_m_1058_38_alg».proof.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayVal

open Cert.KernelIdeal Idealize.ShloMosaic Idealize.ShloMosaic.ValueIdx

/-! ## Three pieces of widths 16, 1, 1 side by side -/

/-- An n × 16 block and two n × 1 columns laid side by side, read at (k, j). -/
theorem concat3_apply {α : Type} {n : ℕ} (a : (⟨2, ![n, 16]⟩ : Shape).Idx → α) (b d : (⟨2, ![n, 1]⟩ : Shape).Idx → α)
    (h : Shape.Concatenates [(⟨2, ![n, 16]⟩ : Shape), ⟨2, ![n, 1]⟩, ⟨2, ![n, 1]⟩] ⟨2, ![n, 18]⟩ 1)
    (k : Fin n) (j : Fin 18) :
    concatenate ⟨2, ![n, 18]⟩ 1 [⟨⟨2, ![n, 16]⟩, a⟩, ⟨⟨2, ![n, 1]⟩, b⟩, ⟨⟨2, ![n, 1]⟩, d⟩] h (ix2 k j)
      = if hj : j.val < 16 then a (ix2 k ⟨j.val, hj⟩) else if j.val = 16 then b (ix2 k 0) else d (ix2 k 0) := by
  have hjlt := j.isLt
  split
  · next hj =>
    refine concatenate_apply_piece (t := ⟨2, ![n, 18]⟩) 1 [⟨⟨2, ![n, 16]⟩, a⟩, ⟨⟨2, ![n, 1]⟩, b⟩, ⟨⟨2, ![n, 1]⟩, d⟩] h (ix2 k j) 0 (by simp) _ a rfl rfl 0 rfl (ix2 k ⟨j.val, hj⟩)
      (fun ax hax => ?_) ?_
    · match ax with
      | ⟨0, _⟩ => rfl
      | ⟨1, _⟩ => exact absurd rfl hax
    · exact Nat.zero_add _
  · next hj =>
    split
    · next h16 =>
      refine concatenate_apply_piece (t := ⟨2, ![n, 18]⟩) 1 [⟨⟨2, ![n, 16]⟩, a⟩, ⟨⟨2, ![n, 1]⟩, b⟩, ⟨⟨2, ![n, 1]⟩, d⟩] h (ix2 k j) 1 (by simp) _ b rfl rfl 16 rfl (ix2 k 0)
        (fun ax hax => ?_) ?_
      · match ax with
        | ⟨0, _⟩ => rfl
        | ⟨1, _⟩ => exact absurd rfl hax
      · exact h16.symm
    · next h16 =>
      refine concatenate_apply_piece (t := ⟨2, ![n, 18]⟩) 1 [⟨⟨2, ![n, 16]⟩, a⟩, ⟨⟨2, ![n, 1]⟩, b⟩, ⟨⟨2, ![n, 1]⟩, d⟩] h (ix2 k j) 2 (by simp) _ d rfl rfl 17 rfl (ix2 k 0)
        (fun ax hax => ?_) ?_
      · match ax with
        | ⟨0, _⟩ => rfl
        | ⟨1, _⟩ => exact absurd rfl hax
      · show 17 + 0 = j.val
        omega

/-! ## The three packings of the program, at their printed shapes -/

/-- Layer 0's packed matrix C (128 × 18) from W (128 × 16) and the two score columns. -/
theorem concat_S128x18_apply {α : Type} (a : S128x16.Idx → α) (b d : S128x1.Idx → α)
    (hcat : Shape.Concatenates [S128x16, S128x1, S128x1] S128x18 1) (k : Fin 128) (j : Fin 18) :
    concatenate S128x18 1 [⟨S128x16, a⟩, ⟨S128x1, b⟩, ⟨S128x1, d⟩] hcat (ix2 k j)
      = if hj : j.val < 16 then a (ix2 k ⟨j.val, hj⟩) else if j.val = 16 then b (ix2 k 0) else d (ix2 k 0) :=
  concat3_apply a b d hcat k j

/-- Layer 1's packed matrix C (16 × 18) from W (16 × 16) and the two score columns. -/
theorem concat_S16x18_apply {α : Type} (a : S16x16.Idx → α) (b d : S16x1.Idx → α)
    (hcat : Shape.Concatenates [S16x16, S16x1, S16x1] S16x18 1) (k : Fin 16) (j : Fin 18) :
    concatenate S16x18 1 [⟨S16x16, a⟩, ⟨S16x1, b⟩, ⟨S16x1, d⟩] hcat (ix2 k j)
      = if hj : j.val < 16 then a (ix2 k ⟨j.val, hj⟩) else if j.val = 16 then b (ix2 k 0) else d (ix2 k 0) :=
  concat3_apply a b d hcat k j

/-- The packed bias row (1 × 18) from a 1 × 16 row and two 1 × 1 entries. -/
theorem concat_S1x18_apply {α : Type} (a : S1x16.Idx → α) (b d : S1x1.Idx → α)
    (hcat : Shape.Concatenates [S1x16, S1x1, S1x1] S1x18 1) (k : Fin 1) (j : Fin 18) :
    concatenate S1x18 1 [⟨S1x16, a⟩, ⟨S1x1, b⟩, ⟨S1x1, d⟩] hcat (ix2 k j)
      = if hj : j.val < 16 then a (ix2 k ⟨j.val, hj⟩) else if j.val = 16 then b (ix2 k 0) else d (ix2 k 0) :=
  concat3_apply a b d hcat k j

/-! ## The bias row's pieces -/

/-- A one-element array recast as 1 × 1 reads, at (0, 0), its element. -/
theorem reshape_S1_S1x1_apply {α : Type} (x : S1.Idx → α) (h : S1.ShapeCasts S1x1) :
    shapeCast S1x1 x h (ix2 0 0) = x (ix1 0) :=
  shapeCast_a_1a_apply x h 0 0

/-- A scalar spread over a 1 × 16 row reads, anywhere, the scalar. -/
theorem broadcastInDim_S__S1x16_apply {α : Type} (x : S_.Idx → α)
    (h : S_.BroadcastsInDim S1x16 (![] : Fin 0 → Fin S1x16.rank)) (j : S1x16.Idx) :
    broadcastInDim S1x16 ![] h x j = x ix0 :=
  broadcastInDim_apply _ h x j ix0 (fun a => a.elim0)

/-- The 1 × 16 row of zeros: the scalar constant with the all-zero word, spread, is 0 everywhere. -/
theorem zeros_S1x16_apply (h : S_.BroadcastsInDim S1x16 (![] : Fin 0 → Fin S1x16.rank)) (j : S1x16.Idx) :
    broadcastInDim S1x16 ![] h (constant (F := Ideal) S_ .f32 0x00000000#32) j = 0 := by
  rw [broadcastInDim_S__S1x16_apply, constant_apply, Ideal.ofBits_zero_f32]

/-- The whole bias row at column j: zero on the sixteen feature columns, then the two scalar biases. -/
theorem biasRow_apply (h0 : S_.BroadcastsInDim S1x16 (![] : Fin 0 → Fin S1x16.rank)) (hc : S1.ShapeCasts S1x1)
    (hcat : Shape.Concatenates [S1x16, S1x1, S1x1] S1x18 1) (b db : S1.Idx → EReal) (j : Fin 18) :
    concatenate S1x18 1 [⟨S1x16, broadcastInDim S1x16 ![] h0 (constant (F := Ideal) S_ .f32 0x00000000#32)⟩,
        ⟨S1x1, shapeCast S1x1 b hc⟩, ⟨S1x1, shapeCast S1x1 db hc⟩] hcat (ix2 0 j)
      = if j.val < 16 then 0 else if j.val = 16 then b (ix1 0) else db (ix1 0) := by
  rw [concat_S1x18_apply]
  split
  · exact zeros_S1x16_apply h0 _
  · split
    · exact reshape_S1_S1x1_apply b hc
    · exact reshape_S1_S1x1_apply db hc

end Cert.KernelIdeal.PayVal

end
-- ==== Proof.PackedAtEntry.lean ====
/-
  The packed operands as the region finds them.

  Before the one region the host packs, per layer, the weight matrix and the two score columns into one k × 18
  matrix, and a row of sixteen zeros and the two scalar biases (each a one-element array recast as 1 × 1) into one
  1 × 18 row. Each packed array, as it stands after those host operations, is the concatenation of its pieces as
  they were launched (no host operation writes an argument array), so it holds the layer's parameters in the sense
  of IsPacked / IsPackedBias: column j < 16 of the matrix is W's column j, column 16 the gate score, column 17 the
  dk score; the row is zero on the first sixteen columns, then the two biases.
-/
import proofs.«140471_g88347477279355_cont_sun_m_1058_38_alg».proof.Proof.KIKit
import proofs.«140471_g88347477279355_cont_sun_m_1058_38_alg».proof.Proof.BlockSteps
import proofs.«140471_g88347477279355_cont_sun_m_1058_38_alg».proof.Proof.ConcatAt
import Idealize.ShloMosaic.Lib.StableHlo.Run

set_option maxRecDepth 16384

noncomputable section

namespace Cert.KernelIdeal.Fr

open Idealize.ShloMosaic Idealize.ShloMosaic.TcCoe Idealize.ShloMosaic.ValueIdx
open Idealize.SL.Sem
open Cert.KernelIdeal Cert.KernelIdeal.Gen Cert.KernelIdeal.PayVal

variable (m : (ℓ : Loc nD τ sig) → Buf (Elt Ideal) ℓ) (c : Dev nD)

/-! ## Each packed array is the concatenation of its launched pieces -/

theorem V_main_v1_eq : (V m c main_v1 : S128x18.Idx → EReal)
    = concatenate S128x18 1 [⟨S128x16, m ((c : Thread nD τ).loc main_arg3)⟩, ⟨S128x1, m ((c : Thread nD τ).loc main_arg5)⟩,
        ⟨S128x1, m ((c : Thread nD τ).loc main_arg7)⟩] concatenates_S128x16_S128x1_S128x1_S128x18_d1 := by
  dsimp only [V, Gen.hostOps0]
  after_results
  rfl

theorem V_main_v5_eq : (V m c main_v5 : S16x18.Idx → EReal)
    = concatenate S16x18 1 [⟨S16x16, m ((c : Thread nD τ).loc main_arg4)⟩, ⟨S16x1, m ((c : Thread nD τ).loc main_arg9)⟩,
        ⟨S16x1, m ((c : Thread nD τ).loc main_arg11)⟩] concatenates_S16x16_S16x1_S16x1_S16x18_d1 := by
  dsimp only [V, Gen.hostOps0]
  after_results
  rfl

theorem V_main_v4_eq : (V m c main_v4 : S1x18.Idx → EReal)
    = concatenate S1x18 1 [⟨S1x16, broadcastInDim S1x16 ![] bcast_S_S1x16 (constant (F := Ideal) S_ .f32 0x00000000#32)⟩,
        ⟨S1x1, shapeCast S1x1 (m ((c : Thread nD τ).loc main_arg6)) shapeCasts_S1_S1x1⟩,
        ⟨S1x1, shapeCast S1x1 (m ((c : Thread nD τ).loc main_arg8)) shapeCasts_S1_S1x1⟩]
        concatenates_S1x16_S1x1_S1x1_S1x18_d1 := by
  dsimp only [V, Gen.hostOps0]
  after_results
  rfl

theorem V_main_v8_eq : (V m c main_v8 : S1x18.Idx → EReal)
    = concatenate S1x18 1 [⟨S1x16, broadcastInDim S1x16 ![] bcast_S_S1x16 (constant (F := Ideal) S_ .f32 0x00000000#32)⟩,
        ⟨S1x1, shapeCast S1x1 (m ((c : Thread nD τ).loc main_arg10)) shapeCasts_S1_S1x1⟩,
        ⟨S1x1, shapeCast S1x1 (m ((c : Thread nD τ).loc main_arg12)) shapeCasts_S1_S1x1⟩]
        concatenates_S1x16_S1x1_S1x1_S1x18_d1 := by
  dsimp only [V, Gen.hostOps0]
  after_results
  rfl

/-! ## So each holds its layer's parameters -/

theorem packed0 : IsPacked (V m c main_v1 : S128x18.Idx → EReal) (m ((c : Thread nD τ).loc main_arg3))
    (m ((c : Thread nD τ).loc main_arg5)) (m ((c : Thread nD τ).loc main_arg7)) := fun r j => by
  rw [V_main_v1_eq]
  exact concat_S128x18_apply _ _ _ _ r j

theorem packed1 : IsPacked (V m c main_v5 : S16x18.Idx → EReal) (m ((c : Thread nD τ).loc main_arg4))
    (m ((c : Thread nD τ).loc main_arg9)) (m ((c : Thread nD τ).loc main_arg11)) := fun r j => by
  rw [V_main_v5_eq]
  exact concat_S16x18_apply _ _ _ _ r j

theorem packedBias0 : IsPackedBias (V m c main_v4 : S1x18.Idx → EReal) (m ((c : Thread nD τ).loc main_arg6))
    (m ((c : Thread nD τ).loc main_arg8)) := fun j => by
  rw [V_main_v4_eq]
  exact biasRow_apply _ _ _ _ _ j

theorem packedBias1 : IsPackedBias (V m c main_v8 : S1x18.Idx → EReal) (m ((c : Thread nD τ).loc main_arg10))
    (m ((c : Thread nD τ).loc main_arg12)) := fun j => by
  rw [V_main_v8_eq]
  exact biasRow_apply _ _ _ _ _ j

end Cert.KernelIdeal.Fr

end
-- ==== Proof.KIValBody.lean ====
/-
  The body's obligation at every grid point for the value proof data, and the run of the program: before each
  point the scratch buffers hold the quantities of KIValDefs' invariant, the body's run at the point's case turns
  them into the next point's, and at points 50 … 99 leaves the result's row block in the output window.
-/
import proofs.«140471_g88347477279355_cont_sun_m_1058_38_alg».proof.Proof.KIValBlocks
import proofs.«140471_g88347477279355_cont_sun_m_1058_38_alg».proof.Proof.KIValStepA
import proofs.«140471_g88347477279355_cont_sun_m_1058_38_alg».proof.Proof.KIValStepB
import proofs.«140471_g88347477279355_cont_sun_m_1058_38_alg».proof.Proof.KIValStepC
import proofs.«140471_g88347477279355_cont_sun_m_1058_38_alg».proof.Proof.KIValStepD
import proofs.«140471_g88347477279355_cont_sun_m_1058_38_alg».proof.Proof.PackedAtEntry
import Idealize.ShloMosaic.Lib.Pipeline.Frame
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

/-! ## The invariant, restated by range -/

theorem PhiV_le50 (c : Dev nD) (n : ℕ) (h : n ≤ cfg0.N) (h1 : 1 ≤ n) (h2 : n ≤ 50) :
    PhiV m c n h = iprop(iprop(owns (c : Thread nD τ) scM0 fullShare (XW0 m c) ∗ owns (c : Thread nD τ) scM1 fullShare (SD0 m c)
        ∗ (∃ d, owns (c : Thread nD τ) scM2 fullShare (part m c n d))) ∗ (∃ r, prngReg c r)) := by
  cases n with
  | zero => omega
  | succ k => exact PhiV_first m c k h (by omega)

theorem PhiV_gt50 (c : Dev nD) (n : ℕ) (h : n ≤ cfg0.N) (h2 : 50 < n) :
    PhiV m c n h = iprop(iprop(owns (c : Thread nD τ) scM0 fullShare (XW1 m c) ∗ owns (c : Thread nD τ) scM1 fullShare (SD1 m c)
        ∗ (∃ d, owns (c : Thread nD τ) scM2 fullShare d)) ∗ (∃ r, prngReg c r)) := by
  cases n with
  | zero => omega
  | succ k => exact PhiV_second m c k h (by omega)

/-- With no row block written the third scratch holds what it held. -/
theorem part_none (c : Dev nD) (n : ℕ) (hn : n = 0) (d : S10000x16.Idx → EReal) : part m c n d = d := by
  subst hn; funext i; unfold part; rw [if_neg (by omega)]

/-- With all fifty row blocks written it holds the first layer's result. -/
theorem part_full (c : Dev nD) (n : ℕ) (hn : n = 50) (d : S10000x16.Idx → EReal) : part m c n d = X1 m c := by
  subst hn; funext i; unfold part; rw [if_pos (by have := idx2_lt0 i; omega)]

/-- The region's own invariant, the third scratch's contents written as "no row block written yet". -/
theorem PhiA_part (c : Dev nD) (n : ℕ) (hn : n = 0) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare (part m c n d))) ∗ (∃ r, prngReg c r)) := by
  rw [PhiA_eq]; simp only [part_none m c n hn]

/-! ## Offsets and adjacency blocks at a named block index -/

theorem off1_at (t : Fin cfg0.N) (q : Fin 50) (hq : t.val % 50 = q.val) : k0_off1 (grid0.coords t) = ![200 * q.val, 0] := by rw [off1_eq t, hq]
theorem off2_at (t : Fin cfg0.N) (q : Fin 50) (hq : t.val % 50 = q.val) : k0_off2 (grid0.coords t) = ![200 * q.val, 1] := by rw [off2_eq t, hq]
theorem off3_at (t : Fin cfg0.N) (q : Fin 50) (hq : t.val % 50 = q.val) : k0_off3 (grid0.coords t) = ![200 * q.val, 0] := by rw [off3_eq t, hq]
theorem off4_at (t : Fin cfg0.N) (q : Fin 50) (hq : t.val % 50 = q.val) : k0_off4 (grid0.coords t) = ![200 * q.val, 0] := by rw [off4_eq t, hq]

theorem iblk5_at' (c : Dev nD) (t : Fin cfg0.N) (q : Fin 50) (hq : t.val % 50 = q.val) (p : Fin 200) (j : Fin 10000) :
    (iblk m c 5 t : Vec Ideal S200x10000 .f32) (ix2 p j) = a1 m c (ix2 (blockRow q p) j) := by
  rw [iblk5_at m c t p j, show (⟨t.val % 50, Nat.mod_lt _ (by decide)⟩ : Fin 50) = q from Fin.ext hq]
theorem iblk6_at' (c : Dev nD) (t : Fin cfg0.N) (q : Fin 50) (hq : t.val % 50 = q.val) (p : Fin 200) (j : Fin 10000) :
    (iblk m c 6 t : Vec Ideal S200x10000 .f32) (ix2 p j) = a2 m c (ix2 (blockRow q p) j) := by
  rw [iblk6_at m c t p j, show (⟨t.val % 50, Nat.mod_lt _ (by decide)⟩ : Fin 50) = q from Fin.ext hq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [Phi_castSucc, Phi_succ]
  have hN : t.val < 100 := lt_of_lt_of_eq t.isLt (show cfg0.N = 100 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  by_cases h0 : t.val = 0
  · have hc1 : cond1 (grid0.coords t) := (hcond1 t).mpr h0
    have hc2 : ¬cond2 (grid0.coords t) := fun h => by have := (hcond2 t).mp h; omega
    have hc3 : cond3 (grid0.coords t) := (hcond3 t).mpr (by omega)
    have hc4 : ¬cond4 (grid0.coords t) := fun h => by have := (hcond4 t).mp h; omega
    have hx0 : (iblk m c 0 t : Vec Ideal S10000x128 .f32) = a0 m c := iblk0_eq m c t
    have hx1 : Cert.KernelIdeal.PayVal.IsPacked (iblk m c 1 t : Vec Ideal S128x18 .f32) (a3 m c) (a5 m c) (a7 m c) := by rw [iblk1_eq]; exact packed0 m c
    have hx2 : Cert.KernelIdeal.PayVal.IsPackedBias (iblk m c 2 t : Vec Ideal S1x18 .f32) (a6 m c) (a8 m c) := by rw [iblk2_eq]; exact packedBias0 m c
    have hq : t.val % 50 = (⟨t.val, by omega⟩ : Fin 50).val := by show t.val % 50 = t.val; omega
    rw [Dat.leavesExact_idle (dats m 0 c) 7 t (idleAt7 t (by omega)) (noFlush7 t (by omega))]
    rw [PhiV_zero m c _ _ h0, PhiA_part m c t.val h0, PhiV_le50 m c (t.val + 1) _ (by omega) (by omega)]
    iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply ((runN_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) ((dats m 0 c).before 7 t e7) (part m c t.val d2)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    isplitl [HS2]; · iexact HS2
    iintro ⟨H0, H1, H2, H3, H4, H5, H6, H7, ⟨%f9, HS0⟩, ⟨%f10, HS1⟩, HS2⟩
    isplitl [HS0 HS1 HS2 Hg]
    · isplitl [HS0 HS1 HS2]
      · isplitl [HS0]
        · unfold owns; iexists _; isplitr
          swap; · iexact HS0
          ipureintro
          exact stepA9 m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) ((dats m 0 c).before 7 t e7) (part m c t.val d2) hx0 hx1 hx2 f9
        isplitl [HS1]
        · unfold owns; iexists _; isplitr
          swap; · iexact HS1
          ipureintro
          exact stepA10 m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) ((dats m 0 c).before 7 t e7) (part m c t.val d2) hx0 hx1 hx2 f10
        iexists d2
        unfold owns; iexists _; isplitr
        swap; · iexact HS2
        ipureintro
        exact stepA11 m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) ((dats m 0 c).before 7 t e7) ⟨t.val, by omega⟩ h0 d2 hx0 hx1 hx2 (off1_at t ⟨t.val, by omega⟩ hq) (off2_at t ⟨t.val, by omega⟩ hq) (off3_at t ⟨t.val, by omega⟩ hq) (off4_at t ⟨t.val, by omega⟩ hq) (iblk5_at' m c t ⟨t.val, by omega⟩ hq) (iblk6_at' m c t ⟨t.val, by omega⟩ hq)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h50 : t.val = 50
    · have hc1 : ¬cond1 (grid0.coords t) := fun h => h0 ((hcond1 t).mp h)
      have hc2 : cond2 (grid0.coords t) := (hcond2 t).mpr h50
      have hc3 : ¬cond3 (grid0.coords t) := fun h => by have := (hcond3 t).mp h; omega
      have hc4 : cond4 (grid0.coords t) := (hcond4 t).mpr (by omega)
      have hx3 : Cert.KernelIdeal.PayVal.IsPacked (iblk m c 3 t : Vec Ideal S16x18 .f32) (a4 m c) (a9 m c) (a11 m c) := by rw [iblk3_eq]; exact packed1 m c
      have hx4 : Cert.KernelIdeal.PayVal.IsPackedBias (iblk m c 4 t : Vec Ideal S1x18 .f32) (a10 m c) (a12 m c) := by rw [iblk4_eq]; exact packedBias1 m c
      have hq : t.val % 50 = (qOf t).val := by show t.val % 50 = (t.val - 50) % 50; omega
      rw [show (dats m 0 c).leavesExact 7 t = owns (c : Thread nD τ) (ms7 t) fullShare ((dats m 0 c).after 7 t) from by
        unfold Dat.leavesExact; rw [liveAt7 t (by omega)], after7]
      rw [PhiV_le50 m c t.val _ (by omega) (by omega), PhiV_gt50 m c (t.val + 1) _ (by omega)]
      simp only [part_full m c t.val h50]
      iintro ⟨⟨⟨HS0, HS1, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
      iapply ((runN_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (X1 m c)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexists _; iexact HS1
      isplitl [HS2]; · iexact HS2
      iintro ⟨H0, H1, H2, H3, H4, H5, H6, ⟨%f8, H7⟩, ⟨%f9, HS0⟩, ⟨%f10, HS1⟩, HS2⟩
      isplitl [HS0 HS1 HS2 Hg]
      · isplitl [HS0 HS1 HS2]
        · isplitl [HS0]
          · unfold owns; iexists _; isplitr
            swap; · iexact HS0
            ipureintro
            exact stepC9 m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) hx3 hx4 f9
          isplitl [HS1]
          · unfold owns; iexists _; isplitr
            swap; · iexact HS1
            ipureintro
            exact stepC10 m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) hx3 hx4 f10
          iexists _; iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro
      exact stepC8 m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (qOf t) hx3 hx4 (off1_at t (qOf t) hq) (off2_at t (qOf t) hq) (off3_at t (qOf t) hq) (iblk5_at' m c t (qOf t) hq) (iblk6_at' m c t (qOf t) hq) f8
    · by_cases hlt : t.val < 50
      · have hc1 : ¬cond1 (grid0.coords t) := fun h => h0 ((hcond1 t).mp h)
        have hc2 : ¬cond2 (grid0.coords t) := fun h => h50 ((hcond2 t).mp h)
        have hc3 : cond3 (grid0.coords t) := (hcond3 t).mpr hlt
        have hc4 : ¬cond4 (grid0.coords t) := fun h => by have := (hcond4 t).mp h; omega
        have hq : t.val % 50 = (⟨t.val, hlt⟩ : Fin 50).val := Nat.mod_eq_of_lt hlt
        rw [Dat.leavesExact_idle (dats m 0 c) 7 t (idleAt7 t hlt) (noFlush7 t hlt)]
        rw [PhiV_le50 m c t.val _ (by omega) (by omega), PhiV_le50 m c (t.val + 1) _ (by omega) (by omega)]
        iintro ⟨⟨⟨HS0, HS1, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
        iapply ((runN_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) ((dats m 0 c).before 7 t e7) (XW0 m c) (SD0 m c) (part m c t.val d2)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, HS0, HS1, HS2⟩
        isplitl [HS0 HS1 HS2 Hg]
        · isplitl [HS0 HS1 HS2]
          · isplitl [HS0]; · iexact HS0
            isplitl [HS1]; · iexact HS1
            iexists d2
            unfold owns; iexists _; isplitr
            swap; · iexact HS2
            ipureintro
            exact stepB m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) ((dats m 0 c).before 7 t e7) ⟨t.val, hlt⟩ d2 (off1_at t ⟨t.val, hlt⟩ hq) (off2_at t ⟨t.val, hlt⟩ hq) (off3_at t ⟨t.val, hlt⟩ hq) (off4_at t ⟨t.val, hlt⟩ hq) (iblk5_at' m c t ⟨t.val, hlt⟩ hq) (iblk6_at' m c t ⟨t.val, hlt⟩ hq)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · have hc1 : ¬cond1 (grid0.coords t) := fun h => h0 ((hcond1 t).mp h)
        have hc2 : ¬cond2 (grid0.coords t) := fun h => h50 ((hcond2 t).mp h)
        have hc3 : ¬cond3 (grid0.coords t) := fun h => hlt ((hcond3 t).mp h)
        have hc4 : cond4 (grid0.coords t) := (hcond4 t).mpr (by omega)
        have hq : t.val % 50 = (qOf t).val := by show t.val % 50 = (t.val - 50) % 50; omega
        rw [show (dats m 0 c).leavesExact 7 t = owns (c : Thread nD τ) (ms7 t) fullShare ((dats m 0 c).after 7 t) from by
          unfold Dat.leavesExact; rw [liveAt7 t (by omega)], after7]
        rw [PhiV_gt50 m c t.val _ (by omega), PhiV_gt50 m c (t.val + 1) _ (by omega)]
        iintro ⟨⟨⟨HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
        iapply ((runN_D c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (XW1 m c) (SD1 m c)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HS2]; · iexact HS2
        iintro ⟨H0, H1, H2, H3, H4, H5, H6, ⟨%f8, H7⟩, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro
        exact stepD8 m c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) hc1 hc2 hc3 hc4 (iblk m c 0 t) (iblk m c 1 t) (iblk m c 2 t) (iblk m c 3 t) (iblk m c 4 t) (iblk m c 5 t) (iblk m c 6 t) (qOf t) (off1_at t (qOf t) hq) (off2_at t (qOf t) hq) (off3_at t (qOf t) hq) (iblk5_at' m c t (qOf t) hq) (iblk6_at' m c t (qOf t) hq) f8

theorem body_obligation (c : Dev nD) : BodyObligation (dats m 0 c) (defs₀ (F := Ideal)) Variants.none () Set.univ := fun t => by
  rw [bigSep_W0, bigSep_W0]
  exact sound_body m c t

/-- Before the first point the invariant is the region's own. -/
theorem hin (c : Dev nD) : Pipeline.ΦA spec0 c ⊢ (dats m 0 c).Φ 0 := by
  rw [show (dats m 0 c).Φ 0 = PhiV m c 0 (Nat.zero_le _) from rfl, PhiV_zero m c 0 _ rfl]
  try exact Idealize.SL.BI.Entails.refl _

/-- After the last point it gives the region's own back: the scratch buffers' named contents are forgotten. -/
theorem hout (c : Dev nD) : (dats m 0 c).Φ (Fin.last cfg0.N) ⊢ Pipeline.ΦA spec0 c := by
  rw [show (dats m 0 c).Φ (Fin.last cfg0.N) = PhiV m c (Fin.last cfg0.N).val (Nat.le_of_lt_succ (Fin.last cfg0.N).isLt) from rfl,
    PhiV_gt50 m c _ _ (by rw [Fin.val_last]; have : cfg0.N = 100 := N_0; omega), PhiA_eq]
  iintro ⟨⟨HS0, HS1, HS2⟩, Hg⟩
  isplitl [HS0 HS1 HS2]
  · isplitl [HS0]; · iexists _; iexact HS0
    isplitl [HS1]; · iexists _; iexact HS1
    iexact HS2
  iexact Hg

end Cert.KernelIdeal.Val

end
-- ==== Proof.KIValRun.lean ====
/-
  The run of the program with the value proof data: from the body's obligation at every grid point, every weakly
  fair execution terminates without a fault, the result array ends at what the fifty written-back blocks make of
  it, the argument arrays as launched.
-/
import proofs.«140471_g88347477279355_cont_sun_m_1058_38_alg».proof.Proof.KIValBody
import Idealize.ShloMosaic.Lib.Pipeline.Frame
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run_main : θ_run (defs (F := Ideal)) (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Val

end
-- ==== Proof.KIValFinal.lean ====
/-
  From the result's row blocks to the result array, and the value the kernel's run leaves.

  The output window is written back only at the second-layer points t = 50 … 99, and at such a point its block is block
  t − 50 of the array: rows 200 (t − 50) … 200 (t − 50) + 199, all 16 columns. The body leaves there rows 200 q … of the
  network's result Z with q = t − 50, so what is written back is Z read through the block's rectangle. Row r of the array
  lies in the block of point 50 + r / 200; the fifty blocks therefore cover the array, and after the run it holds Z.
  The argument arrays are never written: three of them are input windows, the other ten are outside the region's windows.
-/
import proofs.«140471_g88347477279355_cont_sun_m_1058_38_alg».proof.Proof.KIValRun
import Idealize.ShloMosaic.Lib.Pipeline.Value
set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr Cert.Gated

local notation "𝕄" => MT nD τ sig Unit (Elt Ideal) ℕ (UR sig nD τ) ℕ

variable (m : (ℓ : Loc nD τ sig) → Buf (Elt Ideal) ℓ) (ρ : Dev nD → PrngReg)

/-! ## The output window's schedule, decided over the 100 grid points -/

/-- The output window is written back exactly at the second-layer points. -/
theorem flush7_iff : ∀ t : Fin cfg0.N, (cfg0.win 7).flush t = true ↔ 50 ≤ t.val :=
  (by decide +kernel : ∀ t : Fin grid0.N, win0_7.flush t = true ↔ 50 ≤ t.val)

/-- At a second-layer point t the output's block index is (t − 50, 0). -/
theorem index7 : ∀ t : Fin cfg0.N, 50 ≤ t.val → win0_7.index t (0 : Fin 2) = t.val - 50 ∧ win0_7.index t (1 : Fin 2) = 0 :=
  (by decide +kernel : ∀ t : Fin grid0.N, 50 ≤ t.val → win0_7.index t (0 : Fin 2) = t.val - 50 ∧ win0_7.index t (1 : Fin 2) = 0)

/-! ## What a point writes back -/

/-- What a second-layer point writes back is the result read through the point's block. -/
theorem flushed7_eq (c : Dev nD) (t : Fin cfg0.N) (hf : (cfg0.win 7).flush t = true) :
    (dats m 0 c).flushed 7 t = ((cfg0.win 7).blk t).view.read (Elt Ideal) (Z m c) := by
  have ht : 50 ≤ t.val := (flush7_iff t).mp hf
  have hN : cfg0.N = 100 := N_0
  have htN : t.val < 100 := hN ▸ t.isLt
  obtain ⟨e0, e1⟩ := index7 t ht
  show (cfg0.win 7).cut (grid0.coords t) ((dats m 0 c).after 7 t) = _
  rw [after7]
  funext y
  show Z m c (ix2 (blockRow (qOf t) (y 0)) (y 1)) = Z m c (((cfg0.win 7).blk t).view.emb y)
  refine congrArg (Z m c) (funext fun a => Fin.ext ?_)
  match a with
  | ⟨0, _⟩ =>
    show 200 * ((t.val - 50) % 50) + (y 0).val = win0_7.index t (0 : Fin 2) * 200 + 1 * (y 0).val
    rw [e0]; omega
  | ⟨1, _⟩ =>
    show (y 1).val = win0_7.index t (1 : Fin 2) * 16 + 1 * (y 1).val
    rw [e1]; omega

/-! ## The blocks cover the array -/

/-- An index of the array is in point t's block iff each coordinate is in the block's range on its axis. -/
theorem mem_blk7 (t : Fin cfg0.N) (i : S10000x16.Idx) :
    i ∈ ((cfg0.win 7).blk t).view.set
      ↔ ∀ a : Fin 2, win0_7.index t a * S200x16.size a ≤ (i a).val ∧ (i a).val < win0_7.index t a * S200x16.size a + S200x16.size a := by
  show i ∈ ((View.whole main_v9).slice (win0_7.rect t)).set ↔ _
  rw [View.set_slice_whole, Rect.mem_set_unit]
  exact Iff.rfl

/-- Every index of the array lies in the block of a point that writes back: row r in that of point 50 + r / 200. -/
theorem cover7 (i : S10000x16.Idx) :
    ∃ t : Fin cfg0.N, (cfg0.win 7).flush t = true ∧ i ∈ ((cfg0.win 7).blk t).view.set := by
  have hN : cfg0.N = 100 := N_0
  have hi0 : (i 0).val < 10000 := (i 0).isLt
  have hi1 : (i 1).val < 16 := (i 1).isLt
  obtain ⟨t, ht⟩ : ∃ t : Fin cfg0.N, t.val = 50 + (i 0).val / 200 := ⟨⟨50 + (i 0).val / 200, by rw [hN]; omega⟩, rfl⟩
  have h50 : 50 ≤ t.val := by omega
  obtain ⟨e0, e1⟩ := index7 t h50
  refine ⟨t, (flush7_iff t).mpr h50, ?_⟩
  rw [mem_blk7]
  intro a
  match a with
  | ⟨0, _⟩ =>
    show win0_7.index t (0 : Fin 2) * 200 ≤ (i 0).val ∧ (i 0).val < win0_7.index t (0 : Fin 2) * 200 + 200
    rw [e0]; omega
  | ⟨1, _⟩ =>
    show win0_7.index t (1 : Fin 2) * 16 ≤ (i 1).val ∧ (i 1).val < win0_7.index t (1 : Fin 2) * 16 + 16
    rw [e1]; omega

/-- The result array after the run holds the network's result. -/
theorem final7 (c : Dev nD) : (dats m 0 c).arrAt 7 cfg0.N = Z m c :=
  (dats m 0 c).arrAt_eq_of_cover 7 (Z m c) (flushed7_eq m c) cover7

/-! ## The run, read -/

/-- The kernel's run: it terminates with the result array at the network's result and the thirteen arguments unchanged. -/
theorem run_value : θ_run (defs (F := Ideal)) (onTc (τ := τ) (main (F := Ideal))) ⟨m, fun _ => 0, ρ⟩ (fun r => ∀ c : Dev nD,
      r.2.mem ((c.tc : Thread nD τ).loc main_v9) = Z m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 7).trans (final7 m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Cert.KernelIdeal.Val

end
-- ==== Proof.RefValue.lean ====
/-
  The reference program computes the two-layer gated network, in the grouping  s · p + (1 − s) · q.

  The reference's run gives its result as one composed term of the thirteen argument arrays; the generated stage lemmas read
  each operation of that term at an index. Here each intermediate array of a layer is identified, entry by entry, with the
  quantity of the specification it computes:
    · the three products with the layer's input X (with W, with the score column, with the second column) are the sums
      ∑ₖ X(r,k)·W(k,c), and the two columns get their scalar bias added, broadcast from a one-element array;
    · the gate is 1 / (1 + exp(−lg)), which is the logistic function of lg by definition (the constant word 0x3F800000 is 1);
    · the two aggregations over the adjacency matrices are the sums ∑ⱼ A(r,j)·xw(j,c);
    · the [n,1] columns are broadcast along the feature axis, so at (r,c) they are read at (r,0);
    · the three terms are added as (s·p + (1−s)·q) + (γ·dd)·xw.
  Layer 1 is the same computation with layer 0's result as its input, which stays an opaque array while layer 1 is read.
-/
import proofs.«140471_g88347477279355_cont_sun_m_1058_38_alg».proof.Proof.Gen.ReferenceIdeal.Read
import proofs.«140471_g88347477279355_cont_sun_m_1058_38_alg».proof.Proof.LayerSpec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.Gated

/-- Two rank-2 indices with the same coordinates are equal. -/
macro "idx2" : tactic =>
  `(tactic| exact funext fun a => Fin.ext (by match a with | ⟨0, _⟩ => rfl | ⟨1, _⟩ => rfl))
/-- Two rank-1 indices with the same coordinate are equal. -/
macro "idx1" : tactic =>
  `(tactic| exact funext fun a => Fin.ext (by match a with | ⟨0, _⟩ => rfl))

/-- The f32 word 0x3F800000 denotes the number one: exponent field 127, significand 2²³, so 2²³ · 2⁻²³. -/
theorem one_word : Ideal.ofBits .f32 0x3F800000#32 = (1 : EReal) := by
  simp [Ideal.ofBits, Ideal.ieee]
  rw [← EReal.coe_mul, ← EReal.coe_one]
  congr 1; norm_num

variable (x0 : (⟨S10000x128, .f32⟩ : BufTy).Contents (Elt Ideal)) (x1 x2 : (⟨S10000x10000, .f32⟩ : BufTy).Contents (Elt Ideal))
  (x3 : (⟨S128x16, .f32⟩ : BufTy).Contents (Elt Ideal)) (x4 : (⟨S16x16, .f32⟩ : BufTy).Contents (Elt Ideal))
  (x5 : (⟨S128x1, .f32⟩ : BufTy).Contents (Elt Ideal)) (x6 : (⟨S1, .f32⟩ : BufTy).Contents (Elt Ideal))
  (x7 : (⟨S128x1, .f32⟩ : BufTy).Contents (Elt Ideal)) (x8 : (⟨S1, .f32⟩ : BufTy).Contents (Elt Ideal))
  (x9 : (⟨S16x1, .f32⟩ : BufTy).Contents (Elt Ideal)) (x10 : (⟨S1, .f32⟩ : BufTy).Contents (Elt Ideal))
  (x11 : (⟨S16x1, .f32⟩ : BufTy).Contents (Elt Ideal)) (x12 : (⟨S1, .f32⟩ : BufTy).Contents (Elt Ideal))

/-! ## Layer 0: input x0 (10000 × 128) -/

/-- x · W1. -/
theorem xw0 (r : Fin 10000) (c : Fin 16) : val_main_v14 (F := Ideal) x0 x3 (ix2 r c) = proj (mat x0) (mat x3) r c := by
  rw [val_main_v14_apply]
  have hl : ∀ k, lidx_main_v14 (ix2 r c) k = ix2 r k := fun k => by idx2
  have hr : ∀ k, ridx_main_v14 (ix2 r c) k = ix2 k c := fun k => by idx2
  simp only [hl, hr]
  rfl

/-- The gate: the logistic function of x · scores0 + bias0. -/
theorem gate0 (r : Fin 10000) :
    val_main_v9 (F := Ideal) x0 x5 x6 (ix2 r 0) = Ideal.logistic (affine (mat x0) (col x5) (scal x6) r) := by
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply]
  have hl : ∀ k, lidx_main_v0 (ix2 r 0) k = ix2 r k := fun k => by idx2
  have hr : ∀ k, ridx_main_v0 (ix2 r 0) k = ix2 k 0 := fun k => by idx2
  have hb : idx_main_v1 (idx_main_v2 (ix2 r 0)) = ix1 0 := by idx1
  simp only [hl, hr, hb, Ideal.hostDivf_def, Ideal.addf_def, Ideal.hostUnary_exp_def, Ideal.hostNegf_def, Ideal.negf_def,
    Ideal.ofBits_def, one_word]
  rfl

/-- x · Dk0 + Dbias0. -/
theorem dd0 (r : Fin 10000) :
    val_main_v13 (F := Ideal) x0 x7 x8 (ix2 r 0) = affine (mat x0) (col x7) (scal x8) r := by
  rw [val_main_v13_apply, val_main_v10_apply, val_main_v12_apply, val_main_v11_apply]
  have hl : ∀ k, lidx_main_v10 (ix2 r 0) k = ix2 r k := fun k => by idx2
  have hr : ∀ k, ridx_main_v10 (ix2 r 0) k = ix2 k 0 := fun k => by idx2
  have hb : idx_main_v11 (idx_main_v12 (ix2 r 0)) = ix1 0 := by idx1
  simp only [hl, hr, hb, Ideal.addf_def]
  rfl

/-- adj · (x · W1). -/
theorem agg0 (r : Fin 10000) (c : Fin 16) :
    val_main_v15 (F := Ideal) x0 x1 x3 (ix2 r c) = ∑ j, mat x1 r j * proj (mat x0) (mat x3) j c := by
  rw [val_main_v15_apply]
  have hl : ∀ k, lidx_main_v15 (ix2 r c) k = ix2 r k := fun k => by idx2
  have hr : ∀ k, ridx_main_v15 (ix2 r c) k = ix2 k c := fun k => by idx2
  simp only [hl, hr, xw0]
  rfl

/-- adj_knn · (x · W1). -/
theorem aggk0 (r : Fin 10000) (c : Fin 16) :
    val_main_v20 (F := Ideal) x0 x2 x3 (ix2 r c) = ∑ j, mat x2 r j * proj (mat x0) (mat x3) j c := by
  rw [val_main_v20_apply]
  have hl : ∀ k, lidx_main_v20 (ix2 r c) k = ix2 r k := fun k => by idx2
  have hr : ∀ k, ridx_main_v20 (ix2 r c) k = ix2 k c := fun k => by idx2
  simp only [hl, hr, xw0]
  rfl

/-- Layer 0's result at (r, c). -/
theorem layer0 (r : Fin 10000) (c : Fin 16) :
    val_main_v28 (F := Ideal) x0 x1 x2 x3 x5 x6 x7 x8 (ix2 r c)
      = layerR (mat x1) (mat x2) (mat x0) (mat x3) (col x5) (col x7) (scal x6) (scal x8) r c := by
  rw [val_main_v28_apply, val_main_v23_apply, val_main_v17_apply, val_main_v16_apply, val_main_v22_apply, val_main_v21_apply,
    val_main_v19_apply, val_main_v18_apply, val_main_cst_1_apply, val_main_v27_apply, val_main_v26_apply, val_main_v25_apply,
    val_main_v24_apply, val_main_cst_2_apply]
  have h16 : idx_main_v16 (ix2 r c) = ix2 r 0 := by idx2
  have h21 : idx_main_v21 (ix2 r c) = ix2 r 0 := by idx2
  have h26 : idx_main_v26 (ix2 r c) = ix2 r 0 := by idx2
  simp only [h16, h21, h26, gate0, dd0, agg0, aggk0, xw0, Ideal.addf_def, Ideal.mulf_def, Ideal.subf_def, Ideal.ofBits_def,
    one_word]
  rfl

/-! ## Layer 1: input layer 0's result (10000 × 16), kept opaque -/

/-- x1 · W2. -/
theorem xw1 (r : Fin 10000) (c : Fin 16) :
    val_main_v43 (F := Ideal) x0 x1 x2 x3 x4 x5 x6 x7 x8 (ix2 r c)
      = proj (mat (val_main_v28 (F := Ideal) x0 x1 x2 x3 x5 x6 x7 x8)) (mat x4) r c := by
  rw [val_main_v43_apply]
  have hl : ∀ k, lidx_main_v43 (ix2 r c) k = ix2 r k := fun k => by idx2
  have hr : ∀ k, ridx_main_v43 (ix2 r c) k = ix2 k c := fun k => by idx2
  simp only [hl, hr]
  rfl

/-- The gate: the logistic function of x1 · scores1 + bias1. -/
theorem gate1 (r : Fin 10000) :
    val_main_v38 (F := Ideal) x0 x1 x2 x3 x5 x6 x7 x8 x9 x10 (ix2 r 0)
      = Ideal.logistic (affine (mat (val_main_v28 (F := Ideal) x0 x1 x2 x3 x5 x6 x7 x8)) (col x9) (scal x10) r) := by
  rw [val_main_v38_apply, val_main_v37_apply, val_main_cst_4_apply, val_main_v36_apply, val_main_v35_apply, val_main_cst_3_apply,
    val_main_v34_apply, val_main_v33_apply, val_main_v32_apply, val_main_v29_apply, val_main_v31_apply, val_main_v30_apply]
  have hl : ∀ k, lidx_main_v29 (ix2 r 0) k = ix2 r k := fun k => by idx2
  have hr : ∀ k, ridx_main_v29 (ix2 r 0) k = ix2 k 0 := fun k => by idx2
  have hb : idx_main_v30 (idx_main_v31 (ix2 r 0)) = ix1 0 := by idx1
  simp only [hl, hr, hb, Ideal.hostDivf_def, Ideal.addf_def, Ideal.hostUnary_exp_def, Ideal.hostNegf_def, Ideal.negf_def,
    Ideal.ofBits_def, one_word]
  rfl

/-- x1 · Dk1 + Dbias1. -/
theorem dd1 (r : Fin 10000) :
    val_main_v42 (F := Ideal) x0 x1 x2 x3 x5 x6 x7 x8 x11 x12 (ix2 r 0)
      = affine (mat (val_main_v28 (F := Ideal) x0 x1 x2 x3 x5 x6 x7 x8)) (col x11) (scal x12) r := by
  rw [val_main_v42_apply, val_main_v39_apply, val_main_v41_apply, val_main_v40_apply]
  have hl : ∀ k, lidx_main_v39 (ix2 r 0) k = ix2 r k := fun k => by idx2
  have hr : ∀ k, ridx_main_v39 (ix2 r 0) k = ix2 k 0 := fun k => by idx2
  have hb : idx_main_v40 (idx_main_v41 (ix2 r 0)) = ix1 0 := by idx1
  simp only [hl, hr, hb, Ideal.addf_def]
  rfl

/-- adj · (x1 · W2). -/
theorem agg1 (r : Fin 10000) (c : Fin 16) :
    val_main_v44 (F := Ideal) x0 x1 x2 x3 x4 x5 x6 x7 x8 (ix2 r c)
      = ∑ j, mat x1 r j * proj (mat (val_main_v28 (F := Ideal) x0 x1 x2 x3 x5 x6 x7 x8)) (mat x4) j c := by
  rw [val_main_v44_apply]
  have hl : ∀ k, lidx_main_v44 (ix2 r c) k = ix2 r k := fun k => by idx2
  have hr : ∀ k, ridx_main_v44 (ix2 r c) k = ix2 k c := fun k => by idx2
  simp only [hl, hr, xw1]
  rfl

/-- adj_knn · (x1 · W2). -/
theorem aggk1 (r : Fin 10000) (c : Fin 16) :
    val_main_v49 (F := Ideal) x0 x1 x2 x3 x4 x5 x6 x7 x8 (ix2 r c)
      = ∑ j, mat x2 r j * proj (mat (val_main_v28 (F := Ideal) x0 x1 x2 x3 x5 x6 x7 x8)) (mat x4) j c := by
  rw [val_main_v49_apply]
  have hl : ∀ k, lidx_main_v49 (ix2 r c) k = ix2 r k := fun k => by idx2
  have hr : ∀ k, ridx_main_v49 (ix2 r c) k = ix2 k c := fun k => by idx2
  simp only [hl, hr, xw1]
  rfl

/-- Layer 1's result at (r, c), as a layer over layer 0's result. -/
theorem layer1 (r : Fin 10000) (c : Fin 16) :
    val_main_v57 (F := Ideal) x0 x1 x2 x3 x4 x5 x6 x7 x8 x9 x10 x11 x12 (ix2 r c)
      = layerR (mat x1) (mat x2) (mat (val_main_v28 (F := Ideal) x0 x1 x2 x3 x5 x6 x7 x8)) (mat x4) (col x9) (col x11)
          (scal x10) (scal x12) r c := by
  rw [val_main_v57_apply, val_main_v52_apply, val_main_v46_apply, val_main_v45_apply, val_main_v51_apply, val_main_v50_apply,
    val_main_v48_apply, val_main_v47_apply, val_main_cst_5_apply, val_main_v56_apply, val_main_v55_apply, val_main_v54_apply,
    val_main_v53_apply, val_main_cst_6_apply]
  have h45 : idx_main_v45 (ix2 r c) = ix2 r 0 := by idx2
  have h50 : idx_main_v50 (ix2 r c) = ix2 r 0 := by idx2
  have h55 : idx_main_v55 (ix2 r c) = ix2 r 0 := by idx2
  simp only [h45, h50, h55, gate1, dd1, agg1, aggk1, xw1, Ideal.addf_def, Ideal.mulf_def, Ideal.subf_def, Ideal.ofBits_def,
    one_word]
  rfl

/-! ## The whole reference -/

/-- The reference's result array, as a function of its thirteen arguments, is the two-layer network in the grouping
    s · p + (1 − s) · q. -/
theorem result_eq :
    val_main_v57 (F := Ideal) x0 x1 x2 x3 x4 x5 x6 x7 x8 x9 x10 x11 x12 = netR x0 x1 x2 x3 x4 x5 x6 x7 x8 x9 x10 x11 x12 := by
  funext i
  obtain ⟨r, c, rfl⟩ : ∃ (r : Fin 10000) (c : Fin 16), i = ix2 r c := ⟨i 0, i 1, eq_ix2 i⟩
  rw [layer1]
  have h0 : mat (val_main_v28 (F := Ideal) x0 x1 x2 x3 x5 x6 x7 x8)
      = layerR (mat x1) (mat x2) (mat x0) (mat x3) (col x5) (col x7) (scal x6) (scal x8) := by
    funext a b; exact layer0 x0 x1 x2 x3 x5 x6 x7 x8 a b
  rw [h0]
  rfl

/-- The same for the term the reference's run names: the result buffer after the run, from the launch memory m. -/
theorem res_eq (m : (ℓ : Loc nD τ sig) → Buf (Elt Ideal) ℓ) (c : Dev nD) :
    Cert.ReferenceIdeal.Value.res_main_v57 (F := Ideal) m c
      = netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) :=
  (val_main_v57_eq m c).trans (result_eq _ _ _ _ _ _ _ _ _ _ _ _ _)

end Cert.ReferenceIdeal.RefValue

end
-- ==== Proof.LayerAlgebra.lean ====
/-
  The algebra joining the two spellings of a gated propagation layer.

  Over the extended reals the convex combination  q + s · (p − q)  and  s · p + (1 − s) · q  are different functions: distributing
  s over a difference is a law of the real numbers only. Both layers are therefore compared on real data. An extended real is
  "real" when it is the image of a real number; reals are closed under sums, products, differences, finite sums and the logistic
  function, and the scale γ (an f32 word with a finite exponent field) is real. So every quantity a layer forms from real inputs
  is real, the two spellings agree by the ring identity  q + s (p − q) = s p + (1 − s) q  in ℝ, and a layer's result is again
  real — which is what lets the second layer be compared after the first.
-/
import proofs.«140471_g88347477279355_cont_sun_m_1058_38_alg».proof.Proof.LayerSpec

noncomputable section

open scoped BigOperators

namespace Cert.Gated

open Idealize.ShloMosaic Idealize.ShloMosaic.ValueIdx

/-- An extended real that is (the image of) a real number. -/
def IsReal (x : EReal) : Prop := ∃ v : ℝ, x = (v : EReal)

namespace IsReal

theorem coe (v : ℝ) : IsReal (v : EReal) := ⟨v, rfl⟩

theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is real. -/
theorem sum {ι : Type*} (s : Finset ι) (f : ι → EReal) (hf : ∀ i, IsReal (f i)) : IsReal (∑ i ∈ s, f i) := by
  classical
  induction s using Finset.induction_on with
  | empty => exact ⟨0, by rw [Finset.sum_empty, EReal.coe_zero]⟩
  | insert a s ha ih => rw [Finset.sum_insert ha]; exact (hf a).add ih

/-- The logistic function maps reals to reals. -/
theorem logistic {x : EReal} (hx : IsReal x) : IsReal (Ideal.logistic x) := by
  obtain ⟨a, rfl⟩ := hx; exact ⟨_, Ideal.logistic_coe a⟩

end IsReal

/-- The scale γ is a real number: its exponent field is not all ones. -/
theorem gam_real : IsReal gam := by
  unfold gam Ideal.ofBits Ideal.ieee
  dsimp only
  rw [if_neg (by decide)]
  split_ifs <;> exact ⟨_, rfl⟩

/-- The ring identity behind the two spellings, for real data. -/
theorem convex_eq {p q s : EReal} (hp : IsReal p) (hq : IsReal q) (hs : IsReal s) :
    q + s * (p - q) = s * p + (1 - s) * q := by
  obtain ⟨a, rfl⟩ := hp; obtain ⟨b, rfl⟩ := hq; obtain ⟨c, rfl⟩ := hs
  rw [← EReal.coe_one, ← EReal.coe_sub, ← EReal.coe_sub, ← EReal.coe_mul, ← EReal.coe_mul, ← EReal.coe_mul,
    ← EReal.coe_add, ← EReal.coe_add]
  congr 1; ring

variable {n k h : ℕ}

theorem proj_real (X : Fin n → Fin k → EReal) (W : Fin k → Fin h → EReal)
    (hX : ∀ i j, IsReal (X i j)) (hW : ∀ i j, IsReal (W i j)) (r : Fin n) (c : Fin h) : IsReal (proj X W r c) :=
  IsReal.sum _ _ fun j => (hX r j).mul (hW j c)

theorem affine_real (X : Fin n → Fin k → EReal) (v : Fin k → EReal) (b : EReal)
    (hX : ∀ i j, IsReal (X i j)) (hv : ∀ j, IsReal (v j)) (hb : IsReal b) (r : Fin n) : IsReal (affine X v b r) :=
  (IsReal.sum _ _ fun j => (hX r j).mul (hv j)).add hb

/-- On real data the two spellings of the row formula agree. -/
theorem rowOutK_eq_rowOutR (A Ak : Fin n → Fin n → EReal) (xw : Fin n → Fin h → EReal) (lg dd : Fin n → EReal)
    (hA : ∀ i j, IsReal (A i j)) (hAk : ∀ i j, IsReal (Ak i j)) (hxw : ∀ i j, IsReal (xw i j))
    (hlg : ∀ i, IsReal (lg i)) : rowOutK A Ak xw lg dd = rowOutR A Ak xw lg dd := by
  funext r c
  unfold rowOutK rowOutR
  rw [convex_eq (IsReal.sum _ _ fun j => (hA r j).mul (hxw j c)) (IsReal.sum _ _ fun j => (hAk r j).mul (hxw j c))
    (hlg r).logistic]

/-- On real data the row formula gives a real. -/
theorem rowOutR_real (A Ak : Fin n → Fin n → EReal) (xw : Fin n → Fin h → EReal) (lg dd : Fin n → EReal)
    (hA : ∀ i j, IsReal (A i j)) (hAk : ∀ i j, IsReal (Ak i j)) (hxw : ∀ i j, IsReal (xw i j))
    (hlg : ∀ i, IsReal (lg i)) (hdd : ∀ i, IsReal (dd i)) (r : Fin n) (c : Fin h) : IsReal (rowOutR A Ak xw lg dd r c) := by
  unfold rowOutR
  exact ((((hlg r).logistic.mul (IsReal.sum _ _ fun j => (hA r j).mul (hxw j c))).add
    ((IsReal.one.sub (hlg r).logistic).mul (IsReal.sum _ _ fun j => (hAk r j).mul (hxw j c))))).add
    ((gam_real.mul (hdd r)).mul (hxw r c))

/-- One layer on real data: the two spellings agree. -/
theorem layerK_eq_layerR (A Ak : Fin n → Fin n → EReal) (X : Fin n → Fin k → EReal) (W : Fin k → Fin h → EReal)
    (sc dk : Fin k → EReal) (b db : EReal)
    (hA : ∀ i j, IsReal (A i j)) (hAk : ∀ i j, IsReal (Ak i j)) (hX : ∀ i j, IsReal (X i j)) (hW : ∀ i j, IsReal (W i j))
    (hsc : ∀ j, IsReal (sc j)) (hdk : ∀ j, IsReal (dk j)) (hb : IsReal b) (hdb : IsReal db) :
    layerK A Ak X W sc dk b db = layerR A Ak X W sc dk b db :=
  rowOutK_eq_rowOutR A Ak _ _ _ hA hAk (proj_real X W hX hW) (affine_real X sc b hX hsc hb)

/-- One layer on real data gives real data. -/
theorem layerR_real (A Ak : Fin n → Fin n → EReal) (X : Fin n → Fin k → EReal) (W : Fin k → Fin h → EReal)
    (sc dk : Fin k → EReal) (b db : EReal)
    (hA : ∀ i j, IsReal (A i j)) (hAk : ∀ i j, IsReal (Ak i j)) (hX : ∀ i j, IsReal (X i j)) (hW : ∀ i j, IsReal (W i j))
    (hsc : ∀ j, IsReal (sc j)) (hdk : ∀ j, IsReal (dk j)) (hb : IsReal b) (hdb : IsReal db) :
    ∀ r c, IsReal (layerR A Ak X W sc dk b db r c) :=
  rowOutR_real A Ak _ _ _ hA hAk (proj_real X W hX hW) (affine_real X sc b hX hsc hb) (affine_real X dk db hX hdk hdb)

/-- The two-layer network on real arguments: the kernel's spelling and the reference's agree. The first layer's result is real,
    so the second layer is again compared on real data. -/
theorem netK_eq_netR
    (x : (⟨2, ![10000, 128]⟩ : Shape).Idx → EReal) (adj adjk : (⟨2, ![10000, 10000]⟩ : Shape).Idx → EReal)
    (w1 : (⟨2, ![128, 16]⟩ : Shape).Idx → EReal) (w2 : (⟨2, ![16, 16]⟩ : Shape).Idx → EReal)
    (s0 : (⟨2, ![128, 1]⟩ : Shape).Idx → EReal) (b0 : (⟨1, ![1]⟩ : Shape).Idx → EReal)
    (d0 : (⟨2, ![128, 1]⟩ : Shape).Idx → EReal) (db0 : (⟨1, ![1]⟩ : Shape).Idx → EReal)
    (s1 : (⟨2, ![16, 1]⟩ : Shape).Idx → EReal) (b1 : (⟨1, ![1]⟩ : Shape).Idx → EReal)
    (d1 : (⟨2, ![16, 1]⟩ : Shape).Idx → EReal) (db1 : (⟨1, ![1]⟩ : Shape).Idx → EReal)
    (hx : ∀ i, IsReal (x i)) (hadj : ∀ i, IsReal (adj i)) (hadjk : ∀ i, IsReal (adjk i))
    (hw1 : ∀ i, IsReal (w1 i)) (hw2 : ∀ i, IsReal (w2 i))
    (hs0 : ∀ i, IsReal (s0 i)) (hb0 : ∀ i, IsReal (b0 i)) (hd0 : ∀ i, IsReal (d0 i)) (hdb0 : ∀ i, IsReal (db0 i))
    (hs1 : ∀ i, IsReal (s1 i)) (hb1 : ∀ i, IsReal (b1 i)) (hd1 : ∀ i, IsReal (d1 i)) (hdb1 : ∀ i, IsReal (db1 i)) :
    netK x adj adjk w1 w2 s0 b0 d0 db0 s1 b1 d1 db1 = netR x adj adjk w1 w2 s0 b0 d0 db0 s1 b1 d1 db1 := by
  have hA : ∀ i j, IsReal (mat adj i j) := fun i j => hadj _
  have hAk : ∀ i j, IsReal (mat adjk i j) := fun i j => hadjk _
  have h0 := layerK_eq_layerR (mat adj) (mat adjk) (mat x) (mat w1) (col s0) (col d0) (scal b0) (scal db0)
    hA hAk (fun i j => hx _) (fun i j => hw1 _) (fun j => hs0 _) (fun j => hd0 _) (hb0 _) (hdb0 _)
  have r0 := layerR_real (mat adj) (mat adjk) (mat x) (mat w1) (col s0) (col d0) (scal b0) (scal db0)
    hA hAk (fun i j => hx _) (fun i j => hw1 _) (fun j => hs0 _) (fun j => hd0 _) (hb0 _) (hdb0 _)
  funext i
  show layerK (mat adj) (mat adjk) (layerK (mat adj) (mat adjk) (mat x) (mat w1) (col s0) (col d0) (scal b0) (scal db0))
      (mat w2) (col s1) (col d1) (scal b1) (scal db1) (i 0) (i 1)
    = layerR (mat adj) (mat adjk) (layerR (mat adj) (mat adjk) (mat x) (mat w1) (col s0) (col d0) (scal b0) (scal db0))
      (mat w2) (col s1) (col d1) (scal b1) (scal db1) (i 0) (i 1)
  rw [h0, layerK_eq_layerR (mat adj) (mat adjk) _ (mat w2) (col s1) (col d1) (scal b1) (scal db1)
    hA hAk r0 (fun i j => hw2 _) (fun j => hs1 _) (fun j => hd1 _) (hb1 _) (hdb1 _)]

end Cert.Gated

end
-- ==== Proof.FiniteInputs.lean ====
/-
  From the precondition "every float input is finite" to "every entry of every argument array is a real number".

  The precondition is the conjunction, over the thirteen argument arrays, of  all(|x| < +inf): per array, the comparison of
  |x| with the broadcast word 0x7F800000 (which denotes +inf), reduced by "and" to one bit, and the thirteen bits joined by "and".
  If the whole is 1 then every joined bit is 1, a reduction by "and" that is 1 had a 1 at every entry, and an entry
  x with max(x, −x) < ⊤ is neither ⊤ nor ⊥: it is a real number.
-/
import proofs.«140471_g88347477279355_cont_sun_m_1058_38_alg».proof.Pre_finite_inputs
import proofs.«140471_g88347477279355_cont_sun_m_1058_38_alg».proof.Proof.LayerAlgebra
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs Cert.Gated

/-- The scalar shape has one index. -/
instance : Subsingleton S_.Idx := ⟨fun a b => funext fun d => d.elim0⟩

/-- The word 0x7F800000 denotes +∞: exponent field all ones, significand zero, sign clear. -/
theorem inf_word : Ideal.ofBits .f32 0x7F800000#32 = (⊤ : EReal) := by simp [Ideal.ofBits, Ideal.ieee]

/-- An extended real whose absolute value max(x, −x) compares below +∞ is a real number. -/
theorem real_of_abs_lt_inf {x : EReal}
    (h : Ideal.cmp .olt (max x (-x)) (Ideal.ofBits .f32 0x7F800000#32) = 1#1) : IsReal x := by
  rw [inf_word] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | coe v => exact ⟨v, rfl⟩
  | top => simp at hlt

/-- One conjunct of the precondition: if all(|x| < +inf) is 1 then every entry of x is real. Generic in the array's shape,
    the reduced axes and the reduction's initial value. -/
theorem real_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant (F := Ideal) S_ .f32 0x7F800000#32)))
      init hr hu ix0 = 1#1) : ∀ i, IsReal (x i) := fun i =>
  real_of_abs_lt_inf (Host.reduce_andi_all _ init hr hu ix0 e i)

/-- The precondition at the exact-real reading gives: every entry of each of the thirteen argument arrays is a real number. -/
theorem real_of_pre [Cert.Pre_finite_inputs.Facts]
    (a0 : FVec Ideal S10000x128 .f32) (a1 a2 : FVec Ideal S10000x10000 .f32) (a3 : FVec Ideal S128x16 .f32)
    (a4 : FVec Ideal S16x16 .f32) (a5 : FVec Ideal S128x1 .f32) (a6 : FVec Ideal S1 .f32) (a7 : FVec Ideal S128x1 .f32)
    (a8 : FVec Ideal S1 .f32) (a9 : FVec Ideal S16x1 .f32) (a10 : FVec Ideal S1 .f32) (a11 : FVec Ideal S16x1 .f32)
    (a12 : FVec Ideal S1 .f32)
    (h : Cert.Pre_finite_inputs.fn (F := Ideal) a0 a1 a2 a3 a4 a5 a6 a7 a8 a9 a10 a11 a12 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) := by
  have h0 := congrFun h ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8, real_of_all a9 _ _ _ _ e9, real_of_all a10 _ _ _ _ e10, real_of_all a11 _ _ _ _ e11,
    real_of_all a12 _ _ _ _ e12⟩

end Cert.Pre_finite_inputs.Finite

end
-- ==== Proof.lean ====
/-
  The certificate's claim: the three programs run and leave their arguments unchanged, and the fused two-layer gated
  graph-convolution kernel and the plain reference compute the same result on finite inputs, read over the extended reals.

  The kernel's run leaves in its result array the network Z of the thirteen arguments with each layer's convex combination
  spelt  q + s · (p − q);  the reference's run leaves the same network spelt  s · p + (1 − s) · q.  Over the extended reals
  the two spellings differ at infinities, so the comparison uses the precondition: every entry of every argument is finite,
  hence a real number; then every quantity either layer forms is real, the two spellings agree in ℝ, and the first layer's
  result is real again, which carries the agreement through the second layer.
  Both word-level and ideal kernels have the same frame argument; the reference's frame is its run with the result dropped;
  the ideal reading rewrote no operation, so there is nothing to preserve beyond the program text itself.
-/
import proofs.«140471_g88347477279355_cont_sun_m_1058_38_alg».proof.Defs
import proofs.«140471_g88347477279355_cont_sun_m_1058_38_alg».proof.Proof.Gen.Kernel
import proofs.«140471_g88347477279355_cont_sun_m_1058_38_alg».proof.Proof.Gen.Kernel.Skeleton
import proofs.«140471_g88347477279355_cont_sun_m_1058_38_alg».proof.Proof.Gen.Kernel.Launch
import proofs.«140471_g88347477279355_cont_sun_m_1058_38_alg».proof.Proof.Gen.Kernel.Points
import proofs.«140471_g88347477279355_cont_sun_m_1058_38_alg».proof.Proof.Gen.KernelIdeal
import proofs.«140471_g88347477279355_cont_sun_m_1058_38_alg».proof.Proof.Gen.KernelIdeal.Skeleton
import proofs.«140471_g88347477279355_cont_sun_m_1058_38_alg».proof.Proof.Gen.KernelIdeal.Launch
import proofs.«140471_g88347477279355_cont_sun_m_1058_38_alg».proof.Proof.Gen.KernelIdeal.Points
import proofs.«140471_g88347477279355_cont_sun_m_1058_38_alg».proof.Proof.Gen.ReferenceIdeal
import proofs.«140471_g88347477279355_cont_sun_m_1058_38_alg».proof.Proof.Gen.Pre_finite_inputs
import proofs.«140471_g88347477279355_cont_sun_m_1058_38_alg».proof.Proof.Gen.ReferenceIdeal.Run
import proofs.«140471_g88347477279355_cont_sun_m_1058_38_alg».proof.Proof.Gen.ReferenceIdeal.Read
import proofs.«140471_g88347477279355_cont_sun_m_1058_38_alg».proof.Proof.KFrame
import proofs.«140471_g88347477279355_cont_sun_m_1058_38_alg».proof.Proof.KIFrame
import proofs.«140471_g88347477279355_cont_sun_m_1058_38_alg».proof.Proof.KIValFinal
import proofs.«140471_g88347477279355_cont_sun_m_1058_38_alg».proof.Proof.RefValue
import proofs.«140471_g88347477279355_cont_sun_m_1058_38_alg».proof.Proof.LayerAlgebra
import proofs.«140471_g88347477279355_cont_sun_m_1058_38_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Fr.frame m ρ

/-- The kernel at the exact-real reading runs and leaves its arguments unchanged. -/
theorem frame_ki : Cert.frame_KernelIdeal := fun m ρ _ => Cert.KernelIdeal.Fr.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Kernel and reference end with equal results: both are the two-layer network of the arguments, in two spellings of the
    convex combination that agree on real data. -/
theorem algebraic : Cert.algebraic_KernelIdeal_ReferenceIdeal := by
  intro m ρ m' ρ' hpre hagree
  refine ⟨fun c => Cert.KernelIdeal.Val.Z m c, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12⟩ := hagree c
  obtain ⟨r0, r1, r2, r3, r4, r5, r6, r7, r8, r9, r10, r11, r12⟩ :=
    Cert.Pre_finite_inputs.Finite.real_of_pre _ _ _ _ _ _ _ _ _ _ _ _ _ (hpre c)
  show _ = Cert.KernelIdeal.Val.Z m c
  rw [Cert.ReferenceIdeal.RefValue.res_eq, g0, g1, g2, g3, g4, g5, g6, g7, g8, g9, g10, g11, g12,
    Cert.KernelIdeal.Val.Z_eq_netK]
  exact (Cert.Gated.netK_eq_netR _ _ _ _ _ _ _ _ _ _ _ _ _ r0 r1 r2 r3 r4 r5 r6 r7 r8 r9 r10 r11 r12).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
